-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg19 : FVec F S2x64 .f32) (main_arg20 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S2x64 .f32 := Host.absf main_arg19
  let main_cst_34 : FVec F S_ .f32 := constant S_ .f32 0x7F800000#32
  let main_v90 : FVec F S2x64 .f32 := broadcastInDim S2x64 ![] bcast_S_S2x64 main_cst_34
  let main_v91 : IVec S2x64 1 := cmpf .olt main_v89 main_v90
  let main_c_35 : IVec S_ 1 := constantI S_ 1 1#1
  let main_v92 : IVec S_ 1 := (fun x v => Host.reduce IntOp.andi x v reducesTo_S2x64_S_d0_1 h_S_) main_v91 main_c_35
  let main_v93 : IVec S_ 1 := andi main_v88 main_v92
  let main_v94 : FVec F S2 .f32 := Host.absf main_arg20
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S64x128 .f32) (main_arg18 : FVec F S64 .f32) (main_arg19 : FVec F S2x64 .f32) (main_arg20 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x128 .f32 := Host.absf main_arg17
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S64x128 .f32) (main_arg18 : FVec F S64 .f32) (main_arg19 : FVec F S2x64 .f32) (main_arg20 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S64x128 .f32) (main_arg18 : FVec F S64 .f32) (main_arg19 : FVec F S2x64 .f32) (main_arg20 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S64x128 .f32) (main_arg18 : FVec F S64 .f32) (main_arg19 : FVec F S2x64 .f32) (main_arg20 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S64x128 .f32) (main_arg18 : FVec F S64 .f32) (main_arg19 : FVec F S2x64 .f32) (main_arg20 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S160x128 : Shape := ⟨2, ![160, 128]⟩
abbrev S5000x128 : Shape := ⟨2, ![5000, 128]⟩
abbrev S5000x1 : Shape := ⟨2, ![5000, 1]⟩
abbrev S8x128 : Shape := ⟨2, ![8, 128]⟩
abbrev S128x64 : Shape := ⟨2, ![128, 64]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000x64 : Shape := ⟨2, ![5000, 64]⟩

abbrev nBuf : Space → Nat
  | .hbm => 169
  | .vmem => 67
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S64x128, .f32⟩
  | 18 => ⟨S64, .f32⟩
  | 19 => ⟨S2x64, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .bf16⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .bf16⟩
  | 48 => ⟨S800000x128, .f32⟩
  | 49 => ⟨S_, .f32⟩
  | 50 => ⟨S100000x128, .f32⟩
  | 51 => ⟨S800000x1, .i32⟩
  | 52 => ⟨S100000x128, .f32⟩
  | 53 => ⟨S128x128, .f32⟩
  | 54 => ⟨S128x128, .f32⟩
  | 55 => ⟨S1x128, .f32⟩
  | 56 => ⟨S100000x128, .f32⟩
  | 57 => ⟨S160x128, .f32⟩
  | 58 => ⟨S160x128, .f32⟩
  | 59 => ⟨S_, .f32⟩
  | 60 => ⟨S128, .f32⟩
  | 61 => ⟨S_, .f32⟩
  | 62 => ⟨S128, .f32⟩
  | 63 => ⟨S128, .f32⟩
  | 64 => ⟨S_, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S128, .f32⟩
  | 76 => ⟨S128, .f32⟩
  | 77 => ⟨S128, .f32⟩
  | 78 => ⟨S1x128, .f32⟩
  | 79 => ⟨S1x128, .f32⟩
  | 80 => ⟨S100000x128, .bf16⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .bf16⟩
  | 90 => ⟨S800000x128, .f32⟩
  | 91 => ⟨S_, .f32⟩
  | 92 => ⟨S100000x128, .f32⟩
  | 93 => ⟨S800000x1, .i32⟩
  | 94 => ⟨S100000x128, .f32⟩
  | 95 => ⟨S128x128, .f32⟩
  | 96 => ⟨S128x128, .f32⟩
  | 97 => ⟨S1x128, .f32⟩
  | 98 => ⟨S100000x128, .f32⟩
  | 99 => ⟨S160x128, .f32⟩
  | 100 => ⟨S160x128, .f32⟩
  | 101 => ⟨S_, .f32⟩
  | 102 => ⟨S128, .f32⟩
  | 103 => ⟨S_, .f32⟩
  | 104 => ⟨S128, .f32⟩
  | 105 => ⟨S128, .f32⟩
  | 106 => ⟨S_, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S128, .f32⟩
  | 119 => ⟨S128, .f32⟩
  | 120 => ⟨S1x128, .f32⟩
  | 121 => ⟨S1x128, .f32⟩
  | 122 => ⟨S100000x128, .bf16⟩
  | 123 => ⟨S_, .i32⟩
  | 124 => ⟨S800000, .i32⟩
  | 125 => ⟨S800000, .i1⟩
  | 126 => ⟨S_, .i32⟩
  | 127 => ⟨S800000, .i32⟩
  | _ => ⟨S100000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .bf16⟩
  | 4 => ⟨S800000x128, .f32⟩
  | 5 => ⟨S_, .f32⟩
  | 6 => ⟨S100000x128, .f32⟩
  | 7 => ⟨S800000x1, .i32⟩
  | 8 => ⟨S100000x128, .f32⟩
  | 9 => ⟨S128x128, .f32⟩
  | 10 => ⟨S128x128, .f32⟩
  | 11 => ⟨S1x128, .f32⟩
  | 12 => ⟨S100000x128, .f32⟩
  | 13 => ⟨S160x128, .f32⟩
  | 14 => ⟨S160x128, .f32⟩
  | 15 => ⟨S_, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S_, .f32⟩
  | 23 => ⟨S128, .f32⟩
  | 24 => ⟨S128, .f32⟩
  | 25 => ⟨S128, .f32⟩
  | 26 => ⟨S128, .f32⟩
  | 27 => ⟨S_, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S128x64, .f32⟩
  | 35 => ⟨S64x2, .f32⟩
  | 36 => ⟨S1x128, .f32⟩
  | 37 => ⟨S1x128, .f32⟩
  | 38 => ⟨S1x64, .f32⟩
  | 39 => ⟨S1x2, .f32⟩
  | 40 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .bf16⟩
  | .local _ .vmem, ⟨41, _⟩ => ⟨S5000x128, .bf16⟩
  | .local _ .vmem, ⟨42, _⟩ => ⟨S5000x128, .bf16⟩
  | .local _ .vmem, ⟨43, _⟩ => ⟨S5000x128, .bf16⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | .local _ .vmem, ⟨53, _⟩ => ⟨S8x128, .f32⟩
  | .local _ .vmem, ⟨54, _⟩ => ⟨S8x128, .f32⟩
  | .local _ .vmem, ⟨55, _⟩ => ⟨S8x128, .f32⟩
  | .local _ .vmem, ⟨56, _⟩ => ⟨S8x128, .f32⟩
  | .local _ .vmem, ⟨57, _⟩ => ⟨S5000x128, .f32⟩
  | .local _ .vmem, ⟨58, _⟩ => ⟨S5000x128, .f32⟩
  | .local _ .vmem, ⟨59, _⟩ => ⟨S1x128, .f32⟩
  | .local _ .vmem, ⟨60, _⟩ => ⟨S1x128, .f32⟩
  | .local _ .vmem, ⟨61, _⟩ => ⟨S128x64, .f32⟩
  | .local _ .vmem, ⟨62, _⟩ => ⟨S1x64, .f32⟩
  | .local _ .vmem, ⟨63, _⟩ => ⟨S64x2, .f32⟩
  | .local _ .vmem, ⟨64, _⟩ => ⟨S1x2, .f32⟩
  | .local _ .vmem, ⟨65, _⟩ => ⟨S5000x2, .f32⟩
  | .local _ .vmem, ⟨66, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v28_2 : Ref sig .tc := ⟨.hbm, 58, rfl⟩
abbrev main_cst_5 : Ref sig .tc := ⟨.hbm, 59, rfl⟩
abbrev main_v29 : Ref sig .tc := ⟨.hbm, 60, rfl⟩
abbrev main_cst_6 : Ref sig .tc := ⟨.hbm, 61, rfl⟩
abbrev main_v30 : Ref sig .tc := ⟨.hbm, 62, rfl⟩
abbrev main_v31 : Ref sig .tc := ⟨.hbm, 63, rfl⟩
abbrev main_cst_7 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_c_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60_0 : Ref sig .tc := ⟨.hbm, 98, rfl⟩
abbrev main_v60_1 : Ref sig .tc := ⟨.hbm, 99, rfl⟩
abbrev main_v60_2 : Ref sig .tc := ⟨.hbm, 100, rfl⟩
abbrev main_cst_13 : Ref sig .tc := ⟨.hbm, 101, rfl⟩
abbrev main_v61 : Ref sig .tc := ⟨.hbm, 102, rfl⟩
abbrev main_cst_14 : Ref sig .tc := ⟨.hbm, 103, rfl⟩
abbrev main_v62 : Ref sig .tc := ⟨.hbm, 104, rfl⟩
abbrev main_v63 : Ref sig .tc := ⟨.hbm, 105, rfl⟩
abbrev main_cst_15 : Ref sig .tc := ⟨.hbm, 106, rfl⟩
abbrev main_v64 : Ref sig .tc := ⟨.hbm, 107, rfl⟩
abbrev main_cst_16 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_18 : Ref sig .tc := ⟨.hbm, 123, rfl⟩
abbrev main_v78 : Ref sig .tc := ⟨.hbm, 124, rfl⟩
abbrev main_v79 : Ref sig .tc := ⟨.hbm, 125, rfl⟩
abbrev main_c_19 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_20 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92_0 : Ref sig .tc := ⟨.hbm, 140, rfl⟩
abbrev main_v92_1 : Ref sig .tc := ⟨.hbm, 141, rfl⟩
abbrev main_v92_2 : Ref sig .tc := ⟨.hbm, 142, rfl⟩
abbrev main_cst_21 : Ref sig .tc := ⟨.hbm, 143, rfl⟩
abbrev main_v93 : Ref sig .tc := ⟨.hbm, 144, rfl⟩
abbrev main_cst_22 : Ref sig .tc := ⟨.hbm, 145, rfl⟩
abbrev main_v94 : Ref sig .tc := ⟨.hbm, 146, rfl⟩
abbrev main_v95 : Ref sig .tc := ⟨.hbm, 147, rfl⟩
abbrev main_cst_23 : Ref sig .tc := ⟨.hbm, 148, rfl⟩
abbrev main_v96 : Ref sig .tc := ⟨.hbm, 149, rfl⟩
abbrev main_cst_24 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_25 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc4_stg8_0 : Ref sig .tc := ⟨.vmem, 55, rfl⟩
abbrev cc4_stg8_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg7_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem3_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem7_1 : DmaSem sig := 54
abbrev cc4_sem8_0 : DmaSem sig := 55
abbrev cc4_sem8_1 : DmaSem sig := 56
abbrev cc5_sem0_0 : DmaSem sig := 57
abbrev cc5_sem0_1 : DmaSem sig := 58
abbrev cc5_sem1_0 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem7_1 : DmaSem sig := 66

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x2 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S_S128 : S_.BroadcastsInDim S128 (![] : Fin 0 → Fin S128.rank)
  packedbf16_S5000x128_S5000x128_0_0 : (Rect.unit (s := S5000x128) ![0, 0] S5000x128.size inb_S5000x128_S5000x128_0_0).PackedRows (EltTy.packing .bf16)
  transposes_S64x128_S128x64_1_0 : S64x128.Transposes [1, 0] S128x64
  transposes_S2x64_S64x2_1_0 : S2x64.Transposes [1, 0] S64x2
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S160x128.size a
  hwx0_7 : ∀ i : grid0.Coords, EltTy.bits .f32 = 32 ∨ (Rect.block (s := S160x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S160x128.size a
  hwx0_8 : ∀ i : grid0.Coords, EltTy.bits .f32 = 32 ∨ (Rect.block (s := S160x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .bf16 = 32 ∨ (Rect.block (s := S100000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S160x128.size a
  hwx2_7 : ∀ i : grid2.Coords, EltTy.bits .f32 = 32 ∨ (Rect.block (s := S160x128) S8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S160x128.size a
  hwx2_8 : ∀ i : grid2.Coords, EltTy.bits .f32 = 32 ∨ (Rect.block (s := S160x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .bf16 = 32 ∨ (Rect.block (s := S100000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .bf16 = 32 ∨ (Rect.block (s := S100000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S160x128.size a
  hwx4_7 : ∀ i : grid4.Coords, EltTy.bits .f32 = 32 ∨ (Rect.block (s := S160x128) S8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S160x128.size a
  hwx4_8 : ∀ i : grid4.Coords, EltTy.bits .f32 = 32 ∨ (Rect.block (s := S160x128) S8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x2.size a ≤ S64x2.size a
  hwx5_5 : ∀ i : grid5.Coords, EltTy.bits .f32 = 32 ∨ (Rect.block (s := S64x2) S64x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2.size a ≤ S1x2.size a
  hwx5_6 : ∀ i : grid5.Coords, EltTy.bits .f32 = 32 ∨ (Rect.block (s := S1x2) S1x2.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x2.size a ≤ S100000x2.size a
  hwx5_7 : ∀ i : grid5.Coords, EltTy.bits .f32 = 32 ∨ (Rect.block (s := S100000x2) S5000x2.size (cc5_transform_7 i) (hinb5_7 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60_1) S8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v60_2) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v60_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v89) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v92_1) S8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v92_2) S8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v92_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S64x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v112) S1x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v113) S5000x2.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 236
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S64x128, .f32⟩
  | 18 => ⟨S64, .f32⟩
  | 19 => ⟨S2x64, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S100000x128, .f32⟩
  | 36 => ⟨S800000x1, .i32⟩
  | 37 => ⟨S100000x128, .f32⟩
  | 38 => ⟨S_, .f32⟩
  | 39 => ⟨S800000, .f32⟩
  | 40 => ⟨S_, .f32⟩
  | 41 => ⟨S100000, .f32⟩
  | 42 => ⟨S800000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S128x128, .f32⟩
  | 51 => ⟨S100000x128, .f32⟩
  | 52 => ⟨S1x128, .f32⟩
  | 53 => ⟨S100000x128, .f32⟩
  | 54 => ⟨S100000x128, .f32⟩
  | 55 => ⟨S128x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S100000x128, .f32⟩
  | 102 => ⟨S800000x1, .i32⟩
  | 103 => ⟨S100000x128, .f32⟩
  | 104 => ⟨S_, .f32⟩
  | 105 => ⟨S800000, .f32⟩
  | 106 => ⟨S_, .f32⟩
  | 107 => ⟨S100000, .f32⟩
  | 108 => ⟨S800000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S128x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S100000x128, .f32⟩
  | 40 => ⟨S800000x1, .i32⟩
  | 41 => ⟨S100000x128, .f32⟩
  | 42 => ⟨S_, .f32⟩
  | 43 => ⟨S800000, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S128x128, .f32⟩
  | 55 => ⟨S100000x128, .f32⟩
  | 56 => ⟨S1x128, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S128x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S64x2, .f32⟩
  | 104 => ⟨S100000x2, .f32⟩
  | 105 => ⟨S1x2, .f32⟩
  | 106 => ⟨S100000x2, .f32⟩
  | 107 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call0_cst : Ref sig .tc := ⟨.hbm, 88, rfl⟩
abbrev main_call0_v0 : Ref sig .tc := ⟨.hbm, 89, rfl⟩
abbrev main_v56 : Ref sig .tc := ⟨.hbm, 90, rfl⟩
abbrev main_c_9 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_12 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_17 : Ref sig .tc := ⟨.hbm, 133, rfl⟩
abbrev main_v91 : Ref sig .tc := ⟨.hbm, 134, rfl⟩
abbrev main_cst_18 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call1_cst : Ref sig .tc := ⟨.hbm, 154, rfl⟩
abbrev main_call1_v0 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_c_21 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_22 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_23 : Ref sig .tc := ⟨.hbm, 170, rfl⟩
abbrev main_v120 : Ref sig .tc := ⟨.hbm, 171, rfl⟩
abbrev main_cst_24 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_25 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_26 : Ref sig .tc := ⟨.hbm, 190, rfl⟩
abbrev main_v137 : Ref sig .tc := ⟨.hbm, 191, rfl⟩
abbrev main_cst_27 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_28 : Ref sig .tc := ⟨.hbm, 199, rfl⟩
abbrev main_v144 : Ref sig .tc := ⟨.hbm, 200, rfl⟩
abbrev main_cst_29 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_30 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_call2_cst : Ref sig .tc := ⟨.hbm, 220, rfl⟩
abbrev main_call2_v0 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_call3_cst : Ref sig .tc := ⟨.hbm, 228, rfl⟩
abbrev main_call3_v0 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KerRun.lean ====
/-
  The idealized kernel's run with its result named.

  The whole program is twelve segments: a stretch of host operations, then a tiled call, six times over. Every weakly
  fair execution ends, faults nowhere, leaves the twenty-one argument arrays as launched, and leaves the result array
  at what the last call's write-backs leave: the contents of the result's buffer in the fold of the buffer contents
  through the twelve segments.
-/
import proofs.«104689_j73624329388568_2_alg».proof.Proof.Gen.KernelIdeal.Frame

set_option maxRecDepth 16384

noncomputable section

namespace Cert.Sage.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v113) = W12 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v113 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c)⟩)

end Cert.Sage.Ker

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.KerBodyLin.lean ====
/-
  The linear body at an entry.

  One grid point of the linear kernel holds a 5000-row tile. At row p and column q of the tile its stored value is

    (sum_k (agg(p,k) * dinv(p)) * WnT(k,q) + sum_k h(p,k) * WrT(k,q)) + bn(q):

  the two matrix products start from a zero block, so each is the plain sum over the 128 contracted positions; the
  reciprocal-degree column is spread along the row and the bias row down the column before the pointwise product and
  sum; narrowing to a shorter float format changes nothing on the extended reals.
-/
import proofs.«104689_j73624329388568_2_alg».proof.Proof.Gen.KernelIdeal.Skeleton
import proofs.«104689_j73624329388568_2_alg».proof.Proof.LibPlainDot
import proofs.«104689_j73624329388568_2_alg».proof.Proof.LibRowLayout
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.ValueIdx
open scoped BigOperators

/-- The tile's 128-wide products, started from zero, are plain sums over the contracted position. -/
theorem tile_matmul (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  PlainDot.matmul_zero_apply dot_S5000x128_S128x128_S5000x128_1_0_0_1_n_n rfl rfl rfl rfl rfl rfl rfl rfl none a b p q

/-- The linear body's stored value at (p, q) of its tile. -/
theorem lin_pay (v0 : Vec Ideal S5000x128 .f32) (v2 : Vec Ideal S5000x1 .f32) (v7 : Vec Ideal S5000x128 .bf16)
    (v9 v12 : Vec Ideal S128x128 .f32) (v18 : Vec Ideal S1x128 .f32) (p : Fin 5000) (q : Fin 128) :
    k0_pay2 (F := Ideal) v0 v2 v7 v9 v12 v18 (ix2 p q)
      = (∑ k : Fin 128, (v0 (ix2 p k) * v2 (ix2 p (0 : Fin 1))) * v9 (ix2 k q) + ∑ k : Fin 128, v7 (ix2 p k) * v12 (ix2 k q))
          + v18 (ix2 (0 : Fin 1) q) := by
  unfold k0_pay2
  simp only [shapeCast_self]
  rw [addf_apply, addf_apply, tile_matmul, tile_matmul, broadcastTo_1b_ab_apply]
  refine congrArg₂ (· + ·) (congrArg₂ (· + ·) (Finset.sum_congr rfl fun k _ => ?_) rfl) rfl
  rw [truncf_apply, truncf_apply, mulf_apply, Cert.LibRowLayout.broadcastTo_a1_ab_apply]

end Cert.Sage.Ker

end
-- ==== Proof.KerBodySums.lean ====
/-
  The column totals of the linear body at an entry.

  Besides its tile, one grid point of the linear kernel leaves two 8 x 128 blocks: the totals of the tile's
  columns, and the totals of the squares of the tile's columns, each written on row 0 of its block with 0 on the
  other seven rows. The total of a column is the sum over the 5000 rows of the tile; the row index of the block is
  compared with 0 to choose between the total and the constant 0.
-/
import proofs.«104689_j73624329388568_2_alg».proof.Proof.Gen.KernelIdeal.Skeleton
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.ValueIdx
open scoped BigOperators

/-- A choice on "row index = 0", for a row index below 8. -/
theorem select_row0 {α : Type} (h : Nat) (hh : h < 8) (A B : α) :
    Scalar.select (IntOp.cmpi .eq (BitVec.ofNat 32 h) 0#32) A B = if h = 0 then A else B := by
  interval_cases h <;> rfl

/-- The index a sum over the first axis of `[a, b]` visits at column `i` and position `k` is `(k, i)`. -/
theorem lift_col {a b : ℕ} (h : (⟨2, ![a, b]⟩ : Shape).Reduces [0] ⟨1, ![b]⟩) (i : Fin b) (k : Fin a) :
    h.lift (ix1 i) k = ix2 k i :=
  funext fun d => Fin.ext (by match d with | ⟨0, _⟩ => rfl | ⟨1, _⟩ => rfl)

/-- A sum over the first axis of an `[a, b]` array of extended reals, read at column `i`: the sum of the column. -/
theorem multiReduction_col {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (i : Fin b) : multiReduction .add [0] ⟨1, ![b]⟩ src acc h hφ hacc (ix1 i) = ∑ k : Fin a, src (ix2 k i) := by
  refine (Ideal.multiReduction_add_single src acc h hφ hacc (ix1 i)).trans ?_
  exact Finset.sum_congr rfl fun k _ => congrArg src (lift_col h i k)

/-- A 128-vector of column totals laid on row 0 of an 8 x 128 block, the other rows taken from `w`. -/
theorem row0_block (c : FVec Ideal S128 .f32) (w : FVec Ideal S8x128 .f32) (r : Fin 8) (q : Fin 128) :
    select (cmpi .eq (iota .tc S8x128 32 [0] iota_S8x128_d0_w32) (broadcast S8x128 0#32))
        (broadcastTo S8x128 (shapeCast S1x128 (shapeCast S1x128 c shapeCasts_S128_S1x128) shapeCasts_S1x128_S1x128)
          broadcasts_S1x128_S8x128) w (ix2 r q)
      = if r.val = 0 then c (ix1 q) else w (ix2 r q) := by
  rw [select_apply]
  show Scalar.select (IntOp.cmpi .eq (iota .tc S8x128 32 [0] iota_S8x128_d0_w32 (ix2 r q)) (broadcast S8x128 0#32 (ix2 r q))) _ _ = _
  rw [iota_single_apply, broadcast_apply]
  show Scalar.select (IntOp.cmpi .eq (BitVec.ofNat 32 r.val) 0#32) _ _ = _
  rw [select_row0 r.val r.isLt, broadcastTo_1b_ab_apply, shapeCast_self, shapeCast_a_1a_apply]

/-- The constant block is 0 everywhere. -/
theorem zero_block (r : Fin 8) (q : Fin 128) : k0_pay4 (F := Ideal) (ix2 r q) = 0 := by
  unfold k0_pay4
  rw [broadcast_apply]
  exact Ideal.ofBits_zero_f32

/-- The block of column totals: row 0 holds the totals of the tile's columns, the other rows 0. -/
theorem sumz_pay (v0 : Vec Ideal S5000x128 .f32) (v2 : Vec Ideal S5000x1 .f32) (v7 : Vec Ideal S5000x128 .bf16)
    (v9 v12 : Vec Ideal S128x128 .f32) (v18 : Vec Ideal S1x128 .f32) (r : Fin 8) (q : Fin 128) :
    k0_pay5 (F := Ideal) v0 v2 v7 v9 v12 v18 (ix2 r q)
      = if r.val = 0 then ∑ y : Fin 5000, k0_pay2 (F := Ideal) v0 v2 v7 v9 v12 v18 (ix2 y q) else 0 := by
  unfold k0_pay5
  exact (row0_block _ _ r q).trans
    (ite_congr rfl (fun _ => multiReduction_col _ _ _ _ _ q) (fun _ => zero_block r q))

/-- The block of column totals of squares: row 0 holds the totals of the squares of the tile's columns, the other
    rows 0. -/
theorem sumsq_pay (v0 : Vec Ideal S5000x128 .f32) (v2 : Vec Ideal S5000x1 .f32) (v7 : Vec Ideal S5000x128 .bf16)
    (v9 v12 : Vec Ideal S128x128 .f32) (v18 : Vec Ideal S1x128 .f32) (r : Fin 8) (q : Fin 128) :
    k0_pay1 (F := Ideal) (k0_pay3 v0 v2 v7 v9 v12 v18) (iota .tc S8x128 32 [0] iota_S8x128_d0_w32) (k0_pay4 (F := Ideal))
        (ix2 r q)
      = if r.val = 0 then ∑ y : Fin 5000, k0_pay2 (F := Ideal) v0 v2 v7 v9 v12 v18 (ix2 y q)
          * k0_pay2 (F := Ideal) v0 v2 v7 v9 v12 v18 (ix2 y q) else 0 := by
  unfold k0_pay1 k0_pay3
  exact (row0_block _ _ r q).trans
    (ite_congr rfl
      (fun _ => (multiReduction_col _ _ _ _ _ q).trans (Finset.sum_congr rfl fun y _ => mulf_apply _ _ _))
      (fun _ => zero_block r q))

/-! ### The other two linear layers

The second and third linear kernels are the same program text as the first: their bodies are the same terms. -/

theorem k2_pay1_eq : @k2_pay1 Ideal = @k0_pay1 Ideal := rfl
theorem k2_pay2_eq : @k2_pay2 Ideal _ = @k0_pay2 Ideal _ := rfl
theorem k2_pay3_eq : @k2_pay3 Ideal _ = @k0_pay3 Ideal _ := rfl
theorem k2_pay4_eq : @k2_pay4 Ideal _ = @k0_pay4 Ideal _ := rfl
theorem k2_pay5_eq : @k2_pay5 Ideal _ = @k0_pay5 Ideal _ := rfl
theorem k4_pay1_eq : @k4_pay1 Ideal = @k0_pay1 Ideal := rfl
theorem k4_pay2_eq : @k4_pay2 Ideal _ = @k0_pay2 Ideal _ := rfl
theorem k4_pay3_eq : @k4_pay3 Ideal _ = @k0_pay3 Ideal _ := rfl
theorem k4_pay4_eq : @k4_pay4 Ideal _ = @k0_pay4 Ideal _ := rfl
theorem k4_pay5_eq : @k4_pay5 Ideal _ = @k0_pay5 Ideal _ := rfl

end Cert.Sage.Ker

end
-- ==== Proof.Spec.lean ====
/-
  The mathematics of one mean-aggregation graph layer with batch normalisation, and of the two-layer read-out, as
  functions of coordinates on the extended reals.

  A layer takes node features `h` (N rows, C columns), the neighbour sums `A` (same shape), a per-node factor
  `dinv` (the reciprocal of the clipped in-degree), two C x C weight matrices given already transposed (entry (k, q)
  multiplies input column k into output column q), and a bias row:

    lin h A dinv WnT WrT bn (p, q) = (sum_k (A(p,k) * dinv(p)) * WnT(k,q) + sum_k h(p,k) * WrT(k,q)) + bn(q).

  Batch normalisation over the N rows, followed by a maximum with 0, is written twice: centred (the mean first, then
  the mean of the squared deviations) and uncentred (the mean of the squares minus the squared mean, folded into one
  scale and one shift per column). Over real entries the two agree; that is proved elsewhere. The sums start from an
  explicit 0 because both programs start their accumulations there.
-/
import Idealize.ShloMosaic.PureOps.Ideal

noncomputable section

namespace Cert.Sage

open Idealize.ShloMosaic
open scoped BigOperators

variable {N C H O : Nat}

/-- The linear part of a layer, neighbour mean taken as a product with the reciprocal degree. -/
def lin (h A : Fin N → Fin C → EReal) (dinv : Fin N → EReal) (WnT WrT : Fin C → Fin C → EReal) (bn : Fin C → EReal)
    (p : Fin N) (q : Fin C) : EReal :=
  (∑ k : Fin C, (A p k * dinv p) * WnT k q + ∑ k : Fin C, h p k * WrT k q) + bn q

/-- The same with the neighbour mean taken as a quotient by the clipped degree, and the bias added before the
    self term. -/
def linQuot (h A : Fin N → Fin C → EReal) (d : Fin N → EReal) (WnT WrT : Fin C → Fin C → EReal) (bn : Fin C → EReal)
    (p : Fin N) (q : Fin C) : EReal :=
  (∑ k : Fin C, Ideal.div (A p k) (d p) * WnT k q + bn q) + ∑ k : Fin C, h p k * WrT k q

/-- Column mean over the rows, the sum started at 0 and divided by `n`. -/
def colMean (z : Fin N → Fin C → EReal) (n : EReal) (q : Fin C) : EReal :=
  Ideal.div (0 + ∑ p : Fin N, z p q) n

/-- Column mean of the squared deviations from the column mean. -/
def colVar (z : Fin N → Fin C → EReal) (n : EReal) (q : Fin C) : EReal :=
  Ideal.div (0 + ∑ p : Fin N, (z p q - colMean z n q) * (z p q - colMean z n q)) n

/-- Column mean of the squares. -/
def colMeanSq (z : Fin N → Fin C → EReal) (n : EReal) (q : Fin C) : EReal :=
  Ideal.div (0 + ∑ p : Fin N, z p q * z p q) n

/-- Centred batch normalisation with gain `g`, offset `be`, then the maximum with 0. -/
def normRelu (z : Fin N → Fin C → EReal) (g be : Fin C → EReal) (n eps : EReal) (p : Fin N) (q : Fin C) : EReal :=
  max (((g q * (z p q - colMean z n q)) * Ideal.rsqrt (colVar z n q + eps)) + be q) 0

/-- The per-column scale of the uncentred form. -/
def scaleOf (z : Fin N → Fin C → EReal) (g : Fin C → EReal) (n eps : EReal) (q : Fin C) : EReal :=
  g q * Ideal.rsqrt ((colMeanSq z n q - colMean z n q * colMean z n q) + eps)

/-- The per-column shift of the uncentred form. -/
def shiftOf (z : Fin N → Fin C → EReal) (g be : Fin C → EReal) (n eps : EReal) (q : Fin C) : EReal :=
  be q - colMean z n q * scaleOf z g n eps q

/-- Uncentred batch normalisation as one multiply-add per entry, then the maximum with 0. -/
def affineRelu (z : Fin N → Fin C → EReal) (g be : Fin C → EReal) (n eps : EReal) (p : Fin N) (q : Fin C) : EReal :=
  max (z p q * scaleOf z g n eps q + shiftOf z g be n eps q) 0

/-- The read-out: a dense layer, a maximum with 0, a second dense layer. Weights given transposed. -/
def readout (hh : Fin N → Fin C → EReal) (W1T : Fin C → Fin H → EReal) (b1 : Fin H → EReal)
    (W2T : Fin H → Fin O → EReal) (b2 : Fin O → EReal) (p : Fin N) (o : Fin O) : EReal :=
  (∑ j : Fin H, max ((∑ k : Fin C, hh p k * W1T k j) + b1 j) 0 * W2T j o) + b2 o

/-- Every entry is a real number. -/
def Real2 {A B : Nat} (x : Fin A → Fin B → EReal) : Prop := ∀ a b, ∃ r : ℝ, x a b = (r : EReal)

/-- Every entry is a real number. -/
def Real1 {A : Nat} (x : Fin A → EReal) : Prop := ∀ a, ∃ r : ℝ, x a = (r : EReal)

end Cert.Sage

end
-- ==== Proof.Layers.lean ====
/-
  Arrays by coordinates, and the three float words the two programs share.

  An array of rank 2 is read here as a function of its row and its column (`cur2`), a vector as a function of its
  position (`cur1`); `arr2` goes back. The words: 0x47C35000 is 100000 (the number of rows every column mean is
  divided by), 0x3727C5AC is a positive real (the stabiliser added to a variance), and the zero and one words.
-/
import Idealize.ShloMosaic.Lib.ValueIdx
import Idealize.ShloMosaic.PureOps.Ideal.Laws
import proofs.«104689_j73624329388568_2_alg».proof.Proof.Spec

noncomputable section

namespace Cert.Sage

open Idealize.ShloMosaic Idealize.ShloMosaic.ValueIdx

/-- A rank-2 array as a function of (row, column). -/
abbrev cur2 {α : Type} {a b : Nat} (x : (⟨2, ![a, b]⟩ : Shape).Idx → α) : Fin a → Fin b → α := fun p q => x (ix2 p q)
/-- A vector as a function of its position. -/
abbrev cur1 {α : Type} {a : Nat} (x : (⟨1, ![a]⟩ : Shape).Idx → α) : Fin a → α := fun p => x (ix1 p)
/-- A function of (row, column) as a rank-2 array. -/
abbrev arr2 {α : Type} {a b : Nat} (f : Fin a → Fin b → α) : (⟨2, ![a, b]⟩ : Shape).Idx → α := fun i => f (i 0) (i 1)

theorem arr2_cur2 {α : Type} {a b : Nat} (x : (⟨2, ![a, b]⟩ : Shape).Idx → α) : arr2 (cur2 x) = x := by
  funext i; exact congrArg x (eq_ix2 i).symm

/-- The row count as a float word. -/
abbrev nWord : EReal := Ideal.ofBits .f32 0x47C35000#32
/-- The variance stabiliser as a float word. -/
abbrev epsWord : EReal := Ideal.ofBits .f32 0x3727C5AC#32

/-- The word 0x47C35000 denotes 100000. -/
theorem nWord_eq : nWord = ((100000 : ℝ) : EReal) := by
  simp [nWord, Ideal.ofBits, Ideal.ieee, -EReal.coe_mul]; norm_num

/-- The word 0x3727C5AC denotes a positive real. -/
theorem epsWord_pos : ∃ e : ℝ, 0 < e ∧ epsWord = (e : EReal) := by
  refine ⟨_, ?_, by simp [epsWord, Ideal.ofBits, Ideal.ieee, -EReal.coe_mul]; rfl⟩
  norm_num

open scoped BigOperators in
/-- A column of the 160-row statistics array summed from 0 and divided by the row count of the feature array. -/
def colMeanK (s : (⟨2, ![160, 128]⟩ : Shape).Idx → EReal) (q : Fin 128) : EReal :=
  Ideal.div (0 + ∑ r : Fin 160, s (ix2 r q)) nWord

/-- The per-column scale the host computes from the two statistics arrays. -/
def scaleK (sumz sumsq : (⟨2, ![160, 128]⟩ : Shape).Idx → EReal) (g : (⟨1, ![128]⟩ : Shape).Idx → EReal) (q : Fin 128) : EReal :=
  g (ix1 q) * Ideal.rsqrt ((colMeanK sumsq q - colMeanK sumz q * colMeanK sumz q) + epsWord)

/-- The per-column shift the host computes from the two statistics arrays. -/
def shiftK (sumz sumsq : (⟨2, ![160, 128]⟩ : Shape).Idx → EReal) (g be : (⟨1, ![128]⟩ : Shape).Idx → EReal) (q : Fin 128) : EReal :=
  be (ix1 q) - colMeanK sumz q * scaleK sumz sumsq g q

end Cert.Sage

end
-- ==== Proof.LibTwoPassVariance.lean ====
/-
# The two-pass variance is the variance

For a finite family of real numbers `u` with `N` entries (`N ≠ 0`), total `S = Σ_i u_i` and mean `μ = S / N`,

  `Σ_i (u_i − μ)² / N = Σ_i u_i² / N − μ²`:

expand the square and use `Σ_i u_i = N μ`.  The left side is a sum of squares over a positive number, so it is not
negative; a maximum with `0` that guards the right side — as a kernel writes it against cancellation in floating
point — therefore changes nothing over the reals.

* `var_identity` — the identity, over any finite index type, the entry count given as a real number `N` with
  `(Fintype.card ι : ℝ) = N`.
* `var_nonneg` — a mean of squared deviations (from any centre) is not negative.
* `max_twoPass` — on the extended reals: `max (↑(Σu²/N) − ↑μ · ↑μ) 0 = ↑(Σ(u − μ)²/N)`.
-/
import Mathlib.Data.EReal.Inv
import Mathlib.Algebra.BigOperators.Ring.Finset
import Mathlib.Algebra.Order.BigOperators.Ring.Finset
import Mathlib.Tactic.Ring
import Mathlib.Tactic.FieldSimp

namespace LibTwoPassVariance

open scoped BigOperators

variable {ι : Type*} [Fintype ι]

/-- The variance identity: the mean of the squared deviations from the mean is the mean of the squares minus the
    square of the mean. -/
theorem var_identity (N : ℝ) (hN : (Fintype.card ι : ℝ) = N) (h0 : N ≠ 0) (u : ι → ℝ) :
    (∑ i, (u i - (∑ k, u k) / N) * (u i - (∑ k, u k) / N)) / N
      = (∑ i, u i * u i) / N - ((∑ k, u k) / N) * ((∑ k, u k) / N) := by
  generalize hS : (∑ k, u k) = S
  have h1 : ∀ i, (u i - S / N) * (u i - S / N) = u i * u i - 2 * (S / N) * u i + (S / N) * (S / N) := fun i => by ring
  have h2 : ∑ i, (u i - S / N) * (u i - S / N) = (∑ i, u i * u i) - 2 * (S / N) * S + N * ((S / N) * (S / N)) := by
    simp only [h1, Finset.sum_add_distrib, Finset.sum_sub_distrib, ← Finset.mul_sum, hS, Finset.sum_const,
      Finset.card_univ, nsmul_eq_mul, hN]
    ring
  rw [h2]; field_simp; ring

/-- A mean of squared deviations is not negative. -/
theorem var_nonneg (N : ℝ) (h0 : 0 < N) (u : ι → ℝ) (μ : ℝ) : 0 ≤ (∑ i, (u i - μ) * (u i - μ)) / N :=
  div_nonneg (Finset.sum_nonneg fun i _ => mul_self_nonneg _) h0.le

/-- On the extended reals the two-pass form clamped at zero is the variance. -/
theorem max_twoPass (N : ℝ) (hN : (Fintype.card ι : ℝ) = N) (h0 : 0 < N) (u : ι → ℝ) :
    max ((((∑ i, u i * u i) / N : ℝ) : EReal) - (((∑ k, u k) / N : ℝ) : EReal) * (((∑ k, u k) / N : ℝ) : EReal)) 0
      = (((∑ i, (u i - (∑ k, u k) / N) * (u i - (∑ k, u k) / N)) / N : ℝ) : EReal) := by
  rw [← EReal.coe_mul, ← EReal.coe_sub, ← var_identity N hN h0.ne' u]
  exact max_eq_left (EReal.coe_nonneg.mpr (var_nonneg N h0 u _))

end LibTwoPassVariance
-- ==== Proof.LibWeightedMix.lean ====
import Mathlib.Data.EReal.Inv
import Mathlib.Algebra.BigOperators.Group.Finset.Basic
import Mathlib.Algebra.BigOperators.Ring.Finset
import Mathlib.Tactic.Ring

/-!
# A weighted mix under a finite sum, in the extended reals

For real families `f A B C : K → ℝ` over a finite index type and real weights `w₀ w₁ w₂`, read in the
extended reals,

  `∑ k, f k * ((w₀ * A k + w₁ * B k) + w₂ * C k) = ((w₀ * ∑ k, f k * A k) + w₁ * ∑ k, f k * B k) + w₂ * ∑ k, f k * C k`:

contracting against a weighted mix of three families is the weighted mix of the three contractions. The
extended reals are not a ring (addition and multiplication do not distribute at the infinities), so the law
is proved for real entries: the coercion `ℝ → EReal` is pushed out of every product and sum, and the
identity is then distributivity in `ℝ`.

* `coe_finset_sum`: the coercion commutes with a finite sum.
* `sum_mul_mix`: the law for families given as real functions.
* `sum_mul_mix_of_real`: the law for extended-real families each of whose entries is a real number.
* `exists_real_add`, `exists_real_mul`, `exists_real_sum`, `exists_real_sum_mul`: sums, products and finite sums
  (of products) of real numbers are real numbers.
-/

namespace LibWeightedMix

open scoped BigOperators

variable {K : Type*}

/-- The coercion of the reals into the extended reals commutes with a finite sum. -/
theorem coe_finset_sum (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of two real numbers is a real number. -/
theorem exists_real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The product of two real numbers is a real number. -/
theorem exists_real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real numbers is a real number. -/
theorem exists_real_sum (s : Finset K) (g : K → EReal) (hg : ∀ k, ∃ r : ℝ, g k = (r : EReal)) :
    ∃ r : ℝ, ∑ k ∈ s, g k = (r : EReal) := by
  choose g' hg' using hg
  exact ⟨∑ k ∈ s, g' k, by simp only [hg', coe_finset_sum]⟩

/-- A finite sum of products of real numbers is a real number. -/
theorem exists_real_sum_mul (s : Finset K) (f A : K → EReal) (hf : ∀ k, ∃ r : ℝ, f k = (r : EReal))
    (hA : ∀ k, ∃ r : ℝ, A k = (r : EReal)) : ∃ r : ℝ, ∑ k ∈ s, f k * A k = (r : EReal) :=
  exists_real_sum s _ fun k => exists_real_mul (hf k) (hA k)

variable [Fintype K]

/-- Contracting against a weighted mix of three real families is the weighted mix of the three contractions. -/
theorem sum_mul_mix (f A B C : K → ℝ) (w0 w1 w2 : ℝ) :
    ∑ k, (f k : EReal) * (((w0 : EReal) * (A k : EReal) + (w1 : EReal) * (B k : EReal)) + (w2 : EReal) * (C k : EReal))
      = (((w0 : EReal) * ∑ k, (f k : EReal) * (A k : EReal)) + (w1 : EReal) * ∑ k, (f k : EReal) * (B k : EReal))
          + (w2 : EReal) * ∑ k, (f k : EReal) * (C k : EReal) := by
  simp only [← EReal.coe_mul, ← EReal.coe_add, ← coe_finset_sum]
  congr 1
  simp only [Finset.mul_sum, ← Finset.sum_add_distrib]
  exact Finset.sum_congr rfl fun k _ => by ring

/-- The same law for extended-real families and weights each of which is a real number. -/
theorem sum_mul_mix_of_real (f A B C : K → EReal) (w0 w1 w2 : EReal)
    (hf : ∀ k, ∃ r : ℝ, f k = (r : EReal)) (hA : ∀ k, ∃ r : ℝ, A k = (r : EReal))
    (hB : ∀ k, ∃ r : ℝ, B k = (r : EReal)) (hC : ∀ k, ∃ r : ℝ, C k = (r : EReal))
    (h0 : ∃ r : ℝ, w0 = (r : EReal)) (h1 : ∃ r : ℝ, w1 = (r : EReal)) (h2 : ∃ r : ℝ, w2 = (r : EReal)) :
    ∑ k, f k * ((w0 * A k + w1 * B k) + w2 * C k)
      = ((w0 * ∑ k, f k * A k) + w1 * ∑ k, f k * B k) + w2 * ∑ k, f k * C k := by
  choose f' hf' using hf
  choose A' hA' using hA
  choose B' hB' using hB
  choose C' hC' using hC
  obtain ⟨r0, rfl⟩ := h0
  obtain ⟨r1, rfl⟩ := h1
  obtain ⟨r2, rfl⟩ := h2
  simp only [hf', hA', hB', hC']
  exact sum_mul_mix f' A' B' C' r0 r1 r2

end LibWeightedMix
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.NormLaws.lean ====
/-
  Laws of the layer specification on real entries.

  * The linear part of a layer written with a quotient by the clipped degree and the bias added before the self
    term is the linear part written with a product by the reciprocal degree and the bias added last. A degree that
    is a real number at least 1 is a nonzero real divisor, so the quotient is the product with the reciprocal
    whatever the numerator is; the rest is associativity and commutativity of addition.
  * The linear part of real arrays is a real array.
  * Batch normalisation over real entries: the uncentred form (mean of the squares minus the squared mean, folded
    into one scale and one shift per column) equals the centred form. The variance is a mean of squares, so the
    variance plus a positive constant is positive and its reciprocal square root is an ordinary real number; the
    two forms then differ by the variance identity and by distributivity in the real numbers.
  * A sum over 100000 entries, taken as 20 blocks of 5000 whose totals sit at every eighth place of a
    160-entry array that is 0 elsewhere, is the sum of that array.
-/
import proofs.«104689_j73624329388568_2_alg».proof.Proof.Spec
import proofs.«104689_j73624329388568_2_alg».proof.Proof.LibTwoPassVariance
import proofs.«104689_j73624329388568_2_alg».proof.Proof.LibWeightedMix
import proofs.«104689_j73624329388568_2_alg».proof.Proof.LibBlockSum

namespace Cert.Sage

open Idealize.ShloMosaic
open scoped BigOperators

variable {N C : Nat}

/-! ### The quotient form of the linear part -/

/-- The reciprocal of a degree that is a real number at least 1 is a real number. -/
theorem dinv_real (d : Fin N → EReal) (hd : ∀ p, ∃ r : ℝ, d p = (r : EReal) ∧ 1 ≤ r) :
    Real1 (fun p => Ideal.div 1 (d p)) := by
  intro p
  obtain ⟨r, hr, h1⟩ := hd p
  have hr0 : r ≠ 0 := (lt_of_lt_of_le one_pos h1).ne'
  exact ⟨1 / r, by show Ideal.div 1 (d p) = _; rw [hr, Ideal.div_coe hr0, one_mul]⟩

/-- Quotient by the degree and bias before the self term, against product with the reciprocal and bias last. -/
theorem linQuot_eq_lin (h A : Fin N → Fin C → EReal) (d : Fin N → EReal) (WnT WrT : Fin C → Fin C → EReal)
    (bn : Fin C → EReal) (hd : ∀ p, ∃ r : ℝ, d p = (r : EReal) ∧ 1 ≤ r) :
    linQuot h A d WnT WrT bn = lin h A (fun p => Ideal.div 1 (d p)) WnT WrT bn := by
  funext p q
  obtain ⟨r, hr, h1⟩ := hd p
  have hr0 : r ≠ 0 := (lt_of_lt_of_le one_pos h1).ne'
  simp only [linQuot, lin, hr, Ideal.div_coe hr0, one_mul]
  exact add_right_comm _ _ _

/-! ### Real arrays stay real -/

/-- The linear part of real arrays is a real array. -/
theorem lin_real (h A : Fin N → Fin C → EReal) (dinv : Fin N → EReal) (WnT WrT : Fin C → Fin C → EReal)
    (bn : Fin C → EReal) (hh : Real2 h) (hA : Real2 A) (hd : Real1 dinv) (hWn : Real2 WnT) (hWr : Real2 WrT)
    (hbn : Real1 bn) : Real2 (lin h A dinv WnT WrT bn) := by
  intro p q
  show ∃ r : ℝ, (∑ k : Fin C, (A p k * dinv p) * WnT k q + ∑ k : Fin C, h p k * WrT k q) + bn q = (r : EReal)
  exact LibWeightedMix.exists_real_add
    (LibWeightedMix.exists_real_add
      (LibWeightedMix.exists_real_sum _ _ fun k =>
        LibWeightedMix.exists_real_mul (LibWeightedMix.exists_real_mul (hA p k) (hd p)) (hWn k q))
      (LibWeightedMix.exists_real_sum _ _ fun k => LibWeightedMix.exists_real_mul (hh p k) (hWr k q)))
    (hbn q)

/-! ### Column statistics of a real array -/

/-- The column mean of a real array. -/
private theorem colMean_coe (z : Fin N → Fin C → ℝ) (n : ℝ) (hn : n ≠ 0) (q : Fin C) :
    colMean (fun a b => (z a b : EReal)) (n : EReal) q = (((∑ i, z i q) / n : ℝ) : EReal) := by
  simp only [colMean, Ideal.div_coe hn, zero_add, ← LibWeightedMix.coe_finset_sum, ← EReal.coe_mul, mul_one_div]

/-- The column mean of the squares of a real array. -/
private theorem colMeanSq_coe (z : Fin N → Fin C → ℝ) (n : ℝ) (hn : n ≠ 0) (q : Fin C) :
    colMeanSq (fun a b => (z a b : EReal)) (n : EReal) q = (((∑ i, z i q * z i q) / n : ℝ) : EReal) := by
  simp only [colMeanSq, Ideal.div_coe hn, zero_add, ← LibWeightedMix.coe_finset_sum, ← EReal.coe_mul, mul_one_div]

/-- The column variance of a real array. -/
private theorem colVar_coe (z : Fin N → Fin C → ℝ) (n : ℝ) (hn : n ≠ 0) (q : Fin C) :
    colVar (fun a b => (z a b : EReal)) (n : EReal) q
      = (((∑ i, (z i q - (∑ k, z k q) / n) * (z i q - (∑ k, z k q) / n)) / n : ℝ) : EReal) := by
  simp only [colVar, colMean_coe z n hn, Ideal.div_coe hn, zero_add, ← EReal.coe_sub, ← EReal.coe_mul,
    ← LibWeightedMix.coe_finset_sum, mul_one_div]

/-- The reciprocal square root of a positive real number. -/
private theorem rsqrt_pos (v : ℝ) (hv : 0 < v) : Ideal.rsqrt (v : EReal) = (((Real.sqrt v)⁻¹ : ℝ) : EReal) := by
  rw [Ideal.rsqrt_coe, if_neg (not_lt.mpr hv.le), if_neg hv.ne']

/-- The maximum of a real number with 0 is a real number. -/
private theorem max_coe_zero (r : ℝ) : max (r : EReal) 0 = ((max r 0 : ℝ) : EReal) := by
  rcases le_total r 0 with h | h
  · rw [max_eq_right h, max_eq_right (EReal.coe_nonpos.mpr h), EReal.coe_zero]
  · rw [max_eq_left h, max_eq_left (EReal.coe_nonneg.mpr h)]

/-! ### Uncentred against centred normalisation -/

/-- One entry: with the mean `μ`, the mean of the squares `m` and the variance `v = m - μ²`, and `v + e` positive,
    the folded multiply-add is the centred expression. -/
private theorem affine_entry (x γ β μ m v e : ℝ) (hv : m - μ * μ = v) (hpos : 0 < v + e) :
    max ((x : EReal) * ((γ : EReal) * Ideal.rsqrt (((m : EReal) - (μ : EReal) * (μ : EReal)) + (e : EReal)))
        + ((β : EReal) - (μ : EReal) * ((γ : EReal) * Ideal.rsqrt (((m : EReal) - (μ : EReal) * (μ : EReal)) + (e : EReal))))) 0
      = max ((((γ : EReal) * ((x : EReal) - (μ : EReal))) * Ideal.rsqrt ((v : EReal) + (e : EReal))) + (β : EReal)) 0 := by
  have h1 : ((m : EReal) - (μ : EReal) * (μ : EReal)) + (e : EReal) = ((v + e : ℝ) : EReal) := by
    rw [← EReal.coe_mul, ← EReal.coe_sub, ← EReal.coe_add, hv]
  have h2 : (v : EReal) + (e : EReal) = ((v + e : ℝ) : EReal) := (EReal.coe_add v e).symm
  rw [h1, h2, rsqrt_pos _ hpos]
  simp only [← EReal.coe_mul, ← EReal.coe_sub, ← EReal.coe_add]
  congr 2
  ring

/-- Over real entries the uncentred batch normalisation is the centred one. -/
theorem affineRelu_eq_normRelu (z : Fin N → Fin C → EReal) (g be : Fin C → EReal) (n e : ℝ)
    (hz : Real2 z) (hg : Real1 g) (hbe : Real1 be) (hn : (N : ℝ) = n) (hn0 : 0 < n) (he : 0 < e) :
    affineRelu z g be (n : EReal) (e : EReal) = normRelu z g be (n : EReal) (e : EReal) := by
  choose z' hz' using hz
  choose g' hg' using hg
  choose be' hbe' using hbe
  obtain rfl : z = fun a b => (z' a b : EReal) := funext fun a => funext fun b => hz' a b
  obtain rfl : g = fun b => (g' b : EReal) := funext hg'
  obtain rfl : be = fun b => (be' b : EReal) := funext hbe'
  funext p q
  have hn' : n ≠ 0 := hn0.ne'
  have hcard : (Fintype.card (Fin N) : ℝ) = n := by rw [Fintype.card_fin]; exact hn
  have hvar := LibTwoPassVariance.var_identity n hcard hn' (fun i => z' i q)
  have hpos : 0 < (∑ i, (z' i q - (∑ k, z' k q) / n) * (z' i q - (∑ k, z' k q) / n)) / n + e :=
    add_pos_of_nonneg_of_pos (LibTwoPassVariance.var_nonneg n hn0 (fun i => z' i q) _) he
  simp only [affineRelu, normRelu, scaleOf, shiftOf, colMean_coe z' n hn', colMeanSq_coe z' n hn', colVar_coe z' n hn']
  exact affine_entry _ _ _ _ _ _ _ hvar.symm hpos

/-- Centred batch normalisation of a real array, followed by the maximum with 0, is a real array. -/
theorem normRelu_real (z : Fin N → Fin C → EReal) (g be : Fin C → EReal) (n e : ℝ)
    (hz : Real2 z) (hg : Real1 g) (hbe : Real1 be) (hn : (N : ℝ) = n) (hn0 : 0 < n) (he : 0 < e) :
    Real2 (normRelu z g be (n : EReal) (e : EReal)) := by
  choose z' hz' using hz
  choose g' hg' using hg
  choose be' hbe' using hbe
  obtain rfl : z = fun a b => (z' a b : EReal) := funext fun a => funext fun b => hz' a b
  obtain rfl : g = fun b => (g' b : EReal) := funext hg'
  obtain rfl : be = fun b => (be' b : EReal) := funext hbe'
  intro p q
  have hn' : n ≠ 0 := hn0.ne'
  have hpos : 0 < (∑ i, (z' i q - (∑ k, z' k q) / n) * (z' i q - (∑ k, z' k q) / n)) / n + e :=
    add_pos_of_nonneg_of_pos (LibTwoPassVariance.var_nonneg n hn0 (fun i => z' i q) _) he
  simp only [normRelu, colMean_coe z' n hn', colVar_coe z' n hn', ← EReal.coe_add, rsqrt_pos _ hpos,
    ← EReal.coe_sub, ← EReal.coe_mul, max_coe_zero]
  exact ⟨_, rfl⟩

/-! ### The column totals, gathered in blocks -/

private theorem tile_lt (t : Fin 20) (s : Fin 8) : 8 * t.val + s.val < 160 := by
  have := t.isLt; have := s.isLt; omega

private theorem row_lt (t : Fin 20) (y : Fin 5000) : 5000 * t.val + y.val < 100000 := by
  have := t.isLt; have := y.isLt; omega

/-- A 160-entry array that holds, at place 8 t, the total of entries 5000 t .. 5000 t + 4999 of `f` and 0 at the
    other places sums to the total of `f`. -/
theorem tile_sum {M : Type*} [AddCommMonoid M] (f : Fin 100000 → M) (S : Fin 160 → M)
    (hS : ∀ (t : Fin 20) (s : Fin 8) (hlt : 8 * t.val + s.val < 160), S ⟨8 * t.val + s.val, hlt⟩ =
      if s.val = 0 then ∑ y : Fin 5000, f ⟨5000 * t.val + y.val, by have := t.isLt; have := y.isLt; omega⟩ else 0) :
    ∑ r : Fin 160, S r = ∑ p : Fin 100000, f p := by
  have hL : ∑ r : Fin 160, S r = ∑ t : Fin 20, ∑ s : Fin 8, S ⟨8 * t.val + s.val, tile_lt t s⟩ :=
    BlockSum.sum_blocks 20 8 S
  have hR : ∑ p : Fin 100000, f p = ∑ t : Fin 20, ∑ y : Fin 5000, f ⟨5000 * t.val + y.val, row_lt t y⟩ :=
    BlockSum.sum_blocks 20 5000 f
  rw [hL, hR]
  refine Finset.sum_congr rfl fun t _ => ?_
  rw [Finset.sum_eq_single (0 : Fin 8)]
  · rw [hS t 0 (tile_lt t 0)]
    exact if_pos rfl
  · intro s _ hs
    rw [hS t s (tile_lt t s)]
    exact if_neg fun h0 => hs (Fin.ext h0)
  · intro h0
    exact absurd (Finset.mem_univ _) h0

end Cert.Sage
-- ==== Proof.KerRegion0.lean ====
/-
  A linear call, from blocks to arrays.

  The call walks 20 row tiles. Tile t of the feature output is rows 5000 t .. 5000 t + 4999; the row-tiled inputs
  (features, neighbour sums, reciprocal degrees) move with it and the three small operands (two weight matrices and
  the bias row) stay put. So the feature output, as a whole array, is the layer's linear map of the whole input
  arrays. The two statistics outputs have one 8-row block per tile: row 0 of block t carries the tile's column sums
  (of z, and of z squared), rows 1..7 are zero.
-/
import proofs.«104689_j73624329388568_2_alg».proof.Proof.Gen.KernelIdeal.Frame
import proofs.«104689_j73624329388568_2_alg».proof.Proof.KerBodyLin
import proofs.«104689_j73624329388568_2_alg».proof.Proof.KerBodySums
import proofs.«104689_j73624329388568_2_alg».proof.Proof.Layers
import proofs.«104689_j73624329388568_2_alg».proof.Proof.NormLaws
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart0 : (![0, 0] : Fin 2 → Nat) = fun _ => 0 := funext fun a => by fin_cases a <;> rfl

/-- The printed index maps over the 20 points: the row-tiled windows sit at block (t, 0), the small operands at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The linear map of the whole arrays the call is entered with. -/
def Z0 (c : Dev nD) : S100000x128.Idx → EReal :=
  arr2 (lin (cur2 (V c main_v13 : S100000x128.Idx → EReal)) (cur2 (V c main_v24 : S100000x128.Idx → EReal))
    (fun p => (V c main_v12 : S100000x1.Idx → EReal) (ix2 p (0 : Fin 1)))
    (cur2 (V c main_v25 : S128x128.Idx → EReal)) (cur2 (V c main_v26 : S128x128.Idx → EReal))
    (fun q => (V c main_v27 : S1x128.Idx → EReal) (ix2 (0 : Fin 1) q)))

/-- Row p of tile t is row 5000 t + p of the array. -/
def rowOf0 (t : Fin cfg0.N) (p : Fin 5000) : Fin 100000 := ⟨5000 * t.val + p.val, by have := t.isLt; have := p.isLt; have h : cfg0.N = 20 := rfl; omega⟩
/-- Row r of statistics block t is row 8 t + r of the statistics array. -/
def statRowOf0 (t : Fin cfg0.N) (r : Fin 8) : Fin 160 := ⟨8 * t.val + r.val, by have := t.isLt; have := r.isLt; have h : cfg0.N = 20 := rfl; omega⟩

/-! ## The input blocks, read where the tile sits -/

theorem blk0_0 (c : Dev nD) (t : Fin cfg0.N) (p : Fin 5000) (k : Fin 128) :
    iblk0 V c 0 t (ix2 p k) = (V c main_v13 : S100000x128.Idx → EReal) (ix2 (rowOf0 t p) k) := by
  obtain ⟨a0, a1, -⟩ := idx0 t
  show V c main_v13 (((cfg0.win 0).blk t).view.emb (ix2 p k)) = V c main_v13 (ix2 (rowOf0 t p) k)
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem blk0_1 (c : Dev nD) (t : Fin cfg0.N) (p : Fin 5000) (k : Fin 128) :
    iblk0 V c 1 t (ix2 p k) = (V c main_v24 : S100000x128.Idx → EReal) (ix2 (rowOf0 t p) k) := by
  obtain ⟨-, -, b0, b1, -⟩ := idx0 t
  show V c main_v24 (((cfg0.win 1).blk t).view.emb (ix2 p k)) = V c main_v24 (ix2 (rowOf0 t p) k)
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

theorem blk0_2 (c : Dev nD) (t : Fin cfg0.N) (p : Fin 5000) (u : Fin 1) :
    iblk0 V c 2 t (ix2 p u) = (V c main_v12 : S100000x1.Idx → EReal) (ix2 (rowOf0 t p) (0 : Fin 1)) := by
  obtain ⟨-, -, -, -, c0, c1, -⟩ := idx0 t
  show V c main_v12 (((cfg0.win 2).blk t).view.emb (ix2 p u)) = V c main_v12 (ix2 (rowOf0 t p) (0 : Fin 1))
  refine congrArg _ (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * u.val = 0; have := u.isLt; omega

theorem blk0_3 (c : Dev nD) (t : Fin cfg0.N) (k q : Fin 128) :
    iblk0 V c 3 t (ix2 k q) = (V c main_v25 : S128x128.Idx → EReal) (ix2 k q) := by
  obtain ⟨-, -, -, -, -, -, d0, d1, -⟩ := idx0 t
  show V c main_v25 (((cfg0.win 3).blk t).view.emb (ix2 k q)) = V c main_v25 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem blk0_4 (c : Dev nD) (t : Fin cfg0.N) (k q : Fin 128) :
    iblk0 V c 4 t (ix2 k q) = (V c main_v26 : S128x128.Idx → EReal) (ix2 k q) := by
  obtain ⟨-, -, -, -, -, -, -, -, e0, e1, -⟩ := idx0 t
  show V c main_v26 (((cfg0.win 4).blk t).view.emb (ix2 k q)) = V c main_v26 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem blk0_5 (c : Dev nD) (t : Fin cfg0.N) (u : Fin 1) (q : Fin 128) :
    iblk0 V c 5 t (ix2 u q) = (V c main_v27 : S1x128.Idx → EReal) (ix2 (0 : Fin 1) q) := by
  obtain ⟨-, -, -, -, -, -, -, -, -, -, f0, f1, -⟩ := idx0 t
  show V c main_v27 (((cfg0.win 5).blk t).view.emb (ix2 u q)) = V c main_v27 (ix2 (0 : Fin 1) q)
  refine congrArg _ (funext fun a => Fin.ext ?_)
  match a with
  | ⟨0, _⟩ => show win0_5.index t (0 : Fin 2) * 1 + 1 * u.val = 0; have := u.isLt; omega
  | ⟨1, _⟩ => show win0_5.index t (1 : Fin 2) * 128 + 1 * q.val = q.val; omega

/-- The body's stored feature value at (p, q) of tile t is the linear map at row 5000 t + p. -/
theorem z_at0 (c : Dev nD) (t : Fin cfg0.N) (p : Fin 5000) (q : Fin 128) :
    k0_pay2 (F := Ideal) (iblk0 V c 1 t) (iblk0 V c 2 t) (iblk0 V c 0 t) (iblk0 V c 3 t) (iblk0 V c 4 t) (iblk0 V c 5 t) (ix2 p q)
      = Z0 V c (ix2 (rowOf0 t p) q) := by
  refine (lin_pay _ _ _ _ _ _ p q).trans ?_
  simp only [blk0_0, blk0_1, blk0_2, blk0_3, blk0_4, blk0_5]
  rfl

/-! ## The feature output -/

/-- What point t writes back is block t of the linear map. -/
theorem z_flushed0 (c : Dev nD) (t : Fin cfg0.N) :
    (dat0 (F := Ideal) V c).flushed 6 t = ((cfg0.win 6).blk t).view.read (Elt Ideal) (Z0 V c) := by
  show (cfg0.win 6).cut (grid0.coords t) ((dat0 V c).after 6 t) = _
  rw [after0_6]
  unfold out0_6
  rw [View.canon_unit_zero zeroStart0]
  simp only [View.ld_unit_zero (S := S5000x128) zeroStart0, View.ld_unit_zero (S := S5000x1) zeroStart0,
    View.ld_unit_zero (S := S128x128) zeroStart0, View.ld_unit_zero (S := S1x128) zeroStart0]
  obtain ⟨-, -, -, -, -, -, -, -, -, -, -, -, g0, g1, -⟩ := idx0 t
  funext j
  obtain ⟨p, q, rfl⟩ : ∃ (p : Fin 5000) (q : Fin 128), j = ix2 p q := ⟨j 0, j 1, eq_ix2 j⟩
  refine (z_at0 V c t p q).trans ?_
  show Z0 V c (ix2 (rowOf0 t p) q) = Z0 V c (((cfg0.win 6).blk t).view.emb (ix2 p q))
  refine congrArg _ (funext fun a => Fin.ext ?_)
  match a with
  | ⟨0, _⟩ => show 5000 * t.val + p.val = win0_6.index t (0 : Fin 2) * 5000 + 1 * p.val; omega
  | ⟨1, _⟩ => show q.val = win0_6.index t (1 : Fin 2) * 128 + 1 * q.val; omega

/-- An index is in point t's feature block iff each coordinate is in the block's range. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28_0).slice (win0_6.rect t)).set ↔ _
  rw [View.set_slice_whole, Rect.mem_set_unit]
  exact Iff.rfl

/-- Every row lies in the tile numbered by its quotient by 5000. -/
theorem cover0_6' (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 5000, by show _ < 20; omega⟩, flush0_6 _, ?_⟩
  rw [mem_blk0_6]
  obtain ⟨-, -, -, -, -, -, -, -, -, -, -, -, g0, g1, -⟩ := idx0 ⟨(i 0).val / 5000, by show _ < 20; omega⟩
  intro a
  match a with
  | ⟨0, _⟩ => show win0_6.index _ (0 : Fin 2) * 5000 ≤ (i 0).val ∧ (i 0).val < win0_6.index _ (0 : Fin 2) * 5000 + 5000; rw [g0]; show (i 0).val / 5000 * 5000 ≤ _ ∧ _ < (i 0).val / 5000 * 5000 + 5000; omega
  | ⟨1, _⟩ => show win0_6.index _ (1 : Fin 2) * 128 ≤ (i 1).val ∧ (i 1).val < win0_6.index _ (1 : Fin 2) * 128 + 128; rw [g1]; omega

/-- The feature output after the call is the linear map of the entry arrays. -/
theorem z_final0 (c : Dev nD) : (dat0 (F := Ideal) V c).arrAt 6 cfg0.N = Z0 V c :=
  (dat0 V c).arrAt_eq_of_cover 6 (Z0 V c) (fun t _ => z_flushed0 V c t) cover0_6'

/-! ## The two statistics outputs -/

/-- Row 8 t of the column-sum array carries tile t's column sums of the linear map; the other rows are zero. -/
def SumZ0 (c : Dev nD) : S160x128.Idx → EReal := fun i =>
  if (i 0).val % 8 = 0 then ∑ y : Fin 5000, Z0 V c (ix2 (rowOf0 ⟨(i 0).val / 8, by have h160 : (i 0).val < 160 := (i 0).isLt; show _ < 20; omega⟩ y) (i 1)) else 0

/-- The same for the squares. -/
def SumSq0 (c : Dev nD) : S160x128.Idx → EReal := fun i =>
  if (i 0).val % 8 = 0 then ∑ y : Fin 5000, Z0 V c (ix2 (rowOf0 ⟨(i 0).val / 8, by have h160 : (i 0).val < 160 := (i 0).isLt; show _ < 20; omega⟩ y) (i 1))
      * Z0 V c (ix2 (rowOf0 ⟨(i 0).val / 8, by have h160 : (i 0).val < 160 := (i 0).isLt; show _ < 20; omega⟩ y) (i 1)) else 0

theorem statRow_div0 (t : Fin cfg0.N) (r : Fin 8) : (⟨(8 * t.val + r.val) / 8, by have := t.isLt; have := r.isLt; have h : cfg0.N = 20 := rfl; show _ < 20; omega⟩ : Fin cfg0.N) = t :=
  Fin.ext (by show (8 * t.val + r.val) / 8 = t.val; have := r.isLt; omega)

/-- The column-sum array at row 8 t + r. -/
theorem SumZ0_at (c : Dev nD) (t : Fin cfg0.N) (r : Fin 8) (q : Fin 128) :
    SumZ0 V c (ix2 (statRowOf0 t r) q) = if r.val = 0 then ∑ y : Fin 5000, Z0 V c (ix2 (rowOf0 t y) q) else 0 := by
  have hr := r.isLt
  show (if (8 * t.val + r.val) % 8 = 0 then ∑ y : Fin 5000, Z0 V c (ix2 (rowOf0 ⟨(8 * t.val + r.val) / 8, _⟩ y) q) else 0) = _
  rw [statRow_div0 t r]
  by_cases h0 : r.val = 0
  · rw [if_pos h0, if_pos (by omega)]
  · rw [if_neg h0, if_neg (by omega)]

theorem SumSq0_at (c : Dev nD) (t : Fin cfg0.N) (r : Fin 8) (q : Fin 128) :
    SumSq0 V c (ix2 (statRowOf0 t r) q) = if r.val = 0 then ∑ y : Fin 5000, Z0 V c (ix2 (rowOf0 t y) q) * Z0 V c (ix2 (rowOf0 t y) q) else 0 := by
  have hr := r.isLt
  show (if (8 * t.val + r.val) % 8 = 0 then ∑ y : Fin 5000, Z0 V c (ix2 (rowOf0 ⟨(8 * t.val + r.val) / 8, _⟩ y) q) * Z0 V c (ix2 (rowOf0 ⟨(8 * t.val + r.val) / 8, _⟩ y) q) else 0) = _
  rw [statRow_div0 t r]
  by_cases h0 : r.val = 0
  · rw [if_pos h0, if_pos (by omega)]
  · rw [if_neg h0, if_neg (by omega)]

theorem sumz_flushed0 (c : Dev nD) (t : Fin cfg0.N) :
    (dat0 (F := Ideal) V c).flushed 7 t = ((cfg0.win 7).blk t).view.read (Elt Ideal) (SumZ0 V c) := by
  show (cfg0.win 7).cut (grid0.coords t) ((dat0 V c).after 7 t) = _
  rw [after0_7]
  unfold out0_7
  rw [View.canon_unit_zero zeroStart0]
  simp only [View.ld_unit_zero (S := S5000x128) zeroStart0, View.ld_unit_zero (S := S5000x1) zeroStart0,
    View.ld_unit_zero (S := S128x128) zeroStart0, View.ld_unit_zero (S := S1x128) zeroStart0]
  obtain ⟨-, -, -, -, -, -, -, -, -, -, -, -, -, -, h0, h1, -⟩ := idx0 t
  funext j
  obtain ⟨r, q, rfl⟩ : ∃ (r : Fin 8) (q : Fin 128), j = ix2 r q := ⟨j 0, j 1, eq_ix2 j⟩
  refine (sumz_pay _ _ _ _ _ _ r q).trans ?_
  simp only [z_at0]
  refine (SumZ0_at V c t r q).symm.trans ?_
  show SumZ0 V c (ix2 (statRowOf0 t r) q) = SumZ0 V c (((cfg0.win 7).blk t).view.emb (ix2 r q))
  refine congrArg _ (funext fun a => Fin.ext ?_)
  match a with
  | ⟨0, _⟩ => show 8 * t.val + r.val = win0_7.index t (0 : Fin 2) * 8 + 1 * r.val; omega
  | ⟨1, _⟩ => show q.val = win0_7.index t (1 : Fin 2) * 128 + 1 * q.val; omega

theorem sumsq_flushed0 (c : Dev nD) (t : Fin cfg0.N) :
    (dat0 (F := Ideal) V c).flushed 8 t = ((cfg0.win 8).blk t).view.read (Elt Ideal) (SumSq0 V c) := by
  show (cfg0.win 8).cut (grid0.coords t) ((dat0 V c).after 8 t) = _
  rw [after0_8]
  unfold out0_8
  rw [View.canon_unit_zero zeroStart0]
  simp only [View.ld_unit_zero (S := S5000x128) zeroStart0, View.ld_unit_zero (S := S5000x1) zeroStart0,
    View.ld_unit_zero (S := S128x128) zeroStart0, View.ld_unit_zero (S := S1x128) zeroStart0]
  obtain ⟨-, -, -, -, -, -, -, -, -, -, -, -, -, -, -, -, i0, i1⟩ := idx0 t
  funext j
  obtain ⟨r, q, rfl⟩ : ∃ (r : Fin 8) (q : Fin 128), j = ix2 r q := ⟨j 0, j 1, eq_ix2 j⟩
  refine (sumsq_pay _ _ _ _ _ _ r q).trans ?_
  simp only [z_at0]
  refine (SumSq0_at V c t r q).symm.trans ?_
  show SumSq0 V c (ix2 (statRowOf0 t r) q) = SumSq0 V c (((cfg0.win 8).blk t).view.emb (ix2 r q))
  refine congrArg _ (funext fun a => Fin.ext ?_)
  match a with
  | ⟨0, _⟩ => show 8 * t.val + r.val = win0_8.index t (0 : Fin 2) * 8 + 1 * r.val; omega
  | ⟨1, _⟩ => show q.val = win0_8.index t (1 : Fin 2) * 128 + 1 * q.val; omega

theorem mem_blk0_7 (t : Fin cfg0.N) (i : S160x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v28_1).slice (win0_7.rect t)).set ↔ _
  rw [View.set_slice_whole, Rect.mem_set_unit]
  exact Iff.rfl

theorem mem_blk0_8 (t : Fin cfg0.N) (i : S160x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v28_2).slice (win0_8.rect t)).set ↔ _
  rw [View.set_slice_whole, Rect.mem_set_unit]
  exact Iff.rfl

theorem cover0_7' (i : S160x128.Idx) : ∃ t : Fin cfg0.N, (cfg0.win 7).flush t = true ∧ i ∈ ((cfg0.win 7).blk t).view.set := by
  have hi0 : (i 0).val < 160 := (i 0).isLt
  have hi1 : (i 1).val < 128 := (i 1).isLt
  refine ⟨⟨(i 0).val / 8, by show _ < 20; omega⟩, flush0_7 _, ?_⟩
  rw [mem_blk0_7]
  obtain ⟨-, -, -, -, -, -, -, -, -, -, -, -, -, -, h0, h1, -⟩ := idx0 ⟨(i 0).val / 8, by show _ < 20; omega⟩
  intro a
  match a with
  | ⟨0, _⟩ => show win0_7.index _ (0 : Fin 2) * 8 ≤ (i 0).val ∧ (i 0).val < win0_7.index _ (0 : Fin 2) * 8 + 8; rw [h0]; show (i 0).val / 8 * 8 ≤ _ ∧ _ < (i 0).val / 8 * 8 + 8; omega
  | ⟨1, _⟩ => show win0_7.index _ (1 : Fin 2) * 128 ≤ (i 1).val ∧ (i 1).val < win0_7.index _ (1 : Fin 2) * 128 + 128; rw [h1]; omega

theorem cover0_8' (i : S160x128.Idx) : ∃ t : Fin cfg0.N, (cfg0.win 8).flush t = true ∧ i ∈ ((cfg0.win 8).blk t).view.set := by
  have hi0 : (i 0).val < 160 := (i 0).isLt
  have hi1 : (i 1).val < 128 := (i 1).isLt
  refine ⟨⟨(i 0).val / 8, by show _ < 20; omega⟩, flush0_8 _, ?_⟩
  rw [mem_blk0_8]
  obtain ⟨-, -, -, -, -, -, -, -, -, -, -, -, -, -, -, -, i0, i1⟩ := idx0 ⟨(i 0).val / 8, by show _ < 20; omega⟩
  intro a
  match a with
  | ⟨0, _⟩ => show win0_8.index _ (0 : Fin 2) * 8 ≤ (i 0).val ∧ (i 0).val < win0_8.index _ (0 : Fin 2) * 8 + 8; rw [i0]; show (i 0).val / 8 * 8 ≤ _ ∧ _ < (i 0).val / 8 * 8 + 8; omega
  | ⟨1, _⟩ => show win0_8.index _ (1 : Fin 2) * 128 ≤ (i 1).val ∧ (i 1).val < win0_8.index _ (1 : Fin 2) * 128 + 128; rw [i1]; omega

/-- The column-sum output after the call. -/
theorem sumz_final0 (c : Dev nD) : (dat0 (F := Ideal) V c).arrAt 7 cfg0.N = SumZ0 V c :=
  (dat0 V c).arrAt_eq_of_cover 7 (SumZ0 V c) (fun t _ => sumz_flushed0 V c t) cover0_7'

/-- The column-sum-of-squares output after the call. -/
theorem sumsq_final0 (c : Dev nD) : (dat0 (F := Ideal) V c).arrAt 8 cfg0.N = SumSq0 V c :=
  (dat0 V c).arrAt_eq_of_cover 8 (SumSq0 V c) (fun t _ => sumsq_flushed0 V c t) cover0_8'

/-! ## What the host makes of the two statistics outputs -/

/-- The 160 rows of the column-sum output add up to the 100000 rows of the linear map. -/
theorem colMeanK_sumz0 (c : Dev nD) (q : Fin 128) : colMeanK (SumZ0 V c) q = colMean (cur2 (Z0 V c)) nWord q := by
  unfold colMeanK colMean
  refine congrArg (fun s => Ideal.div (0 + s) nWord) ?_
  exact tile_sum (fun p => Z0 V c (ix2 p q)) (fun r => SumZ0 V c (ix2 r q)) (fun t s hlt => SumZ0_at V c t s q)

/-- The same for the squares. -/
theorem colMeanK_sumsq0 (c : Dev nD) (q : Fin 128) : colMeanK (SumSq0 V c) q = colMeanSq (cur2 (Z0 V c)) nWord q := by
  unfold colMeanK colMeanSq
  refine congrArg (fun s => Ideal.div (0 + s) nWord) ?_
  exact tile_sum (fun p => Z0 V c (ix2 p q) * Z0 V c (ix2 p q)) (fun r => SumSq0 V c (ix2 r q)) (fun t s hlt => SumSq0_at V c t s q)

/-- The host's scale from the two statistics outputs is the uncentred form's scale of the linear map. -/
theorem scaleK_stats0 (c : Dev nD) (g : S128.Idx → EReal) (q : Fin 128) :
    scaleK (SumZ0 V c) (SumSq0 V c) g q = scaleOf (cur2 (Z0 V c)) (cur1 g) nWord epsWord q := by
  unfold scaleK scaleOf
  rw [colMeanK_sumz0, colMeanK_sumsq0]

/-- The host's shift likewise. -/
theorem shiftK_stats0 (c : Dev nD) (g be : S128.Idx → EReal) (q : Fin 128) :
    shiftK (SumZ0 V c) (SumSq0 V c) g be q = shiftOf (cur2 (Z0 V c)) (cur1 g) (cur1 be) nWord epsWord q := by
  unfold shiftK shiftOf
  rw [colMeanK_sumz0, scaleK_stats0]

/-- The linear map from the six arrays the call is entered with, each named. -/
theorem Z0_of_entry (c : Dev nD) (h A : S100000x128.Idx → EReal) (dinv : Fin 100000 → EReal) (WnT WrT : S128x128.Idx → EReal)
    (bn : S128.Idx → EReal)
    (e0 : (V c main_v13 : S100000x128.Idx → EReal) = h) (e1 : (V c main_v24 : S100000x128.Idx → EReal) = A)
    (e2 : ∀ p, (V c main_v12 : S100000x1.Idx → EReal) (ix2 p (0 : Fin 1)) = dinv p)
    (e3 : (V c main_v25 : S128x128.Idx → EReal) = WnT) (e4 : (V c main_v26 : S128x128.Idx → EReal) = WrT)
    (e5 : ∀ q, (V c main_v27 : S1x128.Idx → EReal) (ix2 (0 : Fin 1) q) = bn (ix1 q)) :
    Z0 V c = arr2 (lin (cur2 h) (cur2 A) dinv (cur2 WnT) (cur2 WrT) (cur1 bn)) := by
  unfold Z0
  rw [e0, e1, e3, e4]
  simp only [e2, e5]

end Cert.Sage.Ker

end
-- ==== Proof.KerBodyNorm.lean ====
/-
  The normalisation body at an entry.

  One grid point holds a 5000-row tile of the linear output together with one scale and one shift per column. At
  row p and column q of the tile the stored value is

    max (z(p,q) * scale(q) + shift(q)) 0:

  the scale row and the shift row are spread down the columns before the pointwise product and sum, the constant
  spread over the tile is the number 0, and narrowing to a shorter float format changes nothing on the extended
  reals.
-/
import proofs.«104689_j73624329388568_2_alg».proof.Proof.Gen.KernelIdeal.Skeleton
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.ValueIdx
open scoped BigOperators

/-- The normalisation body's stored value at (p, q) of its tile. -/
theorem norm_pay (v0 : Vec Ideal S5000x128 .f32) (v2 v6 : Vec Ideal S1x128 .f32) (p : Fin 5000) (q : Fin 128) :
    k1_pay1 (F := Ideal) v0 v2 v6 (ix2 p q)
      = max (v0 (ix2 p q) * v2 (ix2 (0 : Fin 1) q) + v6 (ix2 (0 : Fin 1) q)) 0 := by
  unfold k1_pay1
  simp only [shapeCast_self]
  rw [truncf_apply, maximumf_apply, addf_apply, mulf_apply, broadcastTo_1b_ab_apply, broadcastTo_1b_ab_apply,
    broadcast_apply]
  exact congrArg (max _) Ideal.ofBits_zero_f32

/-- The second normalisation kernel is the same program text as the first: its body is the same term. -/
theorem k3_pay1_eq : @k3_pay1 Ideal _ = @k1_pay1 Ideal _ := rfl

end Cert.Sage.Ker

end
-- ==== Proof.KerRegion1.lean ====
/-
  A normalise-and-clip call, from blocks to the array.

  The call walks 20 row tiles of the feature array; the scale row and the shift row stay put. Its output, as a whole
  array, is max(z * scale + shift, 0) entry by entry, the scale and shift read at the entry's column.
-/
import proofs.«104689_j73624329388568_2_alg».proof.Proof.Gen.KernelIdeal.Frame
import proofs.«104689_j73624329388568_2_alg».proof.Proof.KerBodyNorm
import proofs.«104689_j73624329388568_2_alg».proof.Proof.Layers
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart1 : (![0, 0] : Fin 2 → Nat) = fun _ => 0 := funext fun a => by fin_cases a <;> rfl

/-- The printed index maps over the 20 points. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry-wise max(z * scale + shift, 0), the scale and shift rows read at the entry's column. -/
def normClip (z : S100000x128.Idx → EReal) (sc sh : S1x128.Idx → EReal) : S100000x128.Idx → EReal := fun i =>
  max (z i * sc (ix2 (0 : Fin 1) (i 1)) + sh (ix2 (0 : Fin 1) (i 1))) 0

/-- With the scale and shift rows holding the uncentred form's scale and shift of z, the clipped multiply-add is the
    uncentred batch normalisation of z followed by the maximum with 0. -/
theorem normClip_eq (z : S100000x128.Idx → EReal) (sc sh : S1x128.Idx → EReal) (g be : Fin 128 → EReal) (n e : EReal)
    (hsc : ∀ q, sc (ix2 (0 : Fin 1) q) = scaleOf (cur2 z) g n e q)
    (hsh : ∀ q, sh (ix2 (0 : Fin 1) q) = shiftOf (cur2 z) g be n e q) :
    normClip z sc sh = arr2 (affineRelu (cur2 z) g be n e) := by
  funext i
  obtain ⟨p, q, rfl⟩ : ∃ (p : Fin 100000) (q : Fin 128), i = ix2 p q := ⟨i 0, i 1, eq_ix2 i⟩
  show max (z (ix2 p q) * sc (ix2 (0 : Fin 1) q) + sh (ix2 (0 : Fin 1) q)) 0
    = max (z (ix2 p q) * scaleOf (cur2 z) g n e q + shiftOf (cur2 z) g be n e q) 0
  rw [hsc, hsh]

/-- The multiply-add and clip of the whole arrays the call is entered with. -/
def H1 (c : Dev nD) : S100000x128.Idx → EReal := normClip (V c main_v28_0) (V c main_v43) (V c main_v44)

def rowOf1 (t : Fin cfg1.N) (p : Fin 5000) : Fin 100000 := ⟨5000 * t.val + p.val, by have := t.isLt; have := p.isLt; have h : cfg1.N = 20 := rfl; omega⟩

theorem blk1_0 (c : Dev nD) (t : Fin cfg1.N) (p : Fin 5000) (k : Fin 128) :
    iblk1 V c 0 t (ix2 p k) = (V c main_v28_0 : S100000x128.Idx → EReal) (ix2 (rowOf1 t p) k) := by
  obtain ⟨a0, a1, -⟩ := idx1 t
  show V c main_v28_0 (((cfg1.win 0).blk t).view.emb (ix2 p k)) = V c main_v28_0 (ix2 (rowOf1 t p) k)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem blk1_1 (c : Dev nD) (t : Fin cfg1.N) (u : Fin 1) (q : Fin 128) :
    iblk1 V c 1 t (ix2 u q) = (V c main_v43 : S1x128.Idx → EReal) (ix2 (0 : Fin 1) q) := by
  obtain ⟨-, -, b0, b1, -⟩ := idx1 t
  show V c main_v43 (((cfg1.win 1).blk t).view.emb (ix2 u q)) = V c main_v43 (ix2 (0 : Fin 1) q)
  refine congrArg _ (funext fun a => Fin.ext ?_)
  match a with
  | ⟨0, _⟩ => show win1_1.index t (0 : Fin 2) * 1 + 1 * u.val = 0; have := u.isLt; omega
  | ⟨1, _⟩ => show win1_1.index t (1 : Fin 2) * 128 + 1 * q.val = q.val; omega

theorem blk1_2 (c : Dev nD) (t : Fin cfg1.N) (u : Fin 1) (q : Fin 128) :
    iblk1 V c 2 t (ix2 u q) = (V c main_v44 : S1x128.Idx → EReal) (ix2 (0 : Fin 1) q) := by
  obtain ⟨-, -, -, -, c0, c1, -⟩ := idx1 t
  show V c main_v44 (((cfg1.win 2).blk t).view.emb (ix2 u q)) = V c main_v44 (ix2 (0 : Fin 1) q)
  refine congrArg _ (funext fun a => Fin.ext ?_)
  match a with
  | ⟨0, _⟩ => show win1_2.index t (0 : Fin 2) * 1 + 1 * u.val = 0; have := u.isLt; omega
  | ⟨1, _⟩ => show win1_2.index t (1 : Fin 2) * 128 + 1 * q.val = q.val; omega

/-- What point t writes back is block t of the clipped multiply-add. -/
theorem h_flushed1 (c : Dev nD) (t : Fin cfg1.N) :
    (dat1 (F := Ideal) V c).flushed 3 t = ((cfg1.win 3).blk t).view.read (Elt Ideal) (H1 V c) := by
  show (cfg1.win 3).cut (grid1.coords t) ((dat1 V c).after 3 t) = _
  rw [after1_3]
  unfold out1_3
  rw [View.canon_unit_zero zeroStart1]
  simp only [View.ld_unit_zero (S := S5000x128) zeroStart1, View.ld_unit_zero (S := S1x128) zeroStart1]
  obtain ⟨-, -, -, -, -, -, d0, d1⟩ := idx1 t
  funext j
  obtain ⟨p, q, rfl⟩ : ∃ (p : Fin 5000) (q : Fin 128), j = ix2 p q := ⟨j 0, j 1, eq_ix2 j⟩
  refine (norm_pay _ _ _ p q).trans ?_
  rw [blk1_0, blk1_1, blk1_2]
  show H1 V c (ix2 (rowOf1 t p) q) = H1 V c (((cfg1.win 3).blk t).view.emb (ix2 p q))
  refine congrArg _ (funext fun a => Fin.ext ?_)
  match a with
  | ⟨0, _⟩ => show 5000 * t.val + p.val = win1_3.index t (0 : Fin 2) * 5000 + 1 * p.val; omega
  | ⟨1, _⟩ => show q.val = win1_3.index t (1 : Fin 2) * 128 + 1 * q.val; omega

theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

theorem cover1_3' (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 5000, by show _ < 20; omega⟩, flush1_3 _, ?_⟩
  rw [mem_blk1_3]
  obtain ⟨-, -, -, -, -, -, d0, d1⟩ := idx1 ⟨(i 0).val / 5000, by show _ < 20; omega⟩
  intro a
  match a with
  | ⟨0, _⟩ => show win1_3.index _ (0 : Fin 2) * 5000 ≤ (i 0).val ∧ (i 0).val < win1_3.index _ (0 : Fin 2) * 5000 + 5000; rw [d0]; show (i 0).val / 5000 * 5000 ≤ _ ∧ _ < (i 0).val / 5000 * 5000 + 5000; omega
  | ⟨1, _⟩ => show win1_3.index _ (1 : Fin 2) * 128 ≤ (i 1).val ∧ (i 1).val < win1_3.index _ (1 : Fin 2) * 128 + 128; rw [d1]; omega

/-- The call's output after it has run. -/
theorem h_final1 (c : Dev nD) : (dat1 (F := Ideal) V c).arrAt 3 cfg1.N = H1 V c :=
  (dat1 V c).arrAt_eq_of_cover 3 (H1 V c) (fun t _ => h_flushed1 V c t) cover1_3'

end Cert.Sage.Ker

end
-- ==== Proof.KerRegion2.lean ====
/-
  A linear call, from blocks to arrays.

  The call walks 20 row tiles. Tile t of the feature output is rows 5000 t .. 5000 t + 4999; the row-tiled inputs
  (features, neighbour sums, reciprocal degrees) move with it and the three small operands (two weight matrices and
  the bias row) stay put. So the feature output, as a whole array, is the layer's linear map of the whole input
  arrays. The two statistics outputs have one 8-row block per tile: row 0 of block t carries the tile's column sums
  (of z, and of z squared), rows 1..7 are zero.
-/
import proofs.«104689_j73624329388568_2_alg».proof.Proof.Gen.KernelIdeal.Frame
import proofs.«104689_j73624329388568_2_alg».proof.Proof.KerBodyLin
import proofs.«104689_j73624329388568_2_alg».proof.Proof.KerBodySums
import proofs.«104689_j73624329388568_2_alg».proof.Proof.Layers
import proofs.«104689_j73624329388568_2_alg».proof.Proof.NormLaws
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart2 : (![0, 0] : Fin 2 → Nat) = fun _ => 0 := funext fun a => by fin_cases a <;> rfl

/-- The printed index maps over the 20 points: the row-tiled windows sit at block (t, 0), the small operands at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The linear map of the whole arrays the call is entered with. -/
def Z2 (c : Dev nD) : S100000x128.Idx → EReal :=
  arr2 (lin (cur2 (V c main_v45 : S100000x128.Idx → EReal)) (cur2 (V c main_v56 : S100000x128.Idx → EReal))
    (fun p => (V c main_v12 : S100000x1.Idx → EReal) (ix2 p (0 : Fin 1)))
    (cur2 (V c main_v57 : S128x128.Idx → EReal)) (cur2 (V c main_v58 : S128x128.Idx → EReal))
    (fun q => (V c main_v59 : S1x128.Idx → EReal) (ix2 (0 : Fin 1) q)))

/-- Row p of tile t is row 5000 t + p of the array. -/
def rowOf2 (t : Fin cfg2.N) (p : Fin 5000) : Fin 100000 := ⟨5000 * t.val + p.val, by have := t.isLt; have := p.isLt; have h : cfg2.N = 20 := rfl; omega⟩
/-- Row r of statistics block t is row 8 t + r of the statistics array. -/
def statRowOf2 (t : Fin cfg2.N) (r : Fin 8) : Fin 160 := ⟨8 * t.val + r.val, by have := t.isLt; have := r.isLt; have h : cfg2.N = 20 := rfl; omega⟩

/-! ## The input blocks, read where the tile sits -/

theorem blk2_0 (c : Dev nD) (t : Fin cfg2.N) (p : Fin 5000) (k : Fin 128) :
    iblk2 V c 0 t (ix2 p k) = (V c main_v45 : S100000x128.Idx → EReal) (ix2 (rowOf2 t p) k) := by
  obtain ⟨a0, a1, -⟩ := idx2 t
  show V c main_v45 (((cfg2.win 0).blk t).view.emb (ix2 p k)) = V c main_v45 (ix2 (rowOf2 t p) k)
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

theorem blk2_1 (c : Dev nD) (t : Fin cfg2.N) (p : Fin 5000) (k : Fin 128) :
    iblk2 V c 1 t (ix2 p k) = (V c main_v56 : S100000x128.Idx → EReal) (ix2 (rowOf2 t p) k) := by
  obtain ⟨-, -, b0, b1, -⟩ := idx2 t
  show V c main_v56 (((cfg2.win 1).blk t).view.emb (ix2 p k)) = V c main_v56 (ix2 (rowOf2 t p) k)
  refine congrArg _ (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega

theorem blk2_2 (c : Dev nD) (t : Fin cfg2.N) (p : Fin 5000) (u : Fin 1) :
    iblk2 V c 2 t (ix2 p u) = (V c main_v12 : S100000x1.Idx → EReal) (ix2 (rowOf2 t p) (0 : Fin 1)) := by
  obtain ⟨-, -, -, -, c0, c1, -⟩ := idx2 t
  show V c main_v12 (((cfg2.win 2).blk t).view.emb (ix2 p u)) = V c main_v12 (ix2 (rowOf2 t p) (0 : Fin 1))
  refine congrArg _ (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * u.val = 0; have := u.isLt; omega

theorem blk2_3 (c : Dev nD) (t : Fin cfg2.N) (k q : Fin 128) :
    iblk2 V c 3 t (ix2 k q) = (V c main_v57 : S128x128.Idx → EReal) (ix2 k q) := by
  obtain ⟨-, -, -, -, -, -, d0, d1, -⟩ := idx2 t
  show V c main_v57 (((cfg2.win 3).blk t).view.emb (ix2 k q)) = V c main_v57 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk2_4 (c : Dev nD) (t : Fin cfg2.N) (k q : Fin 128) :
    iblk2 V c 4 t (ix2 k q) = (V c main_v58 : S128x128.Idx → EReal) (ix2 k q) := by
  obtain ⟨-, -, -, -, -, -, -, -, e0, e1, -⟩ := idx2 t
  show V c main_v58 (((cfg2.win 4).blk t).view.emb (ix2 k q)) = V c main_v58 (ix2 k q)
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

theorem blk2_5 (c : Dev nD) (t : Fin cfg2.N) (u : Fin 1) (q : Fin 128) :
    iblk2 V c 5 t (ix2 u q) = (V c main_v59 : S1x128.Idx → EReal) (ix2 (0 : Fin 1) q) := by
  obtain ⟨-, -, -, -, -, -, -, -, -, -, f0, f1, -⟩ := idx2 t
  show V c main_v59 (((cfg2.win 5).blk t).view.emb (ix2 u q)) = V c main_v59 (ix2 (0 : Fin 1) q)
  refine congrArg _ (funext fun a => Fin.ext ?_)
  match a with
  | ⟨0, _⟩ => show win2_5.index t (0 : Fin 2) * 1 + 1 * u.val = 0; have := u.isLt; omega
  | ⟨1, _⟩ => show win2_5.index t (1 : Fin 2) * 128 + 1 * q.val = q.val; omega

/-- The body's stored feature value at (p, q) of tile t is the linear map at row 5000 t + p. -/
theorem z_at2 (c : Dev nD) (t : Fin cfg2.N) (p : Fin 5000) (q : Fin 128) :
    k0_pay2 (F := Ideal) (iblk2 V c 1 t) (iblk2 V c 2 t) (iblk2 V c 0 t) (iblk2 V c 3 t) (iblk2 V c 4 t) (iblk2 V c 5 t) (ix2 p q)
      = Z2 V c (ix2 (rowOf2 t p) q) := by
  refine (lin_pay _ _ _ _ _ _ p q).trans ?_
  simp only [blk2_0, blk2_1, blk2_2, blk2_3, blk2_4, blk2_5]
  rfl

/-! ## The feature output -/

/-- What point t writes back is block t of the linear map. -/
theorem z_flushed2 (c : Dev nD) (t : Fin cfg2.N) :
    (dat2 (F := Ideal) V c).flushed 6 t = ((cfg2.win 6).blk t).view.read (Elt Ideal) (Z2 V c) := by
  show (cfg2.win 6).cut (grid2.coords t) ((dat2 V c).after 6 t) = _
  rw [after2_6]
  unfold out2_6
  rw [k2_pay2_eq]
  rw [View.canon_unit_zero zeroStart2]
  simp only [View.ld_unit_zero (S := S5000x128) zeroStart2, View.ld_unit_zero (S := S5000x1) zeroStart2,
    View.ld_unit_zero (S := S128x128) zeroStart2, View.ld_unit_zero (S := S1x128) zeroStart2]
  obtain ⟨-, -, -, -, -, -, -, -, -, -, -, -, g0, g1, -⟩ := idx2 t
  funext j
  obtain ⟨p, q, rfl⟩ : ∃ (p : Fin 5000) (q : Fin 128), j = ix2 p q := ⟨j 0, j 1, eq_ix2 j⟩
  refine (z_at2 V c t p q).trans ?_
  show Z2 V c (ix2 (rowOf2 t p) q) = Z2 V c (((cfg2.win 6).blk t).view.emb (ix2 p q))
  refine congrArg _ (funext fun a => Fin.ext ?_)
  match a with
  | ⟨0, _⟩ => show 5000 * t.val + p.val = win2_6.index t (0 : Fin 2) * 5000 + 1 * p.val; omega
  | ⟨1, _⟩ => show q.val = win2_6.index t (1 : Fin 2) * 128 + 1 * q.val; omega

/-- An index is in point t's feature block iff each coordinate is in the block's range. -/
theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v60_0).slice (win2_6.rect t)).set ↔ _
  rw [View.set_slice_whole, Rect.mem_set_unit]
  exact Iff.rfl

/-- Every row lies in the tile numbered by its quotient by 5000. -/
theorem cover2_6' (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  refine ⟨⟨(i 0).val / 5000, by show _ < 20; omega⟩, flush2_6 _, ?_⟩
  rw [mem_blk2_6]
  obtain ⟨-, -, -, -, -, -, -, -, -, -, -, -, g0, g1, -⟩ := idx2 ⟨(i 0).val / 5000, by show _ < 20; omega⟩
  intro a
  match a with
  | ⟨0, _⟩ => show win2_6.index _ (0 : Fin 2) * 5000 ≤ (i 0).val ∧ (i 0).val < win2_6.index _ (0 : Fin 2) * 5000 + 5000; rw [g0]; show (i 0).val / 5000 * 5000 ≤ _ ∧ _ < (i 0).val / 5000 * 5000 + 5000; omega
  | ⟨1, _⟩ => show win2_6.index _ (1 : Fin 2) * 128 ≤ (i 1).val ∧ (i 1).val < win2_6.index _ (1 : Fin 2) * 128 + 128; rw [g1]; omega

/-- The feature output after the call is the linear map of the entry arrays. -/
theorem z_final2 (c : Dev nD) : (dat2 (F := Ideal) V c).arrAt 6 cfg2.N = Z2 V c :=
  (dat2 V c).arrAt_eq_of_cover 6 (Z2 V c) (fun t _ => z_flushed2 V c t) cover2_6'

/-! ## The two statistics outputs -/

/-- Row 8 t of the column-sum array carries tile t's column sums of the linear map; the other rows are zero. -/
def SumZ2 (c : Dev nD) : S160x128.Idx → EReal := fun i =>
  if (i 0).val % 8 = 0 then ∑ y : Fin 5000, Z2 V c (ix2 (rowOf2 ⟨(i 0).val / 8, by have h160 : (i 0).val < 160 := (i 0).isLt; show _ < 20; omega⟩ y) (i 1)) else 0

/-- The same for the squares. -/
def SumSq2 (c : Dev nD) : S160x128.Idx → EReal := fun i =>
  if (i 0).val % 8 = 0 then ∑ y : Fin 5000, Z2 V c (ix2 (rowOf2 ⟨(i 0).val / 8, by have h160 : (i 0).val < 160 := (i 0).isLt; show _ < 20; omega⟩ y) (i 1))
      * Z2 V c (ix2 (rowOf2 ⟨(i 0).val / 8, by have h160 : (i 0).val < 160 := (i 0).isLt; show _ < 20; omega⟩ y) (i 1)) else 0

theorem statRow_div2 (t : Fin cfg2.N) (r : Fin 8) : (⟨(8 * t.val + r.val) / 8, by have := t.isLt; have := r.isLt; have h : cfg2.N = 20 := rfl; show _ < 20; omega⟩ : Fin cfg2.N) = t :=
  Fin.ext (by show (8 * t.val + r.val) / 8 = t.val; have := r.isLt; omega)

/-- The column-sum array at row 8 t + r. -/
theorem SumZ2_at (c : Dev nD) (t : Fin cfg2.N) (r : Fin 8) (q : Fin 128) :
    SumZ2 V c (ix2 (statRowOf2 t r) q) = if r.val = 0 then ∑ y : Fin 5000, Z2 V c (ix2 (rowOf2 t y) q) else 0 := by
  have hr := r.isLt
  show (if (8 * t.val + r.val) % 8 = 0 then ∑ y : Fin 5000, Z2 V c (ix2 (rowOf2 ⟨(8 * t.val + r.val) / 8, _⟩ y) q) else 0) = _
  rw [statRow_div2 t r]
  by_cases h0 : r.val = 0
  · rw [if_pos h0, if_pos (by omega)]
  · rw [if_neg h0, if_neg (by omega)]

theorem SumSq2_at (c : Dev nD) (t : Fin cfg2.N) (r : Fin 8) (q : Fin 128) :
    SumSq2 V c (ix2 (statRowOf2 t r) q) = if r.val = 0 then ∑ y : Fin 5000, Z2 V c (ix2 (rowOf2 t y) q) * Z2 V c (ix2 (rowOf2 t y) q) else 0 := by
  have hr := r.isLt
  show (if (8 * t.val + r.val) % 8 = 0 then ∑ y : Fin 5000, Z2 V c (ix2 (rowOf2 ⟨(8 * t.val + r.val) / 8, _⟩ y) q) * Z2 V c (ix2 (rowOf2 ⟨(8 * t.val + r.val) / 8, _⟩ y) q) else 0) = _
  rw [statRow_div2 t r]
  by_cases h0 : r.val = 0
  · rw [if_pos h0, if_pos (by omega)]
  · rw [if_neg h0, if_neg (by omega)]

theorem sumz_flushed2 (c : Dev nD) (t : Fin cfg2.N) :
    (dat2 (F := Ideal) V c).flushed 7 t = ((cfg2.win 7).blk t).view.read (Elt Ideal) (SumZ2 V c) := by
  show (cfg2.win 7).cut (grid2.coords t) ((dat2 V c).after 7 t) = _
  rw [after2_7]
  unfold out2_7
  rw [k2_pay5_eq]
  rw [View.canon_unit_zero zeroStart2]
  simp only [View.ld_unit_zero (S := S5000x128) zeroStart2, View.ld_unit_zero (S := S5000x1) zeroStart2,
    View.ld_unit_zero (S := S128x128) zeroStart2, View.ld_unit_zero (S := S1x128) zeroStart2]
  obtain ⟨-, -, -, -, -, -, -, -, -, -, -, -, -, -, h0, h1, -⟩ := idx2 t
  funext j
  obtain ⟨r, q, rfl⟩ : ∃ (r : Fin 8) (q : Fin 128), j = ix2 r q := ⟨j 0, j 1, eq_ix2 j⟩
  refine (sumz_pay _ _ _ _ _ _ r q).trans ?_
  simp only [z_at2]
  refine (SumZ2_at V c t r q).symm.trans ?_
  show SumZ2 V c (ix2 (statRowOf2 t r) q) = SumZ2 V c (((cfg2.win 7).blk t).view.emb (ix2 r q))
  refine congrArg _ (funext fun a => Fin.ext ?_)
  match a with
  | ⟨0, _⟩ => show 8 * t.val + r.val = win2_7.index t (0 : Fin 2) * 8 + 1 * r.val; omega
  | ⟨1, _⟩ => show q.val = win2_7.index t (1 : Fin 2) * 128 + 1 * q.val; omega

theorem sumsq_flushed2 (c : Dev nD) (t : Fin cfg2.N) :
    (dat2 (F := Ideal) V c).flushed 8 t = ((cfg2.win 8).blk t).view.read (Elt Ideal) (SumSq2 V c) := by
  show (cfg2.win 8).cut (grid2.coords t) ((dat2 V c).after 8 t) = _
  rw [after2_8]
  unfold out2_8
  rw [k2_pay1_eq, k2_pay3_eq, k2_pay4_eq]
  rw [View.canon_unit_zero zeroStart2]
  simp only [View.ld_unit_zero (S := S5000x128) zeroStart2, View.ld_unit_zero (S := S5000x1) zeroStart2,
    View.ld_unit_zero (S := S128x128) zeroStart2, View.ld_unit_zero (S := S1x128) zeroStart2]
  obtain ⟨-, -, -, -, -, -, -, -, -, -, -, -, -, -, -, -, i0, i1⟩ := idx2 t
  funext j
  obtain ⟨r, q, rfl⟩ : ∃ (r : Fin 8) (q : Fin 128), j = ix2 r q := ⟨j 0, j 1, eq_ix2 j⟩
  refine (sumsq_pay _ _ _ _ _ _ r q).trans ?_
  simp only [z_at2]
  refine (SumSq2_at V c t r q).symm.trans ?_
  show SumSq2 V c (ix2 (statRowOf2 t r) q) = SumSq2 V c (((cfg2.win 8).blk t).view.emb (ix2 r q))
  refine congrArg _ (funext fun a => Fin.ext ?_)
  match a with
  | ⟨0, _⟩ => show 8 * t.val + r.val = win2_8.index t (0 : Fin 2) * 8 + 1 * r.val; omega
  | ⟨1, _⟩ => show q.val = win2_8.index t (1 : Fin 2) * 128 + 1 * q.val; omega

theorem mem_blk2_7 (t : Fin cfg2.N) (i : S160x128.Idx) :
    i ∈ ((cfg2.win 7).blk t).view.set ↔ ∀ a : Fin 2, win2_7.index t a * S8x128.size a ≤ (i a).val ∧ (i a).val < win2_7.index t a * S8x128.size a + S8x128.size a := by
  show i ∈ ((View.whole main_v60_1).slice (win2_7.rect t)).set ↔ _
  rw [View.set_slice_whole, Rect.mem_set_unit]
  exact Iff.rfl

theorem mem_blk2_8 (t : Fin cfg2.N) (i : S160x128.Idx) :
    i ∈ ((cfg2.win 8).blk t).view.set ↔ ∀ a : Fin 2, win2_8.index t a * S8x128.size a ≤ (i a).val ∧ (i a).val < win2_8.index t a * S8x128.size a + S8x128.size a := by
  show i ∈ ((View.whole main_v60_2).slice (win2_8.rect t)).set ↔ _
  rw [View.set_slice_whole, Rect.mem_set_unit]
  exact Iff.rfl

theorem cover2_7' (i : S160x128.Idx) : ∃ t : Fin cfg2.N, (cfg2.win 7).flush t = true ∧ i ∈ ((cfg2.win 7).blk t).view.set := by
  have hi0 : (i 0).val < 160 := (i 0).isLt
  have hi1 : (i 1).val < 128 := (i 1).isLt
  refine ⟨⟨(i 0).val / 8, by show _ < 20; omega⟩, flush2_7 _, ?_⟩
  rw [mem_blk2_7]
  obtain ⟨-, -, -, -, -, -, -, -, -, -, -, -, -, -, h0, h1, -⟩ := idx2 ⟨(i 0).val / 8, by show _ < 20; omega⟩
  intro a
  match a with
  | ⟨0, _⟩ => show win2_7.index _ (0 : Fin 2) * 8 ≤ (i 0).val ∧ (i 0).val < win2_7.index _ (0 : Fin 2) * 8 + 8; rw [h0]; show (i 0).val / 8 * 8 ≤ _ ∧ _ < (i 0).val / 8 * 8 + 8; omega
  | ⟨1, _⟩ => show win2_7.index _ (1 : Fin 2) * 128 ≤ (i 1).val ∧ (i 1).val < win2_7.index _ (1 : Fin 2) * 128 + 128; rw [h1]; omega

theorem cover2_8' (i : S160x128.Idx) : ∃ t : Fin cfg2.N, (cfg2.win 8).flush t = true ∧ i ∈ ((cfg2.win 8).blk t).view.set := by
  have hi0 : (i 0).val < 160 := (i 0).isLt
  have hi1 : (i 1).val < 128 := (i 1).isLt
  refine ⟨⟨(i 0).val / 8, by show _ < 20; omega⟩, flush2_8 _, ?_⟩
  rw [mem_blk2_8]
  obtain ⟨-, -, -, -, -, -, -, -, -, -, -, -, -, -, -, -, i0, i1⟩ := idx2 ⟨(i 0).val / 8, by show _ < 20; omega⟩
  intro a
  match a with
  | ⟨0, _⟩ => show win2_8.index _ (0 : Fin 2) * 8 ≤ (i 0).val ∧ (i 0).val < win2_8.index _ (0 : Fin 2) * 8 + 8; rw [i0]; show (i 0).val / 8 * 8 ≤ _ ∧ _ < (i 0).val / 8 * 8 + 8; omega
  | ⟨1, _⟩ => show win2_8.index _ (1 : Fin 2) * 128 ≤ (i 1).val ∧ (i 1).val < win2_8.index _ (1 : Fin 2) * 128 + 128; rw [i1]; omega

/-- The column-sum output after the call. -/
theorem sumz_final2 (c : Dev nD) : (dat2 (F := Ideal) V c).arrAt 7 cfg2.N = SumZ2 V c :=
  (dat2 V c).arrAt_eq_of_cover 7 (SumZ2 V c) (fun t _ => sumz_flushed2 V c t) cover2_7'

/-- The column-sum-of-squares output after the call. -/
theorem sumsq_final2 (c : Dev nD) : (dat2 (F := Ideal) V c).arrAt 8 cfg2.N = SumSq2 V c :=
  (dat2 V c).arrAt_eq_of_cover 8 (SumSq2 V c) (fun t _ => sumsq_flushed2 V c t) cover2_8'

/-! ## What the host makes of the two statistics outputs -/

/-- The 160 rows of the column-sum output add up to the 100000 rows of the linear map. -/
theorem colMeanK_sumz2 (c : Dev nD) (q : Fin 128) : colMeanK (SumZ2 V c) q = colMean (cur2 (Z2 V c)) nWord q := by
  unfold colMeanK colMean
  refine congrArg (fun s => Ideal.div (0 + s) nWord) ?_
  exact tile_sum (fun p => Z2 V c (ix2 p q)) (fun r => SumZ2 V c (ix2 r q)) (fun t s hlt => SumZ2_at V c t s q)

/-- The same for the squares. -/
theorem colMeanK_sumsq2 (c : Dev nD) (q : Fin 128) : colMeanK (SumSq2 V c) q = colMeanSq (cur2 (Z2 V c)) nWord q := by
  unfold colMeanK colMeanSq
  refine congrArg (fun s => Ideal.div (0 + s) nWord) ?_
  exact tile_sum (fun p => Z2 V c (ix2 p q) * Z2 V c (ix2 p q)) (fun r => SumSq2 V c (ix2 r q)) (fun t s hlt => SumSq2_at V c t s q)

/-- The host's scale from the two statistics outputs is the uncentred form's scale of the linear map. -/
theorem scaleK_stats2 (c : Dev nD) (g : S128.Idx → EReal) (q : Fin 128) :
    scaleK (SumZ2 V c) (SumSq2 V c) g q = scaleOf (cur2 (Z2 V c)) (cur1 g) nWord epsWord q := by
  unfold scaleK scaleOf
  rw [colMeanK_sumz2, colMeanK_sumsq2]

/-- The host's shift likewise. -/
theorem shiftK_stats2 (c : Dev nD) (g be : S128.Idx → EReal) (q : Fin 128) :
    shiftK (SumZ2 V c) (SumSq2 V c) g be q = shiftOf (cur2 (Z2 V c)) (cur1 g) (cur1 be) nWord epsWord q := by
  unfold shiftK shiftOf
  rw [colMeanK_sumz2, scaleK_stats2]

/-- The linear map from the six arrays the call is entered with, each named. -/
theorem Z2_of_entry (c : Dev nD) (h A : S100000x128.Idx → EReal) (dinv : Fin 100000 → EReal) (WnT WrT : S128x128.Idx → EReal)
    (bn : S128.Idx → EReal)
    (e0 : (V c main_v45 : S100000x128.Idx → EReal) = h) (e1 : (V c main_v56 : S100000x128.Idx → EReal) = A)
    (e2 : ∀ p, (V c main_v12 : S100000x1.Idx → EReal) (ix2 p (0 : Fin 1)) = dinv p)
    (e3 : (V c main_v57 : S128x128.Idx → EReal) = WnT) (e4 : (V c main_v58 : S128x128.Idx → EReal) = WrT)
    (e5 : ∀ q, (V c main_v59 : S1x128.Idx → EReal) (ix2 (0 : Fin 1) q) = bn (ix1 q)) :
    Z2 V c = arr2 (lin (cur2 h) (cur2 A) dinv (cur2 WnT) (cur2 WrT) (cur1 bn)) := by
  unfold Z2
  rw [e0, e1, e3, e4]
  simp only [e2, e5]

end Cert.Sage.Ker

end
-- ==== Proof.KerRegion3.lean ====
/-
  A normalise-and-clip call, from blocks to the array.

  The call walks 20 row tiles of the feature array; the scale row and the shift row stay put. Its output, as a whole
  array, is max(z * scale + shift, 0) entry by entry, the scale and shift read at the entry's column.
-/
import proofs.«104689_j73624329388568_2_alg».proof.Proof.Gen.KernelIdeal.Frame
import proofs.«104689_j73624329388568_2_alg».proof.Proof.KerBodyNorm
import proofs.«104689_j73624329388568_2_alg».proof.Proof.Layers
import proofs.«104689_j73624329388568_2_alg».proof.Proof.KerRegion1
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart3 : (![0, 0] : Fin 2 → Nat) = fun _ => 0 := funext fun a => by fin_cases a <;> rfl

/-- The printed index maps over the 20 points. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The multiply-add and clip of the whole arrays the call is entered with. -/
def H3 (c : Dev nD) : S100000x128.Idx → EReal := normClip (V c main_v60_0) (V c main_v75) (V c main_v76)

def rowOf3 (t : Fin cfg3.N) (p : Fin 5000) : Fin 100000 := ⟨5000 * t.val + p.val, by have := t.isLt; have := p.isLt; have h : cfg3.N = 20 := rfl; omega⟩

theorem blk3_0 (c : Dev nD) (t : Fin cfg3.N) (p : Fin 5000) (k : Fin 128) :
    iblk3 V c 0 t (ix2 p k) = (V c main_v60_0 : S100000x128.Idx → EReal) (ix2 (rowOf3 t p) k) := by
  obtain ⟨a0, a1, -⟩ := idx3 t
  show V c main_v60_0 (((cfg3.win 0).blk t).view.emb (ix2 p k)) = V c main_v60_0 (ix2 (rowOf3 t p) k)
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

theorem blk3_1 (c : Dev nD) (t : Fin cfg3.N) (u : Fin 1) (q : Fin 128) :
    iblk3 V c 1 t (ix2 u q) = (V c main_v75 : S1x128.Idx → EReal) (ix2 (0 : Fin 1) q) := by
  obtain ⟨-, -, b0, b1, -⟩ := idx3 t
  show V c main_v75 (((cfg3.win 1).blk t).view.emb (ix2 u q)) = V c main_v75 (ix2 (0 : Fin 1) q)
  refine congrArg _ (funext fun a => Fin.ext ?_)
  match a with
  | ⟨0, _⟩ => show win3_1.index t (0 : Fin 2) * 1 + 1 * u.val = 0; have := u.isLt; omega
  | ⟨1, _⟩ => show win3_1.index t (1 : Fin 2) * 128 + 1 * q.val = q.val; omega

theorem blk3_2 (c : Dev nD) (t : Fin cfg3.N) (u : Fin 1) (q : Fin 128) :
    iblk3 V c 2 t (ix2 u q) = (V c main_v76 : S1x128.Idx → EReal) (ix2 (0 : Fin 1) q) := by
  obtain ⟨-, -, -, -, c0, c1, -⟩ := idx3 t
  show V c main_v76 (((cfg3.win 2).blk t).view.emb (ix2 u q)) = V c main_v76 (ix2 (0 : Fin 1) q)
  refine congrArg _ (funext fun a => Fin.ext ?_)
  match a with
  | ⟨0, _⟩ => show win3_2.index t (0 : Fin 2) * 1 + 1 * u.val = 0; have := u.isLt; omega
  | ⟨1, _⟩ => show win3_2.index t (1 : Fin 2) * 128 + 1 * q.val = q.val; omega

/-- What point t writes back is block t of the clipped multiply-add. -/
theorem h_flushed3 (c : Dev nD) (t : Fin cfg3.N) :
    (dat3 (F := Ideal) V c).flushed 3 t = ((cfg3.win 3).blk t).view.read (Elt Ideal) (H3 V c) := by
  show (cfg3.win 3).cut (grid3.coords t) ((dat3 V c).after 3 t) = _
  rw [after3_3]
  unfold out3_3
  rw [k3_pay1_eq]
  rw [View.canon_unit_zero zeroStart3]
  simp only [View.ld_unit_zero (S := S5000x128) zeroStart3, View.ld_unit_zero (S := S1x128) zeroStart3]
  obtain ⟨-, -, -, -, -, -, d0, d1⟩ := idx3 t
  funext j
  obtain ⟨p, q, rfl⟩ : ∃ (p : Fin 5000) (q : Fin 128), j = ix2 p q := ⟨j 0, j 1, eq_ix2 j⟩
  refine (norm_pay _ _ _ p q).trans ?_
  rw [blk3_0, blk3_1, blk3_2]
  show H3 V c (ix2 (rowOf3 t p) q) = H3 V c (((cfg3.win 3).blk t).view.emb (ix2 p q))
  refine congrArg _ (funext fun a => Fin.ext ?_)
  match a with
  | ⟨0, _⟩ => show 5000 * t.val + p.val = win3_3.index t (0 : Fin 2) * 5000 + 1 * p.val; omega
  | ⟨1, _⟩ => show q.val = win3_3.index t (1 : Fin 2) * 128 + 1 * q.val; omega

theorem mem_blk3_3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v77).slice (win3_3.rect t)).set ↔ _
  rw [View.set_slice_whole, Rect.mem_set_unit]
  exact Iff.rfl

theorem cover3_3' (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  refine ⟨⟨(i 0).val / 5000, by show _ < 20; omega⟩, flush3_3 _, ?_⟩
  rw [mem_blk3_3]
  obtain ⟨-, -, -, -, -, -, d0, d1⟩ := idx3 ⟨(i 0).val / 5000, by show _ < 20; omega⟩
  intro a
  match a with
  | ⟨0, _⟩ => show win3_3.index _ (0 : Fin 2) * 5000 ≤ (i 0).val ∧ (i 0).val < win3_3.index _ (0 : Fin 2) * 5000 + 5000; rw [d0]; show (i 0).val / 5000 * 5000 ≤ _ ∧ _ < (i 0).val / 5000 * 5000 + 5000; omega
  | ⟨1, _⟩ => show win3_3.index _ (1 : Fin 2) * 128 ≤ (i 1).val ∧ (i 1).val < win3_3.index _ (1 : Fin 2) * 128 + 128; rw [d1]; omega

/-- The call's output after it has run. -/
theorem h_final3 (c : Dev nD) : (dat3 (F := Ideal) V c).arrAt 3 cfg3.N = H3 V c :=
  (dat3 V c).arrAt_eq_of_cover 3 (H3 V c) (fun t _ => h_flushed3 V c t) cover3_3'

end Cert.Sage.Ker

end
-- ==== Proof.KerRegion4.lean ====
/-
  A linear call, from blocks to arrays.

  The call walks 20 row tiles. Tile t of the feature output is rows 5000 t .. 5000 t + 4999; the row-tiled inputs
  (features, neighbour sums, reciprocal degrees) move with it and the three small operands (two weight matrices and
  the bias row) stay put. So the feature output, as a whole array, is the layer's linear map of the whole input
  arrays. The two statistics outputs have one 8-row block per tile: row 0 of block t carries the tile's column sums
  (of z, and of z squared), rows 1..7 are zero.
-/
import proofs.«104689_j73624329388568_2_alg».proof.Proof.Gen.KernelIdeal.Frame
import proofs.«104689_j73624329388568_2_alg».proof.Proof.KerBodyLin
import proofs.«104689_j73624329388568_2_alg».proof.Proof.KerBodySums
import proofs.«104689_j73624329388568_2_alg».proof.Proof.Layers
import proofs.«104689_j73624329388568_2_alg».proof.Proof.NormLaws
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart4 : (![0, 0] : Fin 2 → Nat) = fun _ => 0 := funext fun a => by fin_cases a <;> rfl

/-- The printed index maps over the 20 points: the row-tiled windows sit at block (t, 0), the small operands at (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- The linear map of the whole arrays the call is entered with. -/
def Z4 (c : Dev nD) : S100000x128.Idx → EReal :=
  arr2 (lin (cur2 (V c main_v77 : S100000x128.Idx → EReal)) (cur2 (V c main_v88 : S100000x128.Idx → EReal))
    (fun p => (V c main_v12 : S100000x1.Idx → EReal) (ix2 p (0 : Fin 1)))
    (cur2 (V c main_v89 : S128x128.Idx → EReal)) (cur2 (V c main_v90 : S128x128.Idx → EReal))
    (fun q => (V c main_v91 : S1x128.Idx → EReal) (ix2 (0 : Fin 1) q)))

/-- Row p of tile t is row 5000 t + p of the array. -/
def rowOf4 (t : Fin cfg4.N) (p : Fin 5000) : Fin 100000 := ⟨5000 * t.val + p.val, by have := t.isLt; have := p.isLt; have h : cfg4.N = 20 := rfl; omega⟩
/-- Row r of statistics block t is row 8 t + r of the statistics array. -/
def statRowOf4 (t : Fin cfg4.N) (r : Fin 8) : Fin 160 := ⟨8 * t.val + r.val, by have := t.isLt; have := r.isLt; have h : cfg4.N = 20 := rfl; omega⟩

/-! ## The input blocks, read where the tile sits -/

theorem blk4_0 (c : Dev nD) (t : Fin cfg4.N) (p : Fin 5000) (k : Fin 128) :
    iblk4 V c 0 t (ix2 p k) = (V c main_v77 : S100000x128.Idx → EReal) (ix2 (rowOf4 t p) k) := by
  obtain ⟨a0, a1, -⟩ := idx4 t
  show V c main_v77 (((cfg4.win 0).blk t).view.emb (ix2 p k)) = V c main_v77 (ix2 (rowOf4 t p) k)
  refine congrArg _ (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * k.val = k.val; omega

theorem blk4_1 (c : Dev nD) (t : Fin cfg4.N) (p : Fin 5000) (k : Fin 128) :
    iblk4 V c 1 t (ix2 p k) = (V c main_v88 : S100000x128.Idx → EReal) (ix2 (rowOf4 t p) k) := by
  obtain ⟨-, -, b0, b1, -⟩ := idx4 t
  show V c main_v88 (((cfg4.win 1).blk t).view.emb (ix2 p k)) = V c main_v88 (ix2 (rowOf4 t p) k)
  refine congrArg _ (funext fun a => Fin.ext ?_)
  match a with
  | ⟨0, _⟩ => show win4_1.index t (0 : Fin 2) * 5000 + 1 * p.val = 5000 * t.val + p.val; omega
  | ⟨1, _⟩ => show win4_1.index t (1 : Fin 2) * 128 + 1 * k.val = k.val; omega

theorem blk4_2 (c : Dev nD) (t : Fin cfg4.N) (p : Fin 5000) (u : Fin 1) :
    iblk4 V c 2 t (ix2 p u) = (V c main_v12 : S100000x1.Idx → EReal) (ix2 (rowOf4 t p) (0 : Fin 1)) := by
  obtain ⟨-, -, -, -, c0, c1, -⟩ := idx4 t
  show V c main_v12 (((cfg4.win 2).blk t).view.emb (ix2 p u)) = V c main_v12 (ix2 (rowOf4 t p) (0 : Fin 1))
  refine congrArg _ (funext fun a => Fin.ext ?_)
  match a with
  | ⟨0, _⟩ => show win4_2.index t (0 : Fin 2) * 5000 + 1 * p.val = 5000 * t.val + p.val; omega
  | ⟨1, _⟩ => show win4_2.index t (1 : Fin 2) * 1 + 1 * u.val = 0; have := u.isLt; omega

theorem blk4_3 (c : Dev nD) (t : Fin cfg4.N) (k q : Fin 128) :
    iblk4 V c 3 t (ix2 k q) = (V c main_v89 : S128x128.Idx → EReal) (ix2 k q) := by
  obtain ⟨-, -, -, -, -, -, d0, d1, -⟩ := idx4 t
  show V c main_v89 (((cfg4.win 3).blk t).view.emb (ix2 k q)) = V c main_v89 (ix2 k q)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

theorem blk4_4 (c : Dev nD) (t : Fin cfg4.N) (k q : Fin 128) :
    iblk4 V c 4 t (ix2 k q) = (V c main_v90 : S128x128.Idx → EReal) (ix2 k q) := by
  obtain ⟨-, -, -, -, -, -, -, -, e0, e1, -⟩ := idx4 t
  show V c main_v90 (((cfg4.win 4).blk t).view.emb (ix2 k q)) = V c main_v90 (ix2 k q)
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

theorem blk4_5 (c : Dev nD) (t : Fin cfg4.N) (u : Fin 1) (q : Fin 128) :
    iblk4 V c 5 t (ix2 u q) = (V c main_v91 : S1x128.Idx → EReal) (ix2 (0 : Fin 1) q) := by
  obtain ⟨-, -, -, -, -, -, -, -, -, -, f0, f1, -⟩ := idx4 t
  show V c main_v91 (((cfg4.win 5).blk t).view.emb (ix2 u q)) = V c main_v91 (ix2 (0 : Fin 1) q)
  refine congrArg _ (funext fun a => Fin.ext ?_)
  match a with
  | ⟨0, _⟩ => show win4_5.index t (0 : Fin 2) * 1 + 1 * u.val = 0; have := u.isLt; omega
  | ⟨1, _⟩ => show win4_5.index t (1 : Fin 2) * 128 + 1 * q.val = q.val; omega

/-- The body's stored feature value at (p, q) of tile t is the linear map at row 5000 t + p. -/
theorem z_at4 (c : Dev nD) (t : Fin cfg4.N) (p : Fin 5000) (q : Fin 128) :
    k0_pay2 (F := Ideal) (iblk4 V c 1 t) (iblk4 V c 2 t) (iblk4 V c 0 t) (iblk4 V c 3 t) (iblk4 V c 4 t) (iblk4 V c 5 t) (ix2 p q)
      = Z4 V c (ix2 (rowOf4 t p) q) := by
  refine (lin_pay _ _ _ _ _ _ p q).trans ?_
  simp only [blk4_0, blk4_1, blk4_2, blk4_3, blk4_4, blk4_5]
  rfl

/-! ## The feature output -/

/-- What point t writes back is block t of the linear map. -/
theorem z_flushed4 (c : Dev nD) (t : Fin cfg4.N) :
    (dat4 (F := Ideal) V c).flushed 6 t = ((cfg4.win 6).blk t).view.read (Elt Ideal) (Z4 V c) := by
  show (cfg4.win 6).cut (grid4.coords t) ((dat4 V c).after 6 t) = _
  rw [after4_6]
  unfold out4_6
  rw [k4_pay2_eq]
  rw [View.canon_unit_zero zeroStart4]
  simp only [View.ld_unit_zero (S := S5000x128) zeroStart4, View.ld_unit_zero (S := S5000x1) zeroStart4,
    View.ld_unit_zero (S := S128x128) zeroStart4, View.ld_unit_zero (S := S1x128) zeroStart4]
  obtain ⟨-, -, -, -, -, -, -, -, -, -, -, -, g0, g1, -⟩ := idx4 t
  funext j
  obtain ⟨p, q, rfl⟩ : ∃ (p : Fin 5000) (q : Fin 128), j = ix2 p q := ⟨j 0, j 1, eq_ix2 j⟩
  refine (z_at4 V c t p q).trans ?_
  show Z4 V c (ix2 (rowOf4 t p) q) = Z4 V c (((cfg4.win 6).blk t).view.emb (ix2 p q))
  refine congrArg _ (funext fun a => Fin.ext ?_)
  match a with
  | ⟨0, _⟩ => show 5000 * t.val + p.val = win4_6.index t (0 : Fin 2) * 5000 + 1 * p.val; omega
  | ⟨1, _⟩ => show q.val = win4_6.index t (1 : Fin 2) * 128 + 1 * q.val; omega

/-- An index is in point t's feature block iff each coordinate is in the block's range. -/
theorem mem_blk4_6 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v92_0).slice (win4_6.rect t)).set ↔ _
  rw [View.set_slice_whole, Rect.mem_set_unit]
  exact Iff.rfl

/-- Every row lies in the tile numbered by its quotient by 5000. -/
theorem cover4_6' (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  refine ⟨⟨(i 0).val / 5000, by show _ < 20; omega⟩, flush4_6 _, ?_⟩
  rw [mem_blk4_6]
  obtain ⟨-, -, -, -, -, -, -, -, -, -, -, -, g0, g1, -⟩ := idx4 ⟨(i 0).val / 5000, by show _ < 20; omega⟩
  intro a
  match a with
  | ⟨0, _⟩ => show win4_6.index _ (0 : Fin 2) * 5000 ≤ (i 0).val ∧ (i 0).val < win4_6.index _ (0 : Fin 2) * 5000 + 5000; rw [g0]; show (i 0).val / 5000 * 5000 ≤ _ ∧ _ < (i 0).val / 5000 * 5000 + 5000; omega
  | ⟨1, _⟩ => show win4_6.index _ (1 : Fin 2) * 128 ≤ (i 1).val ∧ (i 1).val < win4_6.index _ (1 : Fin 2) * 128 + 128; rw [g1]; omega

/-- The feature output after the call is the linear map of the entry arrays. -/
theorem z_final4 (c : Dev nD) : (dat4 (F := Ideal) V c).arrAt 6 cfg4.N = Z4 V c :=
  (dat4 V c).arrAt_eq_of_cover 6 (Z4 V c) (fun t _ => z_flushed4 V c t) cover4_6'

/-! ## The two statistics outputs -/

/-- Row 8 t of the column-sum array carries tile t's column sums of the linear map; the other rows are zero. -/
def SumZ4 (c : Dev nD) : S160x128.Idx → EReal := fun i =>
  if (i 0).val % 8 = 0 then ∑ y : Fin 5000, Z4 V c (ix2 (rowOf4 ⟨(i 0).val / 8, by have h160 : (i 0).val < 160 := (i 0).isLt; show _ < 20; omega⟩ y) (i 1)) else 0

/-- The same for the squares. -/
def SumSq4 (c : Dev nD) : S160x128.Idx → EReal := fun i =>
  if (i 0).val % 8 = 0 then ∑ y : Fin 5000, Z4 V c (ix2 (rowOf4 ⟨(i 0).val / 8, by have h160 : (i 0).val < 160 := (i 0).isLt; show _ < 20; omega⟩ y) (i 1))
      * Z4 V c (ix2 (rowOf4 ⟨(i 0).val / 8, by have h160 : (i 0).val < 160 := (i 0).isLt; show _ < 20; omega⟩ y) (i 1)) else 0

theorem statRow_div4 (t : Fin cfg4.N) (r : Fin 8) : (⟨(8 * t.val + r.val) / 8, by have := t.isLt; have := r.isLt; have h : cfg4.N = 20 := rfl; show _ < 20; omega⟩ : Fin cfg4.N) = t :=
  Fin.ext (by show (8 * t.val + r.val) / 8 = t.val; have := r.isLt; omega)

/-- The column-sum array at row 8 t + r. -/
theorem SumZ4_at (c : Dev nD) (t : Fin cfg4.N) (r : Fin 8) (q : Fin 128) :
    SumZ4 V c (ix2 (statRowOf4 t r) q) = if r.val = 0 then ∑ y : Fin 5000, Z4 V c (ix2 (rowOf4 t y) q) else 0 := by
  have hr := r.isLt
  show (if (8 * t.val + r.val) % 8 = 0 then ∑ y : Fin 5000, Z4 V c (ix2 (rowOf4 ⟨(8 * t.val + r.val) / 8, _⟩ y) q) else 0) = _
  rw [statRow_div4 t r]
  by_cases h0 : r.val = 0
  · rw [if_pos h0, if_pos (by omega)]
  · rw [if_neg h0, if_neg (by omega)]

theorem SumSq4_at (c : Dev nD) (t : Fin cfg4.N) (r : Fin 8) (q : Fin 128) :
    SumSq4 V c (ix2 (statRowOf4 t r) q) = if r.val = 0 then ∑ y : Fin 5000, Z4 V c (ix2 (rowOf4 t y) q) * Z4 V c (ix2 (rowOf4 t y) q) else 0 := by
  have hr := r.isLt
  show (if (8 * t.val + r.val) % 8 = 0 then ∑ y : Fin 5000, Z4 V c (ix2 (rowOf4 ⟨(8 * t.val + r.val) / 8, _⟩ y) q) * Z4 V c (ix2 (rowOf4 ⟨(8 * t.val + r.val) / 8, _⟩ y) q) else 0) = _
  rw [statRow_div4 t r]
  by_cases h0 : r.val = 0
  · rw [if_pos h0, if_pos (by omega)]
  · rw [if_neg h0, if_neg (by omega)]

theorem sumz_flushed4 (c : Dev nD) (t : Fin cfg4.N) :
    (dat4 (F := Ideal) V c).flushed 7 t = ((cfg4.win 7).blk t).view.read (Elt Ideal) (SumZ4 V c) := by
  show (cfg4.win 7).cut (grid4.coords t) ((dat4 V c).after 7 t) = _
  rw [after4_7]
  unfold out4_7
  rw [k4_pay5_eq]
  rw [View.canon_unit_zero zeroStart4]
  simp only [View.ld_unit_zero (S := S5000x128) zeroStart4, View.ld_unit_zero (S := S5000x1) zeroStart4,
    View.ld_unit_zero (S := S128x128) zeroStart4, View.ld_unit_zero (S := S1x128) zeroStart4]
  obtain ⟨-, -, -, -, -, -, -, -, -, -, -, -, -, -, h0, h1, -⟩ := idx4 t
  funext j
  obtain ⟨r, q, rfl⟩ : ∃ (r : Fin 8) (q : Fin 128), j = ix2 r q := ⟨j 0, j 1, eq_ix2 j⟩
  refine (sumz_pay _ _ _ _ _ _ r q).trans ?_
  simp only [z_at4]
  refine (SumZ4_at V c t r q).symm.trans ?_
  show SumZ4 V c (ix2 (statRowOf4 t r) q) = SumZ4 V c (((cfg4.win 7).blk t).view.emb (ix2 r q))
  refine congrArg _ (funext fun a => Fin.ext ?_)
  match a with
  | ⟨0, _⟩ => show 8 * t.val + r.val = win4_7.index t (0 : Fin 2) * 8 + 1 * r.val; omega
  | ⟨1, _⟩ => show q.val = win4_7.index t (1 : Fin 2) * 128 + 1 * q.val; omega

theorem sumsq_flushed4 (c : Dev nD) (t : Fin cfg4.N) :
    (dat4 (F := Ideal) V c).flushed 8 t = ((cfg4.win 8).blk t).view.read (Elt Ideal) (SumSq4 V c) := by
  show (cfg4.win 8).cut (grid4.coords t) ((dat4 V c).after 8 t) = _
  rw [after4_8]
  unfold out4_8
  rw [k4_pay1_eq, k4_pay3_eq, k4_pay4_eq]
  rw [View.canon_unit_zero zeroStart4]
  simp only [View.ld_unit_zero (S := S5000x128) zeroStart4, View.ld_unit_zero (S := S5000x1) zeroStart4,
    View.ld_unit_zero (S := S128x128) zeroStart4, View.ld_unit_zero (S := S1x128) zeroStart4]
  obtain ⟨-, -, -, -, -, -, -, -, -, -, -, -, -, -, -, -, i0, i1⟩ := idx4 t
  funext j
  obtain ⟨r, q, rfl⟩ : ∃ (r : Fin 8) (q : Fin 128), j = ix2 r q := ⟨j 0, j 1, eq_ix2 j⟩
  refine (sumsq_pay _ _ _ _ _ _ r q).trans ?_
  simp only [z_at4]
  refine (SumSq4_at V c t r q).symm.trans ?_
  show SumSq4 V c (ix2 (statRowOf4 t r) q) = SumSq4 V c (((cfg4.win 8).blk t).view.emb (ix2 r q))
  refine congrArg _ (funext fun a => Fin.ext ?_)
  match a with
  | ⟨0, _⟩ => show 8 * t.val + r.val = win4_8.index t (0 : Fin 2) * 8 + 1 * r.val; omega
  | ⟨1, _⟩ => show q.val = win4_8.index t (1 : Fin 2) * 128 + 1 * q.val; omega

theorem mem_blk4_7 (t : Fin cfg4.N) (i : S160x128.Idx) :
    i ∈ ((cfg4.win 7).blk t).view.set ↔ ∀ a : Fin 2, win4_7.index t a * S8x128.size a ≤ (i a).val ∧ (i a).val < win4_7.index t a * S8x128.size a + S8x128.size a := by
  show i ∈ ((View.whole main_v92_1).slice (win4_7.rect t)).set ↔ _
  rw [View.set_slice_whole, Rect.mem_set_unit]
  exact Iff.rfl

theorem mem_blk4_8 (t : Fin cfg4.N) (i : S160x128.Idx) :
    i ∈ ((cfg4.win 8).blk t).view.set ↔ ∀ a : Fin 2, win4_8.index t a * S8x128.size a ≤ (i a).val ∧ (i a).val < win4_8.index t a * S8x128.size a + S8x128.size a := by
  show i ∈ ((View.whole main_v92_2).slice (win4_8.rect t)).set ↔ _
  rw [View.set_slice_whole, Rect.mem_set_unit]
  exact Iff.rfl

theorem cover4_7' (i : S160x128.Idx) : ∃ t : Fin cfg4.N, (cfg4.win 7).flush t = true ∧ i ∈ ((cfg4.win 7).blk t).view.set := by
  have hi0 : (i 0).val < 160 := (i 0).isLt
  have hi1 : (i 1).val < 128 := (i 1).isLt
  refine ⟨⟨(i 0).val / 8, by show _ < 20; omega⟩, flush4_7 _, ?_⟩
  rw [mem_blk4_7]
  obtain ⟨-, -, -, -, -, -, -, -, -, -, -, -, -, -, h0, h1, -⟩ := idx4 ⟨(i 0).val / 8, by show _ < 20; omega⟩
  intro a
  match a with
  | ⟨0, _⟩ => show win4_7.index _ (0 : Fin 2) * 8 ≤ (i 0).val ∧ (i 0).val < win4_7.index _ (0 : Fin 2) * 8 + 8; rw [h0]; show (i 0).val / 8 * 8 ≤ _ ∧ _ < (i 0).val / 8 * 8 + 8; omega
  | ⟨1, _⟩ => show win4_7.index _ (1 : Fin 2) * 128 ≤ (i 1).val ∧ (i 1).val < win4_7.index _ (1 : Fin 2) * 128 + 128; rw [h1]; omega

theorem cover4_8' (i : S160x128.Idx) : ∃ t : Fin cfg4.N, (cfg4.win 8).flush t = true ∧ i ∈ ((cfg4.win 8).blk t).view.set := by
  have hi0 : (i 0).val < 160 := (i 0).isLt
  have hi1 : (i 1).val < 128 := (i 1).isLt
  refine ⟨⟨(i 0).val / 8, by show _ < 20; omega⟩, flush4_8 _, ?_⟩
  rw [mem_blk4_8]
  obtain ⟨-, -, -, -, -, -, -, -, -, -, -, -, -, -, -, -, i0, i1⟩ := idx4 ⟨(i 0).val / 8, by show _ < 20; omega⟩
  intro a
  match a with
  | ⟨0, _⟩ => show win4_8.index _ (0 : Fin 2) * 8 ≤ (i 0).val ∧ (i 0).val < win4_8.index _ (0 : Fin 2) * 8 + 8; rw [i0]; show (i 0).val / 8 * 8 ≤ _ ∧ _ < (i 0).val / 8 * 8 + 8; omega
  | ⟨1, _⟩ => show win4_8.index _ (1 : Fin 2) * 128 ≤ (i 1).val ∧ (i 1).val < win4_8.index _ (1 : Fin 2) * 128 + 128; rw [i1]; omega

/-- The column-sum output after the call. -/
theorem sumz_final4 (c : Dev nD) : (dat4 (F := Ideal) V c).arrAt 7 cfg4.N = SumZ4 V c :=
  (dat4 V c).arrAt_eq_of_cover 7 (SumZ4 V c) (fun t _ => sumz_flushed4 V c t) cover4_7'

/-- The column-sum-of-squares output after the call. -/
theorem sumsq_final4 (c : Dev nD) : (dat4 (F := Ideal) V c).arrAt 8 cfg4.N = SumSq4 V c :=
  (dat4 V c).arrAt_eq_of_cover 8 (SumSq4 V c) (fun t _ => sumsq_flushed4 V c t) cover4_8'

/-! ## What the host makes of the two statistics outputs -/

/-- The 160 rows of the column-sum output add up to the 100000 rows of the linear map. -/
theorem colMeanK_sumz4 (c : Dev nD) (q : Fin 128) : colMeanK (SumZ4 V c) q = colMean (cur2 (Z4 V c)) nWord q := by
  unfold colMeanK colMean
  refine congrArg (fun s => Ideal.div (0 + s) nWord) ?_
  exact tile_sum (fun p => Z4 V c (ix2 p q)) (fun r => SumZ4 V c (ix2 r q)) (fun t s hlt => SumZ4_at V c t s q)

/-- The same for the squares. -/
theorem colMeanK_sumsq4 (c : Dev nD) (q : Fin 128) : colMeanK (SumSq4 V c) q = colMeanSq (cur2 (Z4 V c)) nWord q := by
  unfold colMeanK colMeanSq
  refine congrArg (fun s => Ideal.div (0 + s) nWord) ?_
  exact tile_sum (fun p => Z4 V c (ix2 p q) * Z4 V c (ix2 p q)) (fun r => SumSq4 V c (ix2 r q)) (fun t s hlt => SumSq4_at V c t s q)

/-- The host's scale from the two statistics outputs is the uncentred form's scale of the linear map. -/
theorem scaleK_stats4 (c : Dev nD) (g : S128.Idx → EReal) (q : Fin 128) :
    scaleK (SumZ4 V c) (SumSq4 V c) g q = scaleOf (cur2 (Z4 V c)) (cur1 g) nWord epsWord q := by
  unfold scaleK scaleOf
  rw [colMeanK_sumz4, colMeanK_sumsq4]

/-- The host's shift likewise. -/
theorem shiftK_stats4 (c : Dev nD) (g be : S128.Idx → EReal) (q : Fin 128) :
    shiftK (SumZ4 V c) (SumSq4 V c) g be q = shiftOf (cur2 (Z4 V c)) (cur1 g) (cur1 be) nWord epsWord q := by
  unfold shiftK shiftOf
  rw [colMeanK_sumz4, scaleK_stats4]

/-- The linear map from the six arrays the call is entered with, each named. -/
theorem Z4_of_entry (c : Dev nD) (h A : S100000x128.Idx → EReal) (dinv : Fin 100000 → EReal) (WnT WrT : S128x128.Idx → EReal)
    (bn : S128.Idx → EReal)
    (e0 : (V c main_v77 : S100000x128.Idx → EReal) = h) (e1 : (V c main_v88 : S100000x128.Idx → EReal) = A)
    (e2 : ∀ p, (V c main_v12 : S100000x1.Idx → EReal) (ix2 p (0 : Fin 1)) = dinv p)
    (e3 : (V c main_v89 : S128x128.Idx → EReal) = WnT) (e4 : (V c main_v90 : S128x128.Idx → EReal) = WrT)
    (e5 : ∀ q, (V c main_v91 : S1x128.Idx → EReal) (ix2 (0 : Fin 1) q) = bn (ix1 q)) :
    Z4 V c = arr2 (lin (cur2 h) (cur2 A) dinv (cur2 WnT) (cur2 WrT) (cur1 bn)) := by
  unfold Z4
  rw [e0, e1, e3, e4]
  simp only [e2, e5]

end Cert.Sage.Ker

end
-- ==== Proof.KerBodyReadout.lean ====
/-
  The read-out body at an entry.

  One grid point of the fused read-out kernel holds a 5000-row tile of the last layer's linear output with that
  layer's scale and shift rows, and the two dense layers' weights and bias rows. At row p and output column o the
  stored value is

    sum_j max ((sum_k max (z(p,k) * scale(k) + shift(k)) 0 * W1T(k,j)) + b1(j)) 0 * W2T(j,o)  +  b2(o):

  the normalisation is the multiply-add followed by the maximum with 0; each matrix product starts from a zero
  block, so it is the plain sum over the contracted positions; bias rows are spread down the columns; narrowing to a
  shorter float format changes nothing on the extended reals.
-/
import proofs.«104689_j73624329388568_2_alg».proof.Proof.Gen.KernelIdeal.Skeleton
import proofs.«104689_j73624329388568_2_alg».proof.Proof.LibPlainDot
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.ValueIdx
open scoped BigOperators

/-- The first dense layer's product, started from zero, is the plain sum over the 128 contracted positions. -/
theorem hidden_matmul (a : FVec Ideal S5000x128 .bf16) (b : FVec Ideal S128x64 .bf16) (p : Fin 5000) (j : Fin 64) :
    matmul dot_S5000x128_S128x64_S5000x64_1_0_0_1_n_n none a b (constant S5000x64 .f32 0x00000000#32) (ix2 p j)
      = ∑ k : Fin 128, a (ix2 p k) * b (ix2 k j) :=
  PlainDot.matmul_zero_apply dot_S5000x128_S128x64_S5000x64_1_0_0_1_n_n rfl rfl rfl rfl rfl rfl rfl rfl none a b p j

/-- The second dense layer's product, started from zero, is the plain sum over the 64 contracted positions. -/
theorem out_matmul (a : FVec Ideal S5000x64 .bf16) (b : FVec Ideal S64x2 .bf16) (p : Fin 5000) (o : Fin 2) :
    matmul dot_S5000x64_S64x2_S5000x2_1_0_0_1_n_n none a b (constant S5000x2 .f32 0x00000000#32) (ix2 p o)
      = ∑ j : Fin 64, a (ix2 p j) * b (ix2 j o) :=
  PlainDot.matmul_zero_apply dot_S5000x64_S64x2_S5000x2_1_0_0_1_n_n rfl rfl rfl rfl rfl rfl rfl rfl none a b p o

/-- The read-out body's stored value at (p, o) of its tile. -/
theorem readout_pay (v0 : Vec Ideal S5000x128 .f32) (v2 v6 : Vec Ideal S1x128 .f32) (v13 : Vec Ideal S128x64 .f32)
    (v17 : Vec Ideal S1x64 .f32) (v24 : Vec Ideal S64x2 .f32) (v28 : Vec Ideal S1x2 .f32) (p : Fin 5000) (o : Fin 2) :
    k5_pay1 (F := Ideal) v0 v2 v6 v13 v17 v24 v28 (ix2 p o)
      = (∑ j : Fin 64, max ((∑ k : Fin 128, max (v0 (ix2 p k) * v2 (ix2 (0 : Fin 1) k) + v6 (ix2 (0 : Fin 1) k)) 0
            * v13 (ix2 k j)) + v17 (ix2 (0 : Fin 1) j)) 0 * v24 (ix2 j o)) + v28 (ix2 (0 : Fin 1) o) := by
  unfold k5_pay1
  simp only [shapeCast_self]
  rw [addf_apply, out_matmul, broadcastTo_1b_ab_apply]
  refine congrArg₂ (· + ·) (Finset.sum_congr rfl fun j _ => ?_) rfl
  rw [truncf_apply, truncf_apply, maximumf_apply, addf_apply, hidden_matmul, broadcastTo_1b_ab_apply, broadcast_apply]
  refine congrArg₂ (· * ·)
    (congrArg₂ max (congrArg₂ (· + ·) (Finset.sum_congr rfl fun k _ => ?_) rfl) Ideal.ofBits_zero_f32) rfl
  rw [truncf_apply, truncf_apply, maximumf_apply, addf_apply, mulf_apply, broadcastTo_1b_ab_apply,
    broadcastTo_1b_ab_apply, broadcast_apply]
  exact congrArg₂ (· * ·) (congrArg (max _) Ideal.ofBits_zero_f32) rfl

end Cert.Sage.Ker

end
-- ==== Proof.KerRegion5.lean ====
/-
  The fused last call, from blocks to the array.

  The call walks 20 row tiles of the last layer's feature array; the scale and shift rows, the two read-out weight
  matrices and the two bias rows stay put. Its output, as a whole array, is the read-out of the clipped multiply-add:
  at row p and output column o,

    (sum_j max((sum_k max(z(p,k) * scale(k) + shift(k), 0) * W1T(k,j)) + b1(j), 0) * W2T(j,o)) + b2(o).
-/
import proofs.«104689_j73624329388568_2_alg».proof.Proof.Gen.KernelIdeal.Frame
import proofs.«104689_j73624329388568_2_alg».proof.Proof.KerBodyReadout
import proofs.«104689_j73624329388568_2_alg».proof.Proof.Layers
import Idealize.ShloMosaic.Lib.Pipeline.Value

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Idealize.ShloMosaic.Pipeline (Dat Cfg Window)
open scoped BigOperators

variable (V : (c : Dev nD) → (b : Ref sig .tc) → Buf (Elt Ideal) ((c : Thread nD τ).loc b))

theorem zeroStart5 : (![0, 0] : Fin 2 → Nat) = fun _ => 0 := funext fun a => by fin_cases a <;> rfl

/-- The printed index maps over the 20 points. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The read-out of the clipped multiply-add, on typed operands. -/
def readClip (z : S100000x128.Idx → EReal) (sc sh : S1x128.Idx → EReal) (w1 : S128x64.Idx → EReal) (b1 : S1x64.Idx → EReal)
    (w2 : S64x2.Idx → EReal) (b2 : S1x2.Idx → EReal) : S100000x2.Idx → EReal := fun i =>
  (∑ j : Fin 64, max ((∑ k : Fin 128,
        max (z (ix2 (i 0) k) * sc (ix2 (0 : Fin 1) k) + sh (ix2 (0 : Fin 1) k)) 0 * w1 (ix2 k j))
      + b1 (ix2 (0 : Fin 1) j)) 0 * w2 (ix2 j (i 1)))
    + b2 (ix2 (0 : Fin 1) (i 1))

/-- With the scale and shift rows holding the uncentred form's scale and shift of z, and the two bias rows read by
    position, this is the read-out of the uncentred batch normalisation of z clipped at 0. -/
theorem readClip_eq (z : S100000x128.Idx → EReal) (sc sh : S1x128.Idx → EReal) (w1 : S128x64.Idx → EReal) (b1 : S1x64.Idx → EReal)
    (w2 : S64x2.Idx → EReal) (b2 : S1x2.Idx → EReal) (g be : Fin 128 → EReal) (c1 : Fin 64 → EReal) (c2 : Fin 2 → EReal) (n e : EReal)
    (hsc : ∀ q, sc (ix2 (0 : Fin 1) q) = scaleOf (cur2 z) g n e q)
    (hsh : ∀ q, sh (ix2 (0 : Fin 1) q) = shiftOf (cur2 z) g be n e q)
    (hb1 : ∀ j, b1 (ix2 (0 : Fin 1) j) = c1 j) (hb2 : ∀ o, b2 (ix2 (0 : Fin 1) o) = c2 o) :
    readClip z sc sh w1 b1 w2 b2 = arr2 (readout (affineRelu (cur2 z) g be n e) (cur2 w1) c1 (cur2 w2) c2) := by
  funext i
  obtain ⟨p, o, rfl⟩ : ∃ (p : Fin 100000) (o : Fin 2), i = ix2 p o := ⟨i 0, i 1, eq_ix2 i⟩
  show (∑ j : Fin 64, max ((∑ k : Fin 128,
        max (z (ix2 p k) * sc (ix2 (0 : Fin 1) k) + sh (ix2 (0 : Fin 1) k)) 0 * w1 (ix2 k j))
      + b1 (ix2 (0 : Fin 1) j)) 0 * w2 (ix2 j o)) + b2 (ix2 (0 : Fin 1) o)
    = readout (affineRelu (cur2 z) g be n e) (cur2 w1) c1 (cur2 w2) c2 p o
  simp only [hsc, hsh, hb1, hb2]
  rfl

/-- The read-out of the clipped multiply-add of the whole arrays the call is entered with. -/
def Out5 (c : Dev nD) : S100000x2.Idx → EReal :=
  readClip (V c main_v92_0) (V c main_v109) (V c main_v110) (V c main_v107) (V c main_v111) (V c main_v108) (V c main_v112)

def rowOf5 (t : Fin cfg5.N) (p : Fin 5000) : Fin 100000 := ⟨5000 * t.val + p.val, by have := t.isLt; have := p.isLt; have h : cfg5.N = 20 := rfl; omega⟩

theorem blk5_0 (c : Dev nD) (t : Fin cfg5.N) (p : Fin 5000) (k : Fin 128) :
    iblk5 V c 0 t (ix2 p k) = (V c main_v92_0 : S100000x128.Idx → EReal) (ix2 (rowOf5 t p) k) := by
  obtain ⟨a0, a1, -⟩ := idx5 t
  show V c main_v92_0 (((cfg5.win 0).blk t).view.emb (ix2 p k)) = V c main_v92_0 (ix2 (rowOf5 t p) k)
  refine congrArg _ (funext fun a => Fin.ext ?_)
  match a with
  | ⟨0, _⟩ => show win5_0.index t (0 : Fin 2) * 5000 + 1 * p.val = 5000 * t.val + p.val; omega
  | ⟨1, _⟩ => show win5_0.index t (1 : Fin 2) * 128 + 1 * k.val = k.val; omega

theorem blk5_1 (c : Dev nD) (t : Fin cfg5.N) (u : Fin 1) (q : Fin 128) :
    iblk5 V c 1 t (ix2 u q) = (V c main_v109 : S1x128.Idx → EReal) (ix2 (0 : Fin 1) q) := by
  obtain ⟨-, -, b0, b1, -⟩ := idx5 t
  show V c main_v109 (((cfg5.win 1).blk t).view.emb (ix2 u q)) = V c main_v109 (ix2 (0 : Fin 1) q)
  refine congrArg _ (funext fun a => Fin.ext ?_)
  match a with
  | ⟨0, _⟩ => show win5_1.index t (0 : Fin 2) * 1 + 1 * u.val = 0; have := u.isLt; omega
  | ⟨1, _⟩ => show win5_1.index t (1 : Fin 2) * 128 + 1 * q.val = q.val; omega

theorem blk5_2 (c : Dev nD) (t : Fin cfg5.N) (u : Fin 1) (q : Fin 128) :
    iblk5 V c 2 t (ix2 u q) = (V c main_v110 : S1x128.Idx → EReal) (ix2 (0 : Fin 1) q) := by
  obtain ⟨-, -, -, -, c0, c1, -⟩ := idx5 t
  show V c main_v110 (((cfg5.win 2).blk t).view.emb (ix2 u q)) = V c main_v110 (ix2 (0 : Fin 1) q)
  refine congrArg _ (funext fun a => Fin.ext ?_)
  match a with
  | ⟨0, _⟩ => show win5_2.index t (0 : Fin 2) * 1 + 1 * u.val = 0; have := u.isLt; omega
  | ⟨1, _⟩ => show win5_2.index t (1 : Fin 2) * 128 + 1 * q.val = q.val; omega

theorem blk5_3 (c : Dev nD) (t : Fin cfg5.N) (k : Fin 128) (j : Fin 64) :
    iblk5 V c 3 t (ix2 k j) = (V c main_v107 : S128x64.Idx → EReal) (ix2 k j) := by
  obtain ⟨-, -, -, -, -, -, d0, d1, -⟩ := idx5 t
  show V c main_v107 (((cfg5.win 3).blk t).view.emb (ix2 k j)) = V c main_v107 (ix2 k j)
  refine congrArg _ (funext fun a => Fin.ext ?_)
  match a with
  | ⟨0, _⟩ => show win5_3.index t (0 : Fin 2) * 128 + 1 * k.val = k.val; omega
  | ⟨1, _⟩ => show win5_3.index t (1 : Fin 2) * 64 + 1 * j.val = j.val; omega

theorem blk5_4 (c : Dev nD) (t : Fin cfg5.N) (u : Fin 1) (j : Fin 64) :
    iblk5 V c 4 t (ix2 u j) = (V c main_v111 : S1x64.Idx → EReal) (ix2 (0 : Fin 1) j) := by
  obtain ⟨-, -, -, -, -, -, -, -, e0, e1, -⟩ := idx5 t
  show V c main_v111 (((cfg5.win 4).blk t).view.emb (ix2 u j)) = V c main_v111 (ix2 (0 : Fin 1) j)
  refine congrArg _ (funext fun a => Fin.ext ?_)
  match a with
  | ⟨0, _⟩ => show win5_4.index t (0 : Fin 2) * 1 + 1 * u.val = 0; have := u.isLt; omega
  | ⟨1, _⟩ => show win5_4.index t (1 : Fin 2) * 64 + 1 * j.val = j.val; omega

theorem blk5_5 (c : Dev nD) (t : Fin cfg5.N) (j : Fin 64) (o : Fin 2) :
    iblk5 V c 5 t (ix2 j o) = (V c main_v108 : S64x2.Idx → EReal) (ix2 j o) := by
  obtain ⟨-, -, -, -, -, -, -, -, -, -, f0, f1, -⟩ := idx5 t
  show V c main_v108 (((cfg5.win 5).blk t).view.emb (ix2 j o)) = V c main_v108 (ix2 j o)
  refine congrArg _ (funext fun a => Fin.ext ?_)
  match a with
  | ⟨0, _⟩ => show win5_5.index t (0 : Fin 2) * 64 + 1 * j.val = j.val; omega
  | ⟨1, _⟩ => show win5_5.index t (1 : Fin 2) * 2 + 1 * o.val = o.val; omega

theorem blk5_6 (c : Dev nD) (t : Fin cfg5.N) (u : Fin 1) (o : Fin 2) :
    iblk5 V c 6 t (ix2 u o) = (V c main_v112 : S1x2.Idx → EReal) (ix2 (0 : Fin 1) o) := by
  obtain ⟨-, -, -, -, -, -, -, -, -, -, -, -, g0, g1, -⟩ := idx5 t
  show V c main_v112 (((cfg5.win 6).blk t).view.emb (ix2 u o)) = V c main_v112 (ix2 (0 : Fin 1) o)
  refine congrArg _ (funext fun a => Fin.ext ?_)
  match a with
  | ⟨0, _⟩ => show win5_6.index t (0 : Fin 2) * 1 + 1 * u.val = 0; have := u.isLt; omega
  | ⟨1, _⟩ => show win5_6.index t (1 : Fin 2) * 2 + 1 * o.val = o.val; omega

/-- What point t writes back is block t of the read-out. -/
theorem out_flushed5 (c : Dev nD) (t : Fin cfg5.N) :
    (dat5 (F := Ideal) V c).flushed 7 t = ((cfg5.win 7).blk t).view.read (Elt Ideal) (Out5 V c) := by
  show (cfg5.win 7).cut (grid5.coords t) ((dat5 V c).after 7 t) = _
  rw [after5_7]
  unfold out5_7
  rw [View.canon_unit_zero zeroStart5]
  simp only [View.ld_unit_zero (S := S5000x128) zeroStart5, View.ld_unit_zero (S := S1x128) zeroStart5,
    View.ld_unit_zero (S := S128x64) zeroStart5, View.ld_unit_zero (S := S1x64) zeroStart5,
    View.ld_unit_zero (S := S64x2) zeroStart5, View.ld_unit_zero (S := S1x2) zeroStart5]
  obtain ⟨-, -, -, -, -, -, -, -, -, -, -, -, -, -, h0, h1⟩ := idx5 t
  funext j
  obtain ⟨p, o, rfl⟩ : ∃ (p : Fin 5000) (o : Fin 2), j = ix2 p o := ⟨j 0, j 1, eq_ix2 j⟩
  refine (readout_pay _ _ _ _ _ _ _ p o).trans ?_
  simp only [blk5_0, blk5_1, blk5_2, blk5_3, blk5_4, blk5_5, blk5_6]
  show Out5 V c (ix2 (rowOf5 t p) o) = Out5 V c (((cfg5.win 7).blk t).view.emb (ix2 p o))
  refine congrArg _ (funext fun a => Fin.ext ?_)
  match a with
  | ⟨0, _⟩ => show 5000 * t.val + p.val = win5_7.index t (0 : Fin 2) * 5000 + 1 * p.val; omega
  | ⟨1, _⟩ => show o.val = win5_7.index t (1 : Fin 2) * 2 + 1 * o.val; omega

theorem mem_blk5_7 (t : Fin cfg5.N) (i : S100000x2.Idx) :
    i ∈ ((cfg5.win 7).blk t).view.set ↔ ∀ a : Fin 2, win5_7.index t a * S5000x2.size a ≤ (i a).val ∧ (i a).val < win5_7.index t a * S5000x2.size a + S5000x2.size a := by
  show i ∈ ((View.whole main_v113).slice (win5_7.rect t)).set ↔ _
  rw [View.set_slice_whole, Rect.mem_set_unit]
  exact Iff.rfl

theorem cover5_7' (i : S100000x2.Idx) : ∃ t : Fin cfg5.N, (cfg5.win 7).flush t = true ∧ i ∈ ((cfg5.win 7).blk t).view.set := by
  have hi0 : (i 0).val < 100000 := (i 0).isLt
  have hi1 : (i 1).val < 2 := (i 1).isLt
  refine ⟨⟨(i 0).val / 5000, by show _ < 20; omega⟩, flush5_7 _, ?_⟩
  rw [mem_blk5_7]
  obtain ⟨-, -, -, -, -, -, -, -, -, -, -, -, -, -, h0, h1⟩ := idx5 ⟨(i 0).val / 5000, by show _ < 20; omega⟩
  intro a
  match a with
  | ⟨0, _⟩ => show win5_7.index _ (0 : Fin 2) * 5000 ≤ (i 0).val ∧ (i 0).val < win5_7.index _ (0 : Fin 2) * 5000 + 5000; rw [h0]; show (i 0).val / 5000 * 5000 ≤ _ ∧ _ < (i 0).val / 5000 * 5000 + 5000; omega
  | ⟨1, _⟩ => show win5_7.index _ (1 : Fin 2) * 2 ≤ (i 1).val ∧ (i 1).val < win5_7.index _ (1 : Fin 2) * 2 + 2; rw [h1]; omega

/-- The result array after the call. -/
theorem out_final5 (c : Dev nD) : (dat5 (F := Ideal) V c).arrAt 7 cfg5.N = Out5 V c :=
  (dat5 V c).arrAt_eq_of_cover 7 (Out5 V c) (fun t _ => out_flushed5 V c t) cover5_7'

end Cert.Sage.Ker

end
-- ==== Proof.KerHost.lean ====
/-
  The host operations between the kernel calls, read at the buffers the calls take (first part: what needs nothing
  of the reference program).

  Between two calls the program runs a stretch of host operations. From any contents W of the buffers at the start
  of a stretch, the contents of a buffer at its end is the composition of the operations that lead to it, applied to
  W at the buffers the stretch does not write. Here: the arguments of the program pass every stretch; the three
  statistics stretches turn the two 160-row arrays of partial column totals into the scale row and the shift row of
  the uncentred normalisation (column mean = total / row count; scale = gain * rsqrt(mean of squares - mean^2 + eps);
  shift = offset - mean * scale); bias vectors are laid out as one-row arrays; and the buffers a later call or
  stretch still reads are left alone.
-/
import proofs.«104689_j73624329388568_2_alg».proof.Proof.Gen.KernelIdeal.Launch
import proofs.«104689_j73624329388568_2_alg».proof.Proof.Layers
import Idealize.ShloMosaic.Lib.StableHlo.Run
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.TcCoe Idealize.ShloMosaic.StableHlo
  Idealize.SL.Sem Idealize.ShloMosaic.ValueIdx
open scoped BigOperators

variable (W : Valuation τ sig (Elt Ideal))

local notation "at0" b => StableHlo.after (hostOps0 (F := Ideal)) W (Proc.devRef Proc.tc b)
local notation "at1" b => StableHlo.after (hostOps1 (F := Ideal)) W (Proc.devRef Proc.tc b)
local notation "at2" b => StableHlo.after (hostOps2 (F := Ideal)) W (Proc.devRef Proc.tc b)
local notation "at3" b => StableHlo.after (hostOps3 (F := Ideal)) W (Proc.devRef Proc.tc b)
local notation "at4" b => StableHlo.after (hostOps4 (F := Ideal)) W (Proc.devRef Proc.tc b)
local notation "at5" b => StableHlo.after (hostOps5 (F := Ideal)) W (Proc.devRef Proc.tc b)
local notation "Wr" b => W (Proc.devRef Proc.tc b)

/-! ### The statistics stretch as terms

The three stretches that turn a pair of statistics arrays into a scale row and a shift row are the same operations on
different buffers. Their terms, over variables: -/

/-- The program's term for the column mean of a statistics array: the host's sum over the 160 rows started from the
    zero word, divided by the row-count word spread over the 128 columns. -/
abbrev meanT (x : S160x128.Idx → EReal) : S128.Idx → EReal :=
  Host.divf (F := Ideal) (φ := .f32)
    (Host.reduceAdd (F := Ideal) (φ := .f32) x (constant (F := Ideal) S_ .f32 0x00000000#32) reducesTo_S160x128_S128_d0 h_S_)
    (broadcastInDim S128 ![] bcast_S_S128 (constant (F := Ideal) S_ .f32 0x47C35000#32))

/-- The program's term for the scale row. -/
abbrev scaleT (sz ssq : S160x128.Idx → EReal) (g : S128.Idx → EReal) : S128.Idx → EReal :=
  mulf (F := Ideal) (φ := .f32) g
    (Host.rsqrt (F := Ideal) (φ := .f32)
      (addf (F := Ideal) (φ := .f32) (subf (F := Ideal) (φ := .f32) (meanT ssq) (mulf (F := Ideal) (φ := .f32) (meanT sz) (meanT sz)))
        (broadcastInDim S128 ![] bcast_S_S128 (constant (F := Ideal) S_ .f32 0x3727C5AC#32))))

/-- The program's term for the shift row. -/
abbrev shiftT (sz ssq : S160x128.Idx → EReal) (g be : S128.Idx → EReal) : S128.Idx → EReal :=
  subf (F := Ideal) (φ := .f32) be (mulf (F := Ideal) (φ := .f32) (meanT sz) (scaleT sz ssq g))

/-- The host's sum over the 160 rows, started from the zero word, at column q. -/
theorem colsum_apply (x : S160x128.Idx → EReal) (q : Fin 128) :
    Host.reduceAdd (F := Ideal) (φ := .f32) x (constant (F := Ideal) S_ .f32 0x00000000#32) reducesTo_S160x128_S128_d0 h_S_ (ix1 q)
      = 0 + ∑ r : Fin 160, x (ix2 r q) := by
  simp only [Host.reduceAdd, Ideal.hostReduceAdd_def]
  rw [Ideal.hostReduceAdd_single reducesTo_S160x128_S128_d0 (by decide)]
  refine congrArg₂ (· + ·) Ideal.ofBits_zero_f32 (Finset.sum_congr rfl fun k _ => congrArg x ?_)
  exact funext fun a => Fin.ext (by match a with | ⟨0, _⟩ => rfl | ⟨1, _⟩ => rfl)

/-- The column mean term at column q. -/
theorem meanT_apply (x : S160x128.Idx → EReal) (q : Fin 128) : meanT x (ix1 q) = colMeanK x q := by
  show Ideal.div (Host.reduceAdd (F := Ideal) (φ := .f32) x (constant (F := Ideal) S_ .f32 0x00000000#32) reducesTo_S160x128_S128_d0 h_S_ (ix1 q)) _ = _
  rw [colsum_apply]
  rfl

/-- The scale term at column q. -/
theorem scaleT_apply (sz ssq : S160x128.Idx → EReal) (g : S128.Idx → EReal) (q : Fin 128) :
    scaleT sz ssq g (ix1 q) = scaleK sz ssq g q := by
  show g (ix1 q) * Ideal.rsqrt ((meanT ssq (ix1 q) - meanT sz (ix1 q) * meanT sz (ix1 q)) + _) = _
  rw [meanT_apply, meanT_apply]
  rfl

/-- The shift term at column q. -/
theorem shiftT_apply (sz ssq : S160x128.Idx → EReal) (g be : S128.Idx → EReal) (q : Fin 128) :
    shiftT sz ssq g be (ix1 q) = shiftK sz ssq g be q := by
  show be (ix1 q) - meanT sz (ix1 q) * scaleT sz ssq g (ix1 q) = _
  rw [meanT_apply, scaleT_apply]
  rfl

/-! ### The arguments pass every stretch -/

/-- The arguments of the program pass stretch 0: every operation there writes a later buffer. -/
theorem keeps0 (b : Ref sig Kind.tc) (hb : b.idx.val < 21) :
    StableHlo.after (hostOps0 (F := Ideal)) W (Proc.devRef Proc.tc b) = W (Proc.devRef Proc.tc b) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-- The arguments of the program pass stretch 1: every operation there writes a later buffer. -/
theorem keeps1 (b : Ref sig Kind.tc) (hb : b.idx.val < 21) :
    StableHlo.after (hostOps1 (F := Ideal)) W (Proc.devRef Proc.tc b) = W (Proc.devRef Proc.tc b) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-- The arguments of the program pass stretch 2: every operation there writes a later buffer. -/
theorem keeps2 (b : Ref sig Kind.tc) (hb : b.idx.val < 21) :
    StableHlo.after (hostOps2 (F := Ideal)) W (Proc.devRef Proc.tc b) = W (Proc.devRef Proc.tc b) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-- The arguments of the program pass stretch 3: every operation there writes a later buffer. -/
theorem keeps3 (b : Ref sig Kind.tc) (hb : b.idx.val < 21) :
    StableHlo.after (hostOps3 (F := Ideal)) W (Proc.devRef Proc.tc b) = W (Proc.devRef Proc.tc b) :=
  StableHlo.after_of_forall_not_mem _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-- The arguments of the program pass stretch 4: every operation there writes a later buffer. -/
theorem keeps4 (b : Ref sig Kind.tc) (hb : b.idx.val < 21) :
    StableHlo.after (hostOps4 (F := Ideal)) W (Proc.devRef Proc.tc b) = W (Proc.devRef Proc.tc b) :=
  StableHlo.after_of_forall_not_mem _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-- The arguments of the program pass stretch 5: every operation there writes a later buffer. -/
theorem keeps5 (b : Ref sig Kind.tc) (hb : b.idx.val < 21) :
    StableHlo.after (hostOps5 (F := Ideal)) W (Proc.devRef Proc.tc b) = W (Proc.devRef Proc.tc b) :=
  StableHlo.after_of_forall_not_mem _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => by subst h; exact absurd hb (by decide))))

/-! ### Stretch 0 -/

/-- The features narrowed to the shorter float format are the features. -/
theorem h0_v13 : (at0 main_v13) = Wr main_arg0 := by
  after_results_simp; rfl

/-- Stretch 0 lays the 128-vector arg3 out as a one-row array. -/
theorem h0_v27 (q : Fin 128) : ((at0 main_v27) : S1x128.Idx → EReal) (ix2 (0 : Fin 1) q)
    = ((Wr main_arg3) : S128.Idx → EReal) (ix1 q) := by
  after_results_simp
  exact shapeCast_a_1a_apply _ shapeCasts_S128_S1x128 0 q

/-! ### Stretch 1 -/

/-- The scale row stretch 1 hands to the next call. -/
theorem h1_v43 (q : Fin 128) : ((at1 main_v43) : S1x128.Idx → EReal) (ix2 (0 : Fin 1) q)
    = scaleK (Wr main_v28_1) (Wr main_v28_2) (Wr main_arg5) q := by
  after_results_simp
  exact (shapeCast_a_1a_apply (scaleT (Wr main_v28_1) (Wr main_v28_2) (Wr main_arg5)) shapeCasts_S128_S1x128 0 q).trans
    (scaleT_apply _ _ _ q)

/-- The shift row stretch 1 hands to the next call. -/
theorem h1_v44 (q : Fin 128) : ((at1 main_v44) : S1x128.Idx → EReal) (ix2 (0 : Fin 1) q)
    = shiftK (Wr main_v28_1) (Wr main_v28_2) (Wr main_arg5) (Wr main_arg6) q := by
  after_results_simp
  exact (shapeCast_a_1a_apply (shiftT (Wr main_v28_1) (Wr main_v28_2) (Wr main_arg5) (Wr main_arg6)) shapeCasts_S128_S1x128 0 q).trans
    (shiftT_apply _ _ _ _ q)

/-- Stretch 1 leaves the linear output alone. -/
theorem h1_keep_z : (at1 main_v28_0) = Wr main_v28_0 := by
  after_results_simp

/-- Stretch 1 leaves buffer v12 alone. -/
theorem h1_keep_v12 : (at1 main_v12) = Wr main_v12 := by
  after_results_simp

/-- Stretch 1 leaves buffer v1 alone. -/
theorem h1_keep_v1 : (at1 main_v1) = Wr main_v1 := by
  after_results_simp

/-- Stretch 1 leaves buffer v3 alone. -/
theorem h1_keep_v3 : (at1 main_v3) = Wr main_v3 := by
  after_results_simp

/-! ### Stretch 2 -/

/-- Stretch 2 lays the 128-vector arg8 out as a one-row array. -/
theorem h2_v59 (q : Fin 128) : ((at2 main_v59) : S1x128.Idx → EReal) (ix2 (0 : Fin 1) q)
    = ((Wr main_arg8) : S128.Idx → EReal) (ix1 q) := by
  after_results_simp
  exact shapeCast_a_1a_apply _ shapeCasts_S128_S1x128 0 q

/-- Stretch 2 leaves buffer v45 alone. -/
theorem h2_keep_v45 : (at2 main_v45) = Wr main_v45 := by
  after_results_simp

/-- Stretch 2 leaves buffer v12 alone. -/
theorem h2_keep_v12 : (at2 main_v12) = Wr main_v12 := by
  after_results_simp

/-- Stretch 2 leaves buffer v1 alone. -/
theorem h2_keep_v1 : (at2 main_v1) = Wr main_v1 := by
  after_results_simp

/-- Stretch 2 leaves buffer v3 alone. -/
theorem h2_keep_v3 : (at2 main_v3) = Wr main_v3 := by
  after_results_simp

/-! ### Stretch 3 -/

/-- The scale row stretch 3 hands to the next call. -/
theorem h3_v75 (q : Fin 128) : ((at3 main_v75) : S1x128.Idx → EReal) (ix2 (0 : Fin 1) q)
    = scaleK (Wr main_v60_1) (Wr main_v60_2) (Wr main_arg10) q := by
  after_results_simp
  exact (shapeCast_a_1a_apply (scaleT (Wr main_v60_1) (Wr main_v60_2) (Wr main_arg10)) shapeCasts_S128_S1x128 0 q).trans
    (scaleT_apply _ _ _ q)

/-- The shift row stretch 3 hands to the next call. -/
theorem h3_v76 (q : Fin 128) : ((at3 main_v76) : S1x128.Idx → EReal) (ix2 (0 : Fin 1) q)
    = shiftK (Wr main_v60_1) (Wr main_v60_2) (Wr main_arg10) (Wr main_arg11) q := by
  after_results_simp
  exact (shapeCast_a_1a_apply (shiftT (Wr main_v60_1) (Wr main_v60_2) (Wr main_arg10) (Wr main_arg11)) shapeCasts_S128_S1x128 0 q).trans
    (shiftT_apply _ _ _ _ q)

/-- Stretch 3 leaves the linear output alone. -/
theorem h3_keep_z : (at3 main_v60_0) = Wr main_v60_0 := by
  after_results_simp

/-- Stretch 3 leaves buffer v12 alone. -/
theorem h3_keep_v12 : (at3 main_v12) = Wr main_v12 := by
  after_results_simp

/-- Stretch 3 leaves buffer v1 alone. -/
theorem h3_keep_v1 : (at3 main_v1) = Wr main_v1 := by
  after_results_simp

/-- Stretch 3 leaves buffer v3 alone. -/
theorem h3_keep_v3 : (at3 main_v3) = Wr main_v3 := by
  after_results_simp

/-! ### Stretch 4 -/

/-- Stretch 4 lays the 128-vector arg13 out as a one-row array. -/
theorem h4_v91 (q : Fin 128) : ((at4 main_v91) : S1x128.Idx → EReal) (ix2 (0 : Fin 1) q)
    = ((Wr main_arg13) : S128.Idx → EReal) (ix1 q) := by
  after_results_simp
  exact shapeCast_a_1a_apply _ shapeCasts_S128_S1x128 0 q

/-- Stretch 4 leaves buffer v77 alone. -/
theorem h4_keep_v77 : (at4 main_v77) = Wr main_v77 := by
  after_results_simp

/-- Stretch 4 leaves buffer v12 alone. -/
theorem h4_keep_v12 : (at4 main_v12) = Wr main_v12 := by
  after_results_simp

/-! ### Stretch 5 -/

/-- The scale row stretch 5 hands to the next call. -/
theorem h5_v109 (q : Fin 128) : ((at5 main_v109) : S1x128.Idx → EReal) (ix2 (0 : Fin 1) q)
    = scaleK (Wr main_v92_1) (Wr main_v92_2) (Wr main_arg15) q := by
  after_results_simp
  exact (shapeCast_a_1a_apply (scaleT (Wr main_v92_1) (Wr main_v92_2) (Wr main_arg15)) shapeCasts_S128_S1x128 0 q).trans
    (scaleT_apply _ _ _ q)

/-- The shift row stretch 5 hands to the next call. -/
theorem h5_v110 (q : Fin 128) : ((at5 main_v110) : S1x128.Idx → EReal) (ix2 (0 : Fin 1) q)
    = shiftK (Wr main_v92_1) (Wr main_v92_2) (Wr main_arg15) (Wr main_arg16) q := by
  after_results_simp
  exact (shapeCast_a_1a_apply (shiftT (Wr main_v92_1) (Wr main_v92_2) (Wr main_arg15) (Wr main_arg16)) shapeCasts_S128_S1x128 0 q).trans
    (shiftT_apply _ _ _ _ q)

/-- Stretch 5 leaves the linear output alone. -/
theorem h5_keep_z : (at5 main_v92_0) = Wr main_v92_0 := by
  after_results_simp

/-- Stretch 5 lays the 64-vector arg18 out as a one-row array. -/
theorem h5_v111 (j : Fin 64) : ((at5 main_v111) : S1x64.Idx → EReal) (ix2 (0 : Fin 1) j)
    = ((Wr main_arg18) : S64.Idx → EReal) (ix1 j) := by
  after_results_simp
  exact shapeCast_a_1a_apply _ shapeCasts_S64_S1x64 0 j

/-- Stretch 5 lays the 2-vector arg20 out as a one-row array. -/
theorem h5_v112 (o : Fin 2) : ((at5 main_v112) : S1x2.Idx → EReal) (ix2 (0 : Fin 1) o)
    = ((Wr main_arg20) : S2.Idx → EReal) (ix1 o) := by
  after_results_simp
  exact shapeCast_a_1a_apply _ shapeCasts_S2_S1x2 0 o

end Cert.Sage.Ker

end
-- ==== Proof.KerHost2.lean ====
/-
  The host operations between the kernel calls, read at the buffers the calls take (second part: the buffers that
  are values of the reference program's own stage functions).

  The kernel program prepares each linear call's neighbour sums on the host exactly as the reference does: the edge
  list's two rows, the gather of the source rows, the scatter-add onto the destination rows. The two programs print
  these operations with their own copies of the same shape and dimension records, and the kernel program's extra
  changes of float format are the identity on the extended reals, so each such buffer IS the reference's stage
  function of the same inputs. The weight matrices are transposed on the host in both programs. The reciprocal of
  the clipped in-degree is computed once, as 1 divided by the reference's clipped in-degree.
-/
import proofs.«104689_j73624329388568_2_alg».proof.Proof.Gen.KernelIdeal.Launch
import proofs.«104689_j73624329388568_2_alg».proof.Proof.Layers
import proofs.«104689_j73624329388568_2_alg».proof.Proof.RefReadP
import proofs.«104689_j73624329388568_2_alg».proof.Proof.LibRowLayout
import Idealize.ShloMosaic.Lib.StableHlo.Run
import Idealize.ShloMosaic.Lib.ValueLayout
import Idealize.ShloMosaic.Lib.Pipeline.Value
import Idealize.ShloMosaic.PureOps.Ideal.Laws

noncomputable section

namespace Cert.Sage.Ker

open Cert.KernelIdeal Cert.KernelIdeal.Gen Idealize.ShloMosaic Idealize.ShloMosaic.TcCoe Idealize.ShloMosaic.StableHlo
  Idealize.SL.Sem Idealize.ShloMosaic.ValueIdx
open scoped BigOperators

variable (W : Valuation τ sig (Elt Ideal))

local notation "at0" b => StableHlo.after (hostOps0 (F := Ideal)) W (Proc.devRef Proc.tc b)
local notation "at1" b => StableHlo.after (hostOps1 (F := Ideal)) W (Proc.devRef Proc.tc b)
local notation "at2" b => StableHlo.after (hostOps2 (F := Ideal)) W (Proc.devRef Proc.tc b)
local notation "at3" b => StableHlo.after (hostOps3 (F := Ideal)) W (Proc.devRef Proc.tc b)
local notation "at4" b => StableHlo.after (hostOps4 (F := Ideal)) W (Proc.devRef Proc.tc b)
local notation "at5" b => StableHlo.after (hostOps5 (F := Ideal)) W (Proc.devRef Proc.tc b)
local notation "Wr" b => W (Proc.devRef Proc.tc b)

/-- The word 0x3F800000 denotes 1. -/
theorem one_word : Ideal.ofBits .f32 0x3F800000#32 = 1 := by
  simp [Ideal.ofBits, Ideal.ieee, -EReal.coe_mul]; norm_num

/-- The host's quotient of two arrays of extended reals, at an index. -/
theorem hostDivf_apply {s : Shape} (a b : FVec Ideal s .f32) (i : s.Idx) :
    Host.divf (F := Ideal) a b i = Ideal.div (a i) (b i) := rfl

/-! ### Stretch 0 -/

/-- The edge list's first row (sources). -/
theorem h0_v1 : (at0 main_v1) = Cert.ReferenceIdeal.Read.val_main_v1 (F := Ideal) (Wr main_arg1) := by
  after_results_simp; rfl

/-- The edge list's second row (destinations). -/
theorem h0_v3 : (at0 main_v3) = Cert.ReferenceIdeal.Read.val_main_v3 (F := Ideal) (Wr main_arg1) := by
  after_results_simp; rfl

/-- The first layer's neighbour sums: the features gathered at the sources and added up at the destinations. -/
theorem h0_v24 : (at0 main_v24) = Cert.ReferenceIdeal.Read.val_main_v13 (F := Ideal) (Wr main_arg0) (Wr main_arg1) := by
  after_results_simp; rfl

/-- The reciprocal degree column as an array: the column layout of 1 divided by the clipped in-degrees. -/
theorem h0_v12_fn : (at0 main_v12)
    = shapeCast S100000x1 (Host.divf (F := Ideal) (φ := .f32)
        (broadcastInDim S100000 ![] bcast_S_S100000 (constant (F := Ideal) S_ .f32 0x3F800000#32))
        (Cert.ReferenceIdeal.Read.val_main_v19 (F := Ideal) (Wr main_arg1))) shapeCasts_S100000_S100000x1 := by
  after_results_simp; rfl

/-- The splat of the one word over the nodes is 1 at every node. -/
theorem one_col_apply (p : Fin 100000) :
    broadcastInDim S100000 ![] bcast_S_S100000 (constant (F := Ideal) S_ .f32 0x3F800000#32) (ix1 p) = (1 : EReal) :=
  (broadcastInDim_apply _ bcast_S_S100000 _ (ix1 p) ix0 (fun a => a.elim0)).trans one_word

/-- The column layout of 1 divided by an array over the nodes, at row p. -/
theorem dinv_col_apply (d : S100000.Idx → EReal) (p : Fin 100000) :
    shapeCast S100000x1 (Host.divf (F := Ideal) (φ := .f32)
        (broadcastInDim S100000 ![] bcast_S_S100000 (constant (F := Ideal) S_ .f32 0x3F800000#32)) d)
        shapeCasts_S100000_S100000x1 (ix2 p (0 : Fin 1))
      = Ideal.div 1 (d (ix1 p)) := by
  refine (Cert.LibRowLayout.shapeCast_a_a1_apply _ shapeCasts_S100000_S100000x1 p 0).trans ?_
  rw [hostDivf_apply, one_col_apply]

/-- The reciprocal degree column: at row p, 1 divided by the clipped in-degree of node p. -/
theorem h0_v12 (p : Fin 100000) : ((at0 main_v12) : S100000x1.Idx → EReal) (ix2 p (0 : Fin 1))
    = Ideal.div 1 (Cert.ReferenceIdeal.Read.val_main_v19 (F := Ideal) (Wr main_arg1) (ix1 p)) := by
  rw [h0_v12_fn]
  exact dinv_col_apply _ p

/-- The first layer's neighbour weights, transposed. -/
theorem h0_v25 : (at0 main_v25) = Cert.ReferenceIdeal.Read.val_main_v23 (F := Ideal) (Wr main_arg2) := by
  after_results_simp; rfl

/-- The first layer's self weights, transposed. -/
theorem h0_v26 : (at0 main_v26) = Cert.ReferenceIdeal.Read.val_main_v28 (F := Ideal) (Wr main_arg4) := by
  after_results_simp; rfl

/-! ### Stretch 2 -/

/-- The second layer's neighbour sums, from the first layer's output and the edge rows kept from stretch 0. -/
theorem h2_v56 (ei : (⟨S2x800000, .i32⟩ : BufTy).Contents (Elt Ideal))
    (h1 : (Wr main_v1) = Cert.ReferenceIdeal.Read.val_main_v1 (F := Ideal) ei) (h3 : (Wr main_v3) = Cert.ReferenceIdeal.Read.val_main_v3 (F := Ideal) ei) :
    (at2 main_v56) = Cert.ReferenceIdeal.Read.val_main_v13 (F := Ideal) (Wr main_v45) ei := by
  after_results_simp
  rw [h1, h3]
  rfl

/-- The second layer's neighbour weights, transposed. -/
theorem h2_v57 : (at2 main_v57) = Cert.ReferenceIdeal.Read.val_main_v23 (F := Ideal) (Wr main_arg7) := by
  after_results_simp; rfl

/-- The second layer's self weights, transposed. -/
theorem h2_v58 : (at2 main_v58) = Cert.ReferenceIdeal.Read.val_main_v28 (F := Ideal) (Wr main_arg9) := by
  after_results_simp; rfl

/-! ### Stretch 4 -/

/-- The third layer's neighbour sums, from the second layer's output and the edge rows kept from stretch 0. -/
theorem h4_v88 (ei : (⟨S2x800000, .i32⟩ : BufTy).Contents (Elt Ideal))
    (h1 : (Wr main_v1) = Cert.ReferenceIdeal.Read.val_main_v1 (F := Ideal) ei) (h3 : (Wr main_v3) = Cert.ReferenceIdeal.Read.val_main_v3 (F := Ideal) ei) :
    (at4 main_v88) = Cert.ReferenceIdeal.Read.val_main_v13 (F := Ideal) (Wr main_v77) ei := by
  after_results_simp
  rw [h1, h3]
  rfl

/-- The third layer's neighbour weights, transposed. -/
theorem h4_v89 : (at4 main_v89) = Cert.ReferenceIdeal.Read.val_main_v23 (F := Ideal) (Wr main_arg12) := by
  after_results_simp; rfl

/-- The third layer's self weights, transposed. -/
theorem h4_v90 : (at4 main_v90) = Cert.ReferenceIdeal.Read.val_main_v28 (F := Ideal) (Wr main_arg14) := by
  after_results_simp; rfl

/-! ### Stretch 5 -/

/-- The read-out's first dense weights, transposed. -/
theorem h5_v107 : (at5 main_v107) = Cert.ReferenceIdeal.Read.val_main_v163 (F := Ideal) (Wr main_arg17) := by
  after_results_simp; rfl

/-- The read-out's second dense weights, transposed. -/
theorem h5_v108 : (at5 main_v108) = Cert.ReferenceIdeal.Read.val_main_v169 (F := Ideal) (Wr main_arg19) := by
  after_results_simp; rfl

end Cert.Sage.Ker

end
-- ==== Proof.KerChain.lean ====
/-
  The kernel's buffer contents, walked from the launch to the result.

  Between the twelve segments the contents of every buffer are known: a host stretch computes its buffers from the
  ones before it and leaves the others alone, a tiled call rewrites its output arrays and leaves the others alone.
  Walking these boundaries: the first linear call leaves the layer's linear map z1 of the input features; the host
  turns its two statistics outputs into the scale and shift of z1; the normalising call leaves h1, the uncentred batch
  normalisation of z1 clipped at 0; and so on through the three layers, the last normalisation being fused with the
  read-out. Neighbour sums, clipped degrees and transposed weights are named by the reference's own stage functions,
  which are the same operations.
-/
import proofs.«104689_j73624329388568_2_alg».proof.Proof.Gen.KernelIdeal.Frame
import proofs.«104689_j73624329388568_2_alg».proof.Proof.KerRegion0
import proofs.«104689_j73624329388568_2_alg».proof.Proof.KerRegion1
import proofs.«104689_j73624329388568_2_alg».proof.Proof.KerRegion2
import proofs.«104689_j73624329388568_2_alg».proof.Proof.KerRegion3
import proofs.«104689_j73624329388568_2_alg».proof.Proof.KerRegion4
import proofs.«104689_j73624329388568_2_alg».proof.Proof.KerRegion5
import proofs.«104689_j73624329388568_2_alg».proof.Proof.KerHost
import proofs.«104689_j73624329388568_2_alg».proof.Proof.KerHost2
import proofs.«104689_j73624329388568_2_alg».proof.Proof.RefReadP
import proofs.«104689_j73624329388568_2_alg».proof.Proof.Layers

set_option maxRecDepth 16384

noncomputable section

namespace Cert.Sage.Ker

open Cert.KernelIdeal Cert.KernelIdeal.Gen Cert.Sage Idealize.ShloMosaic Idealize.ShloMosaic.ValueIdx Idealize.ShloMosaic.TcCoe
open Idealize.SL Idealize.SL.Sem
open Cert.ReferenceIdeal.Read (val_main_v1 val_main_v3 val_main_v13 val_main_v19 val_main_v23 val_main_v28 val_main_v163 val_main_v169)

/-- A layer's linear map, the neighbour sums, clipped degrees and transposed weights named by the reference's stages. -/
def KZ (h : S100000x128.Idx → EReal) (ei : S2x800000.Idx → BitVec 32) (Wn : S128x128.Idx → EReal) (bn : S128.Idx → EReal)
    (Wr : S128x128.Idx → EReal) : S100000x128.Idx → EReal :=
  arr2 (lin (cur2 h) (cur2 (val_main_v13 (F := Ideal) h ei)) (fun p => Ideal.div 1 (val_main_v19 (F := Ideal) ei (ix1 p)))
    (cur2 (val_main_v23 (F := Ideal) Wn)) (cur2 (val_main_v28 (F := Ideal) Wr)) (cur1 bn))

/-- The uncentred batch normalisation of z, clipped at 0. -/
def KH (z : S100000x128.Idx → EReal) (g be : S128.Idx → EReal) : S100000x128.Idx → EReal :=
  arr2 (affineRelu (cur2 z) (cur1 g) (cur1 be) nWord epsWord)

/-- The read-out of the uncentred batch normalisation of z clipped at 0. -/
def KOut (z : S100000x128.Idx → EReal) (g be : S128.Idx → EReal) (Wh1 : S64x128.Idx → EReal) (bh1 : S64.Idx → EReal)
    (Wh2 : S2x64.Idx → EReal) (bh2 : S2.Idx → EReal) : S100000x2.Idx → EReal :=
  arr2 (readout (affineRelu (cur2 z) (cur1 g) (cur1 be) nWord epsWord) (cur2 (val_main_v163 (F := Ideal) Wh1)) (cur1 bh1)
    (cur2 (val_main_v169 (F := Ideal) Wh2)) (cur1 bh2))

variable (m : (ℓ : Loc nD τ sig) → Buf (Elt Ideal) ℓ) (ρ : Dev nD → PrngReg) (c : Dev nD)

/-! ## The argument arrays at every boundary -/

theorem notArg0 : ∀ w : Fin cfg0.W, ¬ ((Pipeline.arrRef spec0 w).idx.val < 21) := by decide
theorem notArg1 : ∀ w : Fin cfg1.W, ¬ ((Pipeline.arrRef spec1 w).idx.val < 21) := by decide
theorem notArg2 : ∀ w : Fin cfg2.W, ¬ ((Pipeline.arrRef spec2 w).idx.val < 21) := by decide
theorem notArg3 : ∀ w : Fin cfg3.W, ¬ ((Pipeline.arrRef spec3 w).idx.val < 21) := by decide
theorem notArg4 : ∀ w : Fin cfg4.W, ¬ ((Pipeline.arrRef spec4 w).idx.val < 21) := by decide

theorem W1_arg (b : Ref sig .tc) (hb : b.idx.val < 21) : W1 (F := Ideal) m ρ c (Proc.devRef .tc b) = m ((c : Thread nD τ).loc b) :=
  keeps0 (W0 m ρ c) b hb
theorem W2_arg (b : Ref sig .tc) (hb : b.idx.val < 21) : W2 (F := Ideal) m ρ c (Proc.devRef .tc b) = m ((c : Thread nD τ).loc b) :=
  (W2_of_ne m ρ c b (fun w h => notArg0 w (h ▸ hb))).trans (W1_arg m ρ c b hb)
theorem W3_arg (b : Ref sig .tc) (hb : b.idx.val < 21) : W3 (F := Ideal) m ρ c (Proc.devRef .tc b) = m ((c : Thread nD τ).loc b) :=
  (keeps1 (W2 m ρ c) b hb).trans (W2_arg m ρ c b hb)
theorem W4_arg (b : Ref sig .tc) (hb : b.idx.val < 21) : W4 (F := Ideal) m ρ c (Proc.devRef .tc b) = m ((c : Thread nD τ).loc b) :=
  (W4_of_ne m ρ c b (fun w h => notArg1 w (h ▸ hb))).trans (W3_arg m ρ c b hb)
theorem W5_arg (b : Ref sig .tc) (hb : b.idx.val < 21) : W5 (F := Ideal) m ρ c (Proc.devRef .tc b) = m ((c : Thread nD τ).loc b) :=
  (keeps2 (W4 m ρ c) b hb).trans (W4_arg m ρ c b hb)
theorem W6_arg (b : Ref sig .tc) (hb : b.idx.val < 21) : W6 (F := Ideal) m ρ c (Proc.devRef .tc b) = m ((c : Thread nD τ).loc b) :=
  (W6_of_ne m ρ c b (fun w h => notArg2 w (h ▸ hb))).trans (W5_arg m ρ c b hb)
theorem W7_arg (b : Ref sig .tc) (hb : b.idx.val < 21) : W7 (F := Ideal) m ρ c (Proc.devRef .tc b) = m ((c : Thread nD τ).loc b) :=
  (keeps3 (W6 m ρ c) b hb).trans (W6_arg m ρ c b hb)
theorem W8_arg (b : Ref sig .tc) (hb : b.idx.val < 21) : W8 (F := Ideal) m ρ c (Proc.devRef .tc b) = m ((c : Thread nD τ).loc b) :=
  (W8_of_ne m ρ c b (fun w h => notArg3 w (h ▸ hb))).trans (W7_arg m ρ c b hb)
theorem W9_arg (b : Ref sig .tc) (hb : b.idx.val < 21) : W9 (F := Ideal) m ρ c (Proc.devRef .tc b) = m ((c : Thread nD τ).loc b) :=
  (keeps4 (W8 m ρ c) b hb).trans (W8_arg m ρ c b hb)
theorem W10_arg (b : Ref sig .tc) (hb : b.idx.val < 21) : W10 (F := Ideal) m ρ c (Proc.devRef .tc b) = m ((c : Thread nD τ).loc b) :=
  (W10_of_ne m ρ c b (fun w h => notArg4 w (h ▸ hb))).trans (W9_arg m ρ c b hb)

/-! ## The edge index vectors and the reciprocal degrees, kept through the boundaries -/

theorem W1_src : W1 (F := Ideal) m ρ c (Proc.devRef .tc main_v1) = val_main_v1 (F := Ideal) (m ((c : Thread nD τ).loc main_arg1)) := h0_v1 (W0 m ρ c)
theorem W1_dst : W1 (F := Ideal) m ρ c (Proc.devRef .tc main_v3) = val_main_v3 (F := Ideal) (m ((c : Thread nD τ).loc main_arg1)) := h0_v3 (W0 m ρ c)

theorem W4_src : W4 (F := Ideal) m ρ c (Proc.devRef .tc main_v1) = val_main_v1 (F := Ideal) (m ((c : Thread nD τ).loc main_arg1)) :=
  (W4_of_ne m ρ c main_v1 (by decide)).trans ((h1_keep_v1 (W2 m ρ c)).trans ((W2_of_ne m ρ c main_v1 (by decide)).trans (W1_src m ρ c)))
theorem W4_dst : W4 (F := Ideal) m ρ c (Proc.devRef .tc main_v3) = val_main_v3 (F := Ideal) (m ((c : Thread nD τ).loc main_arg1)) :=
  (W4_of_ne m ρ c main_v3 (by decide)).trans ((h1_keep_v3 (W2 m ρ c)).trans ((W2_of_ne m ρ c main_v3 (by decide)).trans (W1_dst m ρ c)))
theorem W8_src : W8 (F := Ideal) m ρ c (Proc.devRef .tc main_v1) = val_main_v1 (F := Ideal) (m ((c : Thread nD τ).loc main_arg1)) :=
  (W8_of_ne m ρ c main_v1 (by decide)).trans ((h3_keep_v1 (W6 m ρ c)).trans ((W6_of_ne m ρ c main_v1 (by decide)).trans
    ((h2_keep_v1 (W4 m ρ c)).trans (W4_src m ρ c))))
theorem W8_dst : W8 (F := Ideal) m ρ c (Proc.devRef .tc main_v3) = val_main_v3 (F := Ideal) (m ((c : Thread nD τ).loc main_arg1)) :=
  (W8_of_ne m ρ c main_v3 (by decide)).trans ((h3_keep_v3 (W6 m ρ c)).trans ((W6_of_ne m ρ c main_v3 (by decide)).trans
    ((h2_keep_v3 (W4 m ρ c)).trans (W4_dst m ρ c))))

/-- The reciprocal-degree column is an input of the first linear call: no point writes it back. -/
theorem W2_dinv_eq : W2 (F := Ideal) m ρ c (Proc.devRef .tc main_v12) = W1 (F := Ideal) m ρ c (Proc.devRef .tc main_v12) :=
  (W2_arr m ρ c 2).trans (((dat0 (V1 m ρ) c).arrAt_in 2 rfl cfg0.N).trans (A_eq0 (V1 m ρ) c 2))
theorem W5_dinv_eq : W5 (F := Ideal) m ρ c (Proc.devRef .tc main_v12) = W1 (F := Ideal) m ρ c (Proc.devRef .tc main_v12) :=
  (h2_keep_v12 (W4 m ρ c)).trans ((W4_of_ne m ρ c main_v12 (by decide)).trans ((h1_keep_v12 (W2 m ρ c)).trans (W2_dinv_eq m ρ c)))
/-- Likewise for the second linear call. -/
theorem W6_dinv_eq : W6 (F := Ideal) m ρ c (Proc.devRef .tc main_v12) = W5 (F := Ideal) m ρ c (Proc.devRef .tc main_v12) :=
  (W6_arr m ρ c 2).trans (((dat2 (V5 m ρ) c).arrAt_in 2 rfl cfg2.N).trans (A_eq2 (V5 m ρ) c 2))
theorem W9_dinv_eq : W9 (F := Ideal) m ρ c (Proc.devRef .tc main_v12) = W1 (F := Ideal) m ρ c (Proc.devRef .tc main_v12) :=
  (h4_keep_v12 (W8 m ρ c)).trans ((W8_of_ne m ρ c main_v12 (by decide)).trans ((h3_keep_v12 (W6 m ρ c)).trans
    ((W6_dinv_eq m ρ c).trans (W5_dinv_eq m ρ c))))

/-! ## Layer 1 -/

theorem entry1 : Z0 (V1 (F := Ideal) m ρ) c = KZ (m ((c : Thread nD τ).loc main_arg0)) (m ((c : Thread nD τ).loc main_arg1)) (m ((c : Thread nD τ).loc main_arg2)) (m ((c : Thread nD τ).loc main_arg3)) (m ((c : Thread nD τ).loc main_arg4)) :=
  Z0_of_entry (V1 m ρ) c (m ((c : Thread nD τ).loc main_arg0)) (val_main_v13 (F := Ideal) (m ((c : Thread nD τ).loc main_arg0)) (m ((c : Thread nD τ).loc main_arg1)))
    (fun p => Ideal.div 1 (val_main_v19 (F := Ideal) (m ((c : Thread nD τ).loc main_arg1)) (ix1 p))) (val_main_v23 (F := Ideal) (m ((c : Thread nD τ).loc main_arg2)))
    (val_main_v28 (F := Ideal) (m ((c : Thread nD τ).loc main_arg4))) (m ((c : Thread nD τ).loc main_arg3))
    (h0_v13 (W0 m ρ c)) (h0_v24 (W0 m ρ c)) (fun p => h0_v12 (W0 m ρ c) p)
    (h0_v25 (W0 m ρ c)) (h0_v26 (W0 m ρ c)) (fun q => h0_v27 (W0 m ρ c) q)

theorem z1 : W2 (F := Ideal) m ρ c (Proc.devRef .tc main_v28_0) = KZ (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((z_final0 (V1 m ρ) c).trans (entry1 m ρ c))
theorem s1a : W2 (F := Ideal) m ρ c (Proc.devRef .tc main_v28_1) = SumZ0 (V1 (F := Ideal) m ρ) c :=
  (W2_arr m ρ c 7).trans (sumz_final0 (V1 m ρ) c)
theorem s1b : W2 (F := Ideal) m ρ c (Proc.devRef .tc main_v28_2) = SumSq0 (V1 (F := Ideal) m ρ) c :=
  (W2_arr m ρ c 8).trans (sumsq_final0 (V1 m ρ) c)

theorem sc1 (q : Fin 128) : (V3 (F := Ideal) m ρ c main_v43 : S1x128.Idx → EReal) (ix2 (0 : Fin 1) q)
    = scaleOf (cur2 (KZ (m ((c : Thread nD τ).loc main_arg0)) (m ((c : Thread nD τ).loc main_arg1)) (m ((c : Thread nD τ).loc main_arg2)) (m ((c : Thread nD τ).loc main_arg3)) (m ((c : Thread nD τ).loc main_arg4)))) (cur1 (m ((c : Thread nD τ).loc main_arg5))) nWord epsWord q := by
  refine (h1_v43 (W2 m ρ c) q).trans ?_
  rw [s1a m ρ c, s1b m ρ c, W2_arg m ρ c main_arg5 (by decide), scaleK_stats0, entry1]
theorem sh1 (q : Fin 128) : (V3 (F := Ideal) m ρ c main_v44 : S1x128.Idx → EReal) (ix2 (0 : Fin 1) q)
    = shiftOf (cur2 (KZ (m ((c : Thread nD τ).loc main_arg0)) (m ((c : Thread nD τ).loc main_arg1)) (m ((c : Thread nD τ).loc main_arg2)) (m ((c : Thread nD τ).loc main_arg3)) (m ((c : Thread nD τ).loc main_arg4)))) (cur1 (m ((c : Thread nD τ).loc main_arg5))) (cur1 (m ((c : Thread nD τ).loc main_arg6))) nWord epsWord q := by
  refine (h1_v44 (W2 m ρ c) q).trans ?_
  rw [s1a m ρ c, s1b m ρ c, W2_arg m ρ c main_arg5 (by decide), W2_arg m ρ c main_arg6 (by decide), shiftK_stats0, entry1]

theorem h1 : W4 (F := Ideal) m ρ c (Proc.devRef .tc main_v45) = KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (W4_arr m ρ c 3).trans ((h_final1 (V3 m ρ) c).trans ?_)
  have ez : (V3 (F := Ideal) m ρ c main_v28_0 : S100000x128.Idx → EReal) = KZ (m ((c : Thread nD τ).loc main_arg0)) (m ((c : Thread nD τ).loc main_arg1)) (m ((c : Thread nD τ).loc main_arg2)) (m ((c : Thread nD τ).loc main_arg3)) (m ((c : Thread nD τ).loc main_arg4)) := (h1_keep_z (W2 m ρ c)).trans (z1 m ρ c)
  show normClip (V3 m ρ c main_v28_0) (V3 m ρ c main_v43) (V3 m ρ c main_v44) = _
  rw [ez]
  exact normClip_eq _ _ _ _ _ _ _ (sc1 m ρ c) (sh1 m ρ c)

/-! ## Layer 2 -/

theorem entry2 : Z2 (V5 (F := Ideal) m ρ) c = KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) := by
  have eh : (V5 (F := Ideal) m ρ c main_v45 : S100000x128.Idx → EReal) = KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := (h2_keep_v45 (W4 m ρ c)).trans (h1 m ρ c)
  refine Z2_of_entry (V5 m ρ) c (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (val_main_v13 (F := Ideal) (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)))
    (fun p => Ideal.div 1 (val_main_v19 (F := Ideal) (m ((c : Thread nD τ).loc main_arg1)) (ix1 p))) (val_main_v23 (F := Ideal) (m ((c : Thread nD τ).loc main_arg7)))
    (val_main_v28 (F := Ideal) (m ((c : Thread nD τ).loc main_arg9))) (m ((c : Thread nD τ).loc main_arg8)) eh ?_ ?_ ?_ ?_ ?_
  · refine (h2_v56 (W4 m ρ c) (m ((c : Thread nD τ).loc main_arg1)) (W4_src m ρ c) (W4_dst m ρ c)).trans ?_
    rw [h1 m ρ c]
  · intro p
    show (W5 (F := Ideal) m ρ c (Proc.devRef .tc main_v12) : S100000x1.Idx → EReal) (ix2 p (0 : Fin 1)) = _
    rw [W5_dinv_eq m ρ c]
    exact h0_v12 (W0 m ρ c) p
  · refine (h2_v57 (W4 m ρ c)).trans ?_
    rw [W4_arg m ρ c main_arg7 (by decide)]
  · refine (h2_v58 (W4 m ρ c)).trans ?_
    rw [W4_arg m ρ c main_arg9 (by decide)]
  · intro q
    refine (h2_v59 (W4 m ρ c) q).trans ?_
    rw [W4_arg m ρ c main_arg8 (by decide)]

theorem z2 : W6 (F := Ideal) m ρ c (Proc.devRef .tc main_v60_0) = KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) :=
  (W6_arr m ρ c 6).trans ((z_final2 (V5 m ρ) c).trans (entry2 m ρ c))
theorem s2a : W6 (F := Ideal) m ρ c (Proc.devRef .tc main_v60_1) = SumZ2 (V5 (F := Ideal) m ρ) c :=
  (W6_arr m ρ c 7).trans (sumz_final2 (V5 m ρ) c)
theorem s2b : W6 (F := Ideal) m ρ c (Proc.devRef .tc main_v60_2) = SumSq2 (V5 (F := Ideal) m ρ) c :=
  (W6_arr m ρ c 8).trans (sumsq_final2 (V5 m ρ) c)

theorem sc2 (q : Fin 128) : (V7 (F := Ideal) m ρ c main_v75 : S1x128.Idx → EReal) (ix2 (0 : Fin 1) q)
    = scaleOf (cur2 (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)))) (cur1 (m ((c : Thread nD τ).loc main_arg10))) nWord epsWord q := by
  refine (h3_v75 (W6 m ρ c) q).trans ?_
  rw [s2a m ρ c, s2b m ρ c, W6_arg m ρ c main_arg10 (by decide), scaleK_stats2, entry2]
theorem sh2 (q : Fin 128) : (V7 (F := Ideal) m ρ c main_v76 : S1x128.Idx → EReal) (ix2 (0 : Fin 1) q)
    = shiftOf (cur2 (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)))) (cur1 (m ((c : Thread nD τ).loc main_arg10))) (cur1 (m ((c : Thread nD τ).loc main_arg11))) nWord epsWord q := by
  refine (h3_v76 (W6 m ρ c) q).trans ?_
  rw [s2a m ρ c, s2b m ρ c, W6_arg m ρ c main_arg10 (by decide), W6_arg m ρ c main_arg11 (by decide), shiftK_stats2, entry2]

theorem h2 : W8 (F := Ideal) m ρ c (Proc.devRef .tc main_v77) = KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11)) := by
  refine (W8_arr m ρ c 3).trans ((h_final3 (V7 m ρ) c).trans ?_)
  have ez : (V7 (F := Ideal) m ρ c main_v60_0 : S100000x128.Idx → EReal) = KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) := (h3_keep_z (W6 m ρ c)).trans (z2 m ρ c)
  show normClip (V7 m ρ c main_v60_0) (V7 m ρ c main_v75) (V7 m ρ c main_v76) = _
  rw [ez]
  exact normClip_eq _ _ _ _ _ _ _ (sc2 m ρ c) (sh2 m ρ c)

/-! ## Layer 3 and the read-out -/

theorem entry3 : Z4 (V9 (F := Ideal) m ρ) c = KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)) := by
  have eh : (V9 (F := Ideal) m ρ c main_v77 : S100000x128.Idx → EReal) = KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11)) := (h4_keep_v77 (W8 m ρ c)).trans (h2 m ρ c)
  refine Z4_of_entry (V9 m ρ) c (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (val_main_v13 (F := Ideal) (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)))
    (fun p => Ideal.div 1 (val_main_v19 (F := Ideal) (m ((c : Thread nD τ).loc main_arg1)) (ix1 p))) (val_main_v23 (F := Ideal) (m ((c : Thread nD τ).loc main_arg12)))
    (val_main_v28 (F := Ideal) (m ((c : Thread nD τ).loc main_arg14))) (m ((c : Thread nD τ).loc main_arg13)) eh ?_ ?_ ?_ ?_ ?_
  · refine (h4_v88 (W8 m ρ c) (m ((c : Thread nD τ).loc main_arg1)) (W8_src m ρ c) (W8_dst m ρ c)).trans ?_
    rw [h2 m ρ c]
  · intro p
    show (W9 (F := Ideal) m ρ c (Proc.devRef .tc main_v12) : S100000x1.Idx → EReal) (ix2 p (0 : Fin 1)) = _
    rw [W9_dinv_eq m ρ c]
    exact h0_v12 (W0 m ρ c) p
  · refine (h4_v89 (W8 m ρ c)).trans ?_
    rw [W8_arg m ρ c main_arg12 (by decide)]
  · refine (h4_v90 (W8 m ρ c)).trans ?_
    rw [W8_arg m ρ c main_arg14 (by decide)]
  · intro q
    refine (h4_v91 (W8 m ρ c) q).trans ?_
    rw [W8_arg m ρ c main_arg13 (by decide)]

theorem z3 : W10 (F := Ideal) m ρ c (Proc.devRef .tc main_v92_0) = KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)) :=
  (W10_arr m ρ c 6).trans ((z_final4 (V9 m ρ) c).trans (entry3 m ρ c))
theorem s3a : W10 (F := Ideal) m ρ c (Proc.devRef .tc main_v92_1) = SumZ4 (V9 (F := Ideal) m ρ) c :=
  (W10_arr m ρ c 7).trans (sumz_final4 (V9 m ρ) c)
theorem s3b : W10 (F := Ideal) m ρ c (Proc.devRef .tc main_v92_2) = SumSq4 (V9 (F := Ideal) m ρ) c :=
  (W10_arr m ρ c 8).trans (sumsq_final4 (V9 m ρ) c)

theorem sc3 (q : Fin 128) : (V11 (F := Ideal) m ρ c main_v109 : S1x128.Idx → EReal) (ix2 (0 : Fin 1) q)
    = scaleOf (cur2 (KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)))) (cur1 (m ((c : Thread nD τ).loc main_arg15))) nWord epsWord q := by
  refine (h5_v109 (W10 m ρ c) q).trans ?_
  rw [s3a m ρ c, s3b m ρ c, W10_arg m ρ c main_arg15 (by decide), scaleK_stats4, entry3]
theorem sh3 (q : Fin 128) : (V11 (F := Ideal) m ρ c main_v110 : S1x128.Idx → EReal) (ix2 (0 : Fin 1) q)
    = shiftOf (cur2 (KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)))) (cur1 (m ((c : Thread nD τ).loc main_arg15))) (cur1 (m ((c : Thread nD τ).loc main_arg16))) nWord epsWord q := by
  refine (h5_v110 (W10 m ρ c) q).trans ?_
  rw [s3a m ρ c, s3b m ρ c, W10_arg m ρ c main_arg15 (by decide), W10_arg m ρ c main_arg16 (by decide), shiftK_stats4, entry3]

/-- The result buffer at the last boundary is the read-out of the third layer. -/
theorem result_eq : W12 (F := Ideal) m ρ c (Proc.devRef .tc main_v113)
    = KOut (KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14))) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W12_arr m ρ c 7).trans ((out_final5 (V11 m ρ) c).trans ?_)
  have ez : (V11 (F := Ideal) m ρ c main_v92_0 : S100000x128.Idx → EReal) = KZ (KH (KZ (KH (KZ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)) := (h5_keep_z (W10 m ρ c)).trans (z3 m ρ c)
  have e1 : (V11 (F := Ideal) m ρ c main_v107 : S128x64.Idx → EReal) = val_main_v163 (F := Ideal) (m ((c : Thread nD τ).loc main_arg17)) := by
    refine (h5_v107 (W10 m ρ c)).trans ?_
    rw [W10_arg m ρ c main_arg17 (by decide)]
  have e2 : (V11 (F := Ideal) m ρ c main_v108 : S64x2.Idx → EReal) = val_main_v169 (F := Ideal) (m ((c : Thread nD τ).loc main_arg19)) := by
    refine (h5_v108 (W10 m ρ c)).trans ?_
    rw [W10_arg m ρ c main_arg19 (by decide)]
  have hb1 : ∀ j : Fin 64, (V11 (F := Ideal) m ρ c main_v111 : S1x64.Idx → EReal) (ix2 (0 : Fin 1) j) = cur1 (m ((c : Thread nD τ).loc main_arg18)) j := fun j => by
    refine (h5_v111 (W10 m ρ c) j).trans ?_
    rw [W10_arg m ρ c main_arg18 (by decide)]
  have hb2 : ∀ o : Fin 2, (V11 (F := Ideal) m ρ c main_v112 : S1x2.Idx → EReal) (ix2 (0 : Fin 1) o) = cur1 (m ((c : Thread nD τ).loc main_arg20)) o := fun o => by
    refine (h5_v112 (W10 m ρ c) o).trans ?_
    rw [W10_arg m ρ c main_arg20 (by decide)]
  show readClip (V11 m ρ c main_v92_0) (V11 m ρ c main_v109) (V11 m ρ c main_v110) (V11 m ρ c main_v107) (V11 m ρ c main_v111)
    (V11 m ρ c main_v108) (V11 m ρ c main_v112) = _
  rw [ez, e1, e2]
  exact readClip_eq _ _ _ _ _ _ _ _ _ _ _ _ _ (sc3 m ρ c) (sh3 m ρ c) hb1 hb2

end Cert.Sage.Ker

end
-- ==== Proof.RefRead.lean ====
/-
  The reference program read as the specification's functions, index by index.

  Each stage of the reference is a function of its arguments; read at an index it is an arithmetic expression in the
  stages below it. Chaining these readings, a layer's output is the centred batch normalisation followed by the maximum
  with 0 (`normRelu`) of the linear map with the neighbour mean taken as a quotient (`linQuot`), the neighbour sums and
  the clipped degrees kept as the arrays the program computes; the three layers are the same function applied three
  times; the last five stages are the two-layer read-out.
-/
import proofs.«104689_j73624329388568_2_alg».proof.Proof.RefReadP
import proofs.«104689_j73624329388568_2_alg».proof.Proof.Layers
import Idealize.ShloMosaic.Lib.ValueIdx
import Idealize.ShloMosaic.PureOps.Ideal
import Idealize.ShloMosaic.PureOps.Ideal.Laws

noncomputable section

namespace Cert.Sage.Ref

open Cert.ReferenceIdeal Cert.ReferenceIdeal.Read Cert.Sage Idealize.ShloMosaic Idealize.ShloMosaic.ValueIdx
open scoped BigOperators

/-! ## The read-out -/

/-- The first dense map's left operand index: row of the output, position in the contraction. -/
theorem lidx164 (p : Fin 100000) (j : Fin 64) (k : Fin 128) : lidx_main_v164 (ix2 p j) k = ix2 p k :=
  funext fun a => Fin.ext (by match a with | ⟨0, _⟩ => rfl | ⟨1, _⟩ => rfl)
/-- The first dense map's right operand index: position in the contraction, column of the output. -/
theorem ridx164 (p : Fin 100000) (j : Fin 64) (k : Fin 128) : ridx_main_v164 (ix2 p j) k = ix2 k j :=
  funext fun a => Fin.ext (by match a with | ⟨0, _⟩ => rfl | ⟨1, _⟩ => rfl)
/-- The first bias, broadcast along the rows, is read at the column. -/
theorem idx165 (p : Fin 100000) (j : Fin 64) : idx_main_v165 (idx_main_v166 (ix2 p j)) = ix1 j :=
  funext fun a => Fin.ext (by match a with | ⟨0, _⟩ => rfl)
/-- The second dense map's left operand index. -/
theorem lidx170 (p : Fin 100000) (o : Fin 2) (j : Fin 64) : lidx_main_v170 (ix2 p o) j = ix2 p j :=
  funext fun a => Fin.ext (by match a with | ⟨0, _⟩ => rfl | ⟨1, _⟩ => rfl)
/-- The second dense map's right operand index. -/
theorem ridx170 (p : Fin 100000) (o : Fin 2) (j : Fin 64) : ridx_main_v170 (ix2 p o) j = ix2 j o :=
  funext fun a => Fin.ext (by match a with | ⟨0, _⟩ => rfl | ⟨1, _⟩ => rfl)
/-- The second bias, broadcast along the rows, is read at the column. -/
theorem idx171 (p : Fin 100000) (o : Fin 2) : idx_main_v171 (idx_main_v172 (ix2 p o)) = ix1 o :=
  funext fun a => Fin.ext (by match a with | ⟨0, _⟩ => rfl)

/-- The program's result is the read-out of the third layer's output: a dense map with bias, the maximum with 0, a
    second dense map with bias, the two weight matrices read through their transposes. -/
theorem readout_read (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) (x17 : (⟨S64x128, .f32⟩ : BufTy).Contents (Elt Ideal)) (x18 : (⟨S64, .f32⟩ : BufTy).Contents (Elt Ideal)) (x19 : (⟨S2x64, .f32⟩ : BufTy).Contents (Elt Ideal)) (x20 : (⟨S2, .f32⟩ : BufTy).Contents (Elt Ideal)) :
    val_main_v173 (F := Ideal) x0 x1 x2 x3 x4 x5 x6 x7 x8 x9 x10 x11 x12 x13 x14 x15 x16 x17 x18 x19 x20
      = arr2 (readout (cur2 (val_main_v162 (F := Ideal) x0 x1 x2 x3 x4 x5 x6 x7 x8 x9 x10 x11 x12 x13 x14 x15 x16)) (cur2 (val_main_v163 (F := Ideal) x17)) (cur1 x18)
          (cur2 (val_main_v169 (F := Ideal) x19)) (cur1 x20)) := by
  funext i
  obtain ⟨p, o, rfl⟩ : ∃ p o, i = ix2 p o := ⟨i 0, i 1, eq_ix2 i⟩
  rw [val_main_v173_apply, val_main_v170_apply, val_main_v172_apply, val_main_v171_apply]
  simp only [val_main_v168_apply, val_main_v167_apply, val_main_v164_apply, val_main_v166_apply, val_main_v165_apply,
    val_main_call3_v0_apply, val_main_call3_cst_apply, lidx164, ridx164, idx165, lidx170, ridx170, idx171,
    Ideal.addf_def, Ideal.maximumf_def, Ideal.ofBits_def, Ideal.ofBits_zero_f32]
  rfl

/-! ## The second and third layers are the first layer's function -/

/-- The second layer is the first layer's function of the first layer's output and the second layer's parameters. -/
theorem layer1_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) :
    val_main_v109 (F := Ideal) x0 x1 x2 x3 x4 x5 x6 x7 x8 x9 x10 x11
      = val_main_v56 (F := Ideal) (val_main_v56 (F := Ideal) x0 x1 x2 x3 x4 x5 x6) x1 x7 x8 x9 x10 x11 := rfl

/-- The third layer is the first layer's function of the second layer's output and the third layer's parameters. -/
theorem layer2_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128, .f32⟩ : BufTy).Contents (Elt Ideal)) :
    val_main_v162 (F := Ideal) x0 x1 x2 x3 x4 x5 x6 x7 x8 x9 x10 x11 x12 x13 x14 x15 x16
      = val_main_v56 (F := Ideal) (val_main_v109 (F := Ideal) x0 x1 x2 x3 x4 x5 x6 x7 x8 x9 x10 x11) x1 x12 x13 x14 x15 x16 := rfl

end Cert.Sage.Ref

end
-- ==== Proof.RefLayer.lean ====
/-
  One layer of the reference program, read as the layer specification.

  The reference computes a layer in some fifty stages: the neighbour sums divided by the clipped degree, two matrix
  products, a bias, then batch normalisation in the centred form and a maximum with 0. Read at row p and column q,
  every stage is the corresponding piece of the specification's formula: a broadcast reads its operand at the
  coordinates it keeps, a product of matrices is the sum over the contracted position, a host sum over the rows
  starts from the zero word. The stages after the linear part depend on the linear output alone, so they are read
  once over an arbitrary array z and then applied to the linear part.
-/
import proofs.«104689_j73624329388568_2_alg».proof.Proof.RefReadP
import proofs.«104689_j73624329388568_2_alg».proof.Proof.Layers
import proofs.«104689_j73624329388568_2_alg».proof.Proof.LibPlainDot
import Idealize.ShloMosaic.Lib.ValueLayout
import Idealize.ShloMosaic.Lib.Pipeline.Value
import Idealize.ShloMosaic.PureOps.Ideal.Laws

noncomputable section

namespace Cert.Sage.Ref

open Cert.ReferenceIdeal Cert.ReferenceIdeal.Gen Cert.ReferenceIdeal.Read Cert.Sage Idealize.ShloMosaic Idealize.ShloMosaic.ValueIdx
open scoped BigOperators

/-! ### Pieces over variable arrays -/

/-- A 128-vector spread over the 100000 rows (through its one-row layout). -/
abbrev rowB (v : S128.Idx → EReal) : S100000x128.Idx → EReal :=
  broadcastInDim S100000x128 ![0, 1] bcast_S1x128_S100000x128_0_1 (broadcastInDim S1x128 ![1] bcast_S128_S1x128_1 v)

/-- A 100000-vector spread along the 128 columns (through its one-column layout). -/
abbrev colB (d : S100000.Idx → EReal) : S100000x128.Idx → EReal :=
  broadcastInDim S100000x128 ![0, 1] bcast_S100000x1_S100000x128_0_1 (broadcastInDim S100000x1 ![0] bcast_S100000_S100000x1_0 d)

/-- A 128-vector laid out as a row and spread down the 100000 rows reads, at (p, q), the vector at q. -/
theorem rowB_apply (v : S128.Idx → EReal) (p : Fin 100000) (q : Fin 128) : rowB v (ix2 p q) = v (ix1 q) := by
  refine (broadcastInDim_apply _ bcast_S1x128_S100000x128_0_1 _ (ix2 p q) (ix2 (0 : Fin 1) q) fun a => ?_).trans
    (broadcastInDim_apply _ bcast_S128_S1x128_1 v (ix2 (0 : Fin 1) q) (ix1 q) fun a => ?_)
  · match a with
    | ⟨0, _⟩ => show 0 = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- A 100000-vector laid out as a column and spread along the 128 columns reads, at (p, q), the vector at p. -/
theorem colB_apply (d : S100000.Idx → EReal) (p : Fin 100000) (q : Fin 128) : colB d (ix2 p q) = d (ix1 p) := by
  refine (broadcastInDim_apply _ bcast_S100000x1_S100000x128_0_1 _ (ix2 p q) (ix2 p (0 : Fin 1)) fun a => ?_).trans
    (broadcastInDim_apply _ bcast_S100000_S100000x1_0 d (ix2 p (0 : Fin 1)) (ix1 p) fun a => ?_)
  · match a with
    | ⟨0, _⟩ => show p.val = if (100000 : Nat) = 1 then 0 else p.val; rw [if_neg (by decide)]
    | ⟨1, _⟩ => show 0 = if (1 : Nat) = 1 then 0 else q.val; rw [if_pos rfl]
  · match a with
    | ⟨0, _⟩ => show p.val = if (100000 : Nat) = 1 then 0 else p.val; rw [if_neg (by decide)]

/-- The host's product of a 100000 x 128 array with a 128 x 128 matrix, at (p, q). -/
theorem dot_apply (a : S100000x128.Idx → EReal) (b : S128x128.Idx → EReal) (p : Fin 100000) (q : Fin 128) :
    Host.dotGeneral (F := Ideal) (φ₁ := .f32) (φ₂ := .f32) dot_S100000x128_S128x128_S100000x128_1_0_0_1_n_n none a b (ix2 p q)
      = ∑ k : Fin 128, a (ix2 p k) * b (ix2 k q) := by
  simp only [Host.dotGeneral]
  exact PlainDot.dotGeneral_apply dot_S100000x128_S128x128_S100000x128_1_0_0_1_n_n rfl rfl rfl rfl rfl rfl rfl rfl none _ a b p q

/-- The host's quotient of two arrays, at an index. -/
theorem hostDivf_apply {s : Shape} (a b : FVec Ideal s .f32) (i : s.Idx) :
    Host.divf (F := Ideal) a b i = Ideal.div (a i) (b i) := rfl

/-- The host's sum over the 100000 rows, started from the zero word, at column q. -/
theorem colsum_apply (z : S100000x128.Idx → EReal) (q : Fin 128) :
    Host.reduceAdd (F := Ideal) (φ := .f32) z (constant (F := Ideal) S_ .f32 0x00000000#32) reducesTo_S100000x128_S128_d0 h_S_ (ix1 q)
      = 0 + ∑ p : Fin 100000, z (ix2 p q) := by
  simp only [Host.reduceAdd, Ideal.hostReduceAdd_def]
  rw [Ideal.hostReduceAdd_single reducesTo_S100000x128_S128_d0 (by decide)]
  refine congrArg₂ (· + ·) Ideal.ofBits_zero_f32 (Finset.sum_congr rfl fun k _ => congrArg z ?_)
  exact funext fun a => Fin.ext (by match a with | ⟨0, _⟩ => rfl | ⟨1, _⟩ => rfl)

/-! ### The normalisation stages over an arbitrary linear output -/

/-- The splat of a float word over the 128 columns. -/
abbrev wordB (w : BitVec 32) : S128.Idx → EReal :=
  broadcastInDim S128 ![] bcast_S_S128 (constant (F := Ideal) S_ .f32 w)

/-- The column means of z, as the reference computes them. -/
abbrev meanR (z : S100000x128.Idx → EReal) : S128.Idx → EReal :=
  Host.divf (F := Ideal) (φ := .f32)
    (Host.reduceAdd (F := Ideal) (φ := .f32) z (constant (F := Ideal) S_ .f32 0x00000000#32) reducesTo_S100000x128_S128_d0 h_S_)
    (wordB 0x47C35000#32)

/-- z minus its column means. -/
abbrev cenR (z : S100000x128.Idx → EReal) : S100000x128.Idx → EReal :=
  subf (F := Ideal) (φ := .f32) z (rowB (meanR z))

/-- The column variances of z, as the reference computes them. -/
abbrev varR (z : S100000x128.Idx → EReal) : S128.Idx → EReal :=
  Host.divf (F := Ideal) (φ := .f32)
    (Host.reduceAdd (F := Ideal) (φ := .f32) (mulf (F := Ideal) (φ := .f32) (cenR z) (cenR z))
      (constant (F := Ideal) S_ .f32 0x00000000#32) reducesTo_S100000x128_S128_d0 h_S_)
    (wordB 0x47C35000#32)

/-- The reference's normalisation and maximum with 0, as one term of the linear output, the gain and the offset. -/
def normT (z : S100000x128.Idx → EReal) (g be : S128.Idx → EReal) : S100000x128.Idx → EReal :=
  maximumf (F := Ideal) (φ := .f32)
    (addf (F := Ideal) (φ := .f32)
      (mulf (F := Ideal) (φ := .f32) (mulf (F := Ideal) (φ := .f32) (rowB g) (cenR z))
        (rowB (Host.rsqrt (F := Ideal) (φ := .f32) (addf (F := Ideal) (φ := .f32) (varR z) (wordB 0x3727C5AC#32)))))
      (rowB be))
    (broadcastInDim S100000x128 ![] bcast_S_S100000x128 (constant (F := Ideal) S_ .f32 0x00000000#32))

/-- The splat of a word over the columns is the word's value at every column. -/
theorem wordB_apply (w : BitVec 32) (q : Fin 128) : wordB w (ix1 q) = Ideal.ofBits .f32 w :=
  broadcastInDim_apply _ bcast_S_S128 _ (ix1 q) ix0 (fun a => a.elim0)

/-- The reference's column mean at column q is the specification's. -/
theorem meanR_apply (z : S100000x128.Idx → EReal) (q : Fin 128) : meanR z (ix1 q) = colMean (cur2 z) nWord q := by
  unfold meanR
  rw [hostDivf_apply, colsum_apply, wordB_apply]
  rfl

/-- The centred array at (p, q). -/
theorem cenR_apply (z : S100000x128.Idx → EReal) (p : Fin 100000) (q : Fin 128) :
    cenR z (ix2 p q) = z (ix2 p q) - colMean (cur2 z) nWord q := by
  unfold cenR
  rw [subf_apply, rowB_apply, meanR_apply]

/-- The reference's column variance at column q is the specification's. -/
theorem varR_apply (z : S100000x128.Idx → EReal) (q : Fin 128) : varR z (ix1 q) = colVar (cur2 z) nWord q := by
  unfold varR
  rw [hostDivf_apply, colsum_apply, wordB_apply]
  simp only [mulf_apply, cenR_apply]
  rfl

/-- The normalisation stages at (p, q) are the specification's centred normalisation. -/
theorem normT_apply (z : S100000x128.Idx → EReal) (g be : S128.Idx → EReal) (p : Fin 100000) (q : Fin 128) :
    normT z g be (ix2 p q) = normRelu (cur2 z) (cur1 g) (cur1 be) nWord epsWord p q := by
  unfold normT
  rw [maximumf_apply, addf_apply, mulf_apply, mulf_apply, rowB_apply, rowB_apply, rowB_apply, cenR_apply]
  have hr : Host.rsqrt (F := Ideal) (φ := .f32) (addf (F := Ideal) (φ := .f32) (varR z) (wordB 0x3727C5AC#32)) (ix1 q)
      = Ideal.rsqrt (colVar (cur2 z) nWord q + epsWord) := by
    show Ideal.rsqrt (varR z (ix1 q) + wordB 0x3727C5AC#32 (ix1 q)) = _
    rw [varR_apply, wordB_apply]
  have h0 : broadcastInDim S100000x128 ![] bcast_S_S100000x128 (constant (F := Ideal) S_ .f32 0x00000000#32) (ix2 p q) = (0 : EReal) :=
    (broadcastInDim_apply _ bcast_S_S100000x128 _ (ix2 p q) ix0 (fun a => a.elim0)).trans Ideal.ofBits_zero_f32
  rw [hr, h0]
  rfl

/-! ### The linear stages over variable arrays -/

/-- The reference's linear stages as one term: the neighbour sums over the degree, times the neighbour weights, plus
    the bias row, plus the features times the self weights. -/
def linT (x A : S100000x128.Idx → EReal) (d : S100000.Idx → EReal) (Wn Wr : S128x128.Idx → EReal) (b : S128.Idx → EReal) :
    S100000x128.Idx → EReal :=
  addf (F := Ideal) (φ := .f32)
    (addf (F := Ideal) (φ := .f32)
      (Host.dotGeneral (F := Ideal) (φ₁ := .f32) (φ₂ := .f32) dot_S100000x128_S128x128_S100000x128_1_0_0_1_n_n none
        (Host.divf (F := Ideal) (φ := .f32) A (colB d)) Wn)
      (rowB b))
    (Host.dotGeneral (F := Ideal) (φ₁ := .f32) (φ₂ := .f32) dot_S100000x128_S128x128_S100000x128_1_0_0_1_n_n none x Wr)

/-- The linear stages at (p, q) are the specification's quotient form. -/
theorem linT_apply (x A : S100000x128.Idx → EReal) (d : S100000.Idx → EReal) (Wn Wr : S128x128.Idx → EReal)
    (b : S128.Idx → EReal) (p : Fin 100000) (q : Fin 128) :
    linT x A d Wn Wr b (ix2 p q) = linQuot (cur2 x) (cur2 A) (cur1 d) (cur2 Wn) (cur2 Wr) (cur1 b) p q := by
  unfold linT
  rw [addf_apply, addf_apply, dot_apply, dot_apply, rowB_apply]
  simp only [hostDivf_apply, colB_apply]
  rfl

/-- The linear stages, as an array. -/
theorem linT_read (x A : S100000x128.Idx → EReal) (d : S100000.Idx → EReal) (Wn Wr : S128x128.Idx → EReal)
    (b : S128.Idx → EReal) :
    linT x A d Wn Wr b = arr2 (linQuot (cur2 x) (cur2 A) (cur1 d) (cur2 Wn) (cur2 Wr) (cur1 b)) := by
  funext i
  obtain ⟨p, q, rfl⟩ : ∃ (p : Fin 100000) (q : Fin 128), i = ix2 p q := ⟨i 0, i 1, eq_ix2 i⟩
  exact linT_apply x A d Wn Wr b p q

/-- The normalisation stages, as an array. -/
theorem normT_read (z : S100000x128.Idx → EReal) (g be : S128.Idx → EReal) :
    normT z g be = arr2 (normRelu (cur2 z) (cur1 g) (cur1 be) nWord epsWord) := by
  funext i
  obtain ⟨p, q, rfl⟩ : ∃ (p : Fin 100000) (q : Fin 128), i = ix2 p q := ⟨i 0, i 1, eq_ix2 i⟩
  exact normT_apply z g be p q

/-- Reading an array built from a function of (row, column) by coordinates gives the function back. -/
theorem cur2_arr2 {α : Type} {a b : Nat} (f : Fin a → Fin b → α) : cur2 (arr2 f) = f := rfl

/-! ### The layer -/

/-- The reference's linear output is the linear term of its opaque stages. -/
theorem v30_eq (x0 : S100000x128.Idx → EReal) (x1 : S2x800000.Idx → BitVec 32) (x2 : S128x128.Idx → EReal)
    (x3 : S128.Idx → EReal) (x4 : S128x128.Idx → EReal) :
    val_main_v30 (F := Ideal) x0 x1 x2 x3 x4
      = linT x0 (val_main_v13 (F := Ideal) x0 x1) (val_main_v19 (F := Ideal) x1) (val_main_v23 (F := Ideal) x2)
          (val_main_v28 (F := Ideal) x4) x3 := rfl

/-- The reference's layer output is the normalisation term of its linear output. -/
theorem v56_eq (x0 : S100000x128.Idx → EReal) (x1 : S2x800000.Idx → BitVec 32) (x2 : S128x128.Idx → EReal)
    (x3 : S128.Idx → EReal) (x4 : S128x128.Idx → EReal) (x5 x6 : S128.Idx → EReal) :
    val_main_v56 (F := Ideal) x0 x1 x2 x3 x4 x5 x6 = normT (val_main_v30 (F := Ideal) x0 x1 x2 x3 x4) x5 x6 := rfl

/-- One layer of the reference is the layer specification, quotient form, of its opaque stages. -/
theorem layer_read (x0 : S100000x128.Idx → EReal) (x1 : S2x800000.Idx → BitVec 32) (x2 : S128x128.Idx → EReal)
    (x3 : S128.Idx → EReal) (x4 : S128x128.Idx → EReal) (x5 x6 : S128.Idx → EReal) :
    val_main_v56 (F := Ideal) x0 x1 x2 x3 x4 x5 x6
      = arr2 (normRelu (linQuot (cur2 x0) (cur2 (val_main_v13 (F := Ideal) x0 x1)) (cur1 (val_main_v19 (F := Ideal) x1))
          (cur2 (val_main_v23 (F := Ideal) x2)) (cur2 (val_main_v28 (F := Ideal) x4)) (cur1 x3)) (cur1 x5) (cur1 x6)
          nWord epsWord) := by
  rw [v56_eq, v30_eq, linT_read, normT_read, cur2_arr2]

end Cert.Sage.Ref

end
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibRealArrays.lean ====
/-
# Arrays of extended reals whose entries are real numbers

On the extended reals a float input that passes the test |v| < +∞ is a real number, and real entries stay real through
the host operations a gather–scatter aggregation is made of.

* `IsReal v` — every entry of the array `v` is (the coercion of) a real number.
* `real_of_abs_lt_top` — an extended real whose absolute value is below +∞ is a real number; `inf_word` — the f32 word
  0x7F800000 denotes +∞.
* `isReal_of_all` — the printed form of `jnp.all(|x| < inf)` (a reduce by `and` of the comparison against the
  broadcast +∞ word, equal to 1) gives `IsReal x`, at any shape and any list of reduced axes.
* `isReal_broadcastInDim`, `isReal_zero`, `isReal_one` — a broadcast re-indexes; the splats of 0.0 and 1.0 are real.
* `isReal_gather_rows` — a row gather of a real table is real; `isReal_scatterAdd_rows` — a scatter-add of real rows
  into a real table is real (each entry gains a finite sum of entries).
* `max_one_real` — the maximum of a real array with an array of ones is real and at least 1;
  `isReal_div` — a real array divided by a real array whose entries are at least 1 is real (the quotient is then
  the product with a real inverse, never the division's corner at zero).
-/
import proofs.«104689_j73624329388568_2_alg».proof.Proof.LibGatherScatterRead
import proofs.«104689_j73624329388568_2_alg».proof.Proof.LibWeightedMix
import Idealize.ShloMosaic.Lib.ReduceAll
import Idealize.ShloMosaic.PureOps.Ideal.Laws
import Idealize.ShloMosaic.Lib.ValueIdx
import Mathlib.Tactic.Linarith

noncomputable section

namespace LibRealArrays

open Idealize.ShloMosaic Idealize.ShloMosaic.ValueIdx
open scoped BigOperators

/-- Every entry of the array is a real number. -/
def IsReal {s : Shape} (v : s.Idx → EReal) : Prop := ∀ i, ∃ r : ℝ, v i = (r : EReal)

/-! ## From an all-finite test -/

/-- A rank-0 array has one index. -/
instance : Subsingleton (⟨0, ![]⟩ : Shape).Idx := ⟨fun _ _ => funext fun d => d.elim0⟩

/-- The word 0x7F800000 denotes +∞. -/
theorem inf_word : Ideal.ofBits .f32 0x7F800000#32 = ⊤ := by simp [Ideal.ofBits, Ideal.ieee]

/-- The zero word denotes 0. -/
theorem zero_word : Ideal.ofBits .f32 0x00000000#32 = ((0 : ℝ) : EReal) := by simp [Ideal.ofBits, Ideal.ieee]

/-- The word 0x3F800000 denotes 1. -/
theorem one_word : Ideal.ofBits .f32 0x3F800000#32 = ((1 : ℝ) : EReal) := by
  simp [Ideal.ofBits, Ideal.ieee, -EReal.coe_mul]; norm_num

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- An array all of whose entries pass |v| < +∞ has real entries. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf x)
        (broadcastInDim s ![] hb (constant (F := Ideal) ⟨0, ![]⟩ .f32 0x7F800000#32))) (constantI ⟨0, ![]⟩ 1 1#1) hr hu ix0 = 1#1) :
    IsReal x := fun i => by
  have hi := Host.reduce_andi_all _ _ hr hu _ h i
  simp only [cmpf, Host.absf, broadcastInDim, constant, Ideal.cmpf_def, Ideal.hostAbsf_def, Ideal.absf_def,
    Ideal.ofBits_def, inf_word] at hi
  refine real_of_abs_lt_top _ ?_
  by_contra hlt
  have h0 : Ideal.cmp CmpFPredicate.olt (max (x i) (-x i)) ⊤ = 0#1 := by
    show BitVec.ofBool (decide (max (x i) (-x i) < ⊤)) = 0#1
    rw [decide_eq_false hlt]; rfl
  rw [h0] at hi
  exact absurd hi (by decide)

/-! ## Real entries are preserved -/

/-- A broadcast re-indexes its operand. -/
theorem isReal_broadcastInDim {s t : Shape} (dims : Fin s.rank → Fin t.rank) (h : s.BroadcastsInDim t dims)
    (x : s.Idx → EReal) (hx : IsReal x) : IsReal (broadcastInDim t dims h x) := fun _ => hx _

/-- A splat of the zero word. -/
theorem isReal_zero (s : Shape) : IsReal (constant (F := Ideal) s .f32 0x00000000#32) := fun _ =>
  ⟨0, by show Ideal.ofBits .f32 0x00000000#32 = _; exact zero_word⟩

/-- A splat of the word of 1.0. -/
theorem isReal_one (s : Shape) : IsReal (constant (F := Ideal) s .f32 0x3F800000#32) := fun _ =>
  ⟨1, by show Ideal.ofBits .f32 0x3F800000#32 = _; exact one_word⟩

/-- A row gather re-reads rows of its table. -/
theorem isReal_gather_rows {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → EReal) (idx : IVec ⟨2, ![M, 1]⟩ w) (hx : IsReal x) :
    IsReal (Host.gather d x idx) := fun i => by
  obtain ⟨e, j, rfl⟩ : ∃ (e : Fin M) (j : Fin C), i = ix2 e j := ⟨i 0, i 1, eq_ix2 i⟩
  rw [LibGatherScatterRead.gather_rows_apply hN d hod hcs hob hsb hsm hiv hss]
  exact hx _

/-- A scatter-add of real rows into a real table is a real table: each entry gains a finite sum of entries. -/
theorem isReal_scatterAdd_rows {N M C w : Nat}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ .f32) (idx : IVec ⟨2, ![M, 1]⟩ w) (upd : FVec Ideal ⟨2, ![M, C]⟩ .f32)
    (hx : IsReal x) (hu : IsReal upd) : IsReal (Host.scatterAdd (F := Ideal) d x idx upd) := fun i => by
  obtain ⟨n, j, rfl⟩ : ∃ (n : Fin N) (j : Fin C), i = ix2 n j := ⟨i 0, i 1, eq_ix2 i⟩
  rw [LibGatherScatterRead.scatterAdd_rows_apply d huw hiw hsd hiv]
  exact LibWeightedMix.exists_real_add (hx _) (LibWeightedMix.exists_real_sum _ _ fun e => hu _)

/-- The maximum of a real array with an array of ones: real, and at least 1. -/
theorem max_one_real {s : Shape} (c one : FVec Ideal s .f32) (hc : IsReal c) (h1 : ∀ i, one i = ((1 : ℝ) : EReal)) (i : s.Idx) :
    ∃ r : ℝ, maximumf (F := Ideal) c one i = (r : EReal) ∧ 1 ≤ r := by
  obtain ⟨cr, hcr⟩ := hc i
  refine ⟨max cr 1, ?_, le_max_right _ _⟩
  show max (c i) (one i) = _
  rw [hcr, h1]
  exact (EReal.coe_strictMono.monotone.map_max).symm

/-- Dividing a real array by a real array whose entries are at least 1 gives a real array. -/
theorem isReal_div {s : Shape} (a b : FVec Ideal s .f32) (ha : IsReal a)
    (hb : ∀ i, ∃ r : ℝ, b i = (r : EReal) ∧ 1 ≤ r) : IsReal (Host.divf (F := Ideal) a b) := fun i => by
  obtain ⟨ar, har⟩ := ha i
  obtain ⟨br, hbr, hb1⟩ := hb i
  refine ⟨ar * (1 / br), ?_⟩
  show Ideal.div (a i) (b i) = _
  rw [har, hbr, Ideal.div_coe (by linarith : br ≠ 0), ← EReal.coe_mul]

end LibRealArrays

end
-- ==== Proof.LibRealAnyDims.lean ====
/-
  Real entries through a gather, an accumulating scatter and a splat, for ANY dimension numbers.

  On the extended reals, call an array real when every entry is a real number. A gather reads, at every result
  index, one entry of its table (the start index is clamped into the table), so it keeps real entries whatever its
  dimension numbers and whatever the integer indices. An accumulating scatter leaves at every entry the operand's
  entry plus the sum of the finitely many updates that land there (an update landing outside contributes nothing),
  so it keeps real entries likewise. A splat of the zero word or of the word of 1.0 through any broadcast is real.
  None of these needs the shapes or the dimension numbers to be known.

  It imports LibRealArrays (and with it LibGatherScatterRead and LibWeightedMix): copy those with it.
-/
import proofs.«104689_j73624329388568_2_alg».proof.Proof.LibRealArrays

noncomputable section

namespace LibRealAnyDims

open Idealize.ShloMosaic
open LibRealArrays (IsReal)

/-- A gather only re-reads entries of its table. -/
theorem real_gather {s si t : Shape} {w : Nat} (d : GatherDims s si t) (x : s.Idx → EReal) (idx : IVec si w) (hx : IsReal x) :
    IsReal (Host.gather d x idx) := fun _ => hx _

/-- An accumulating scatter adds to each entry finitely many of the updates. -/
theorem real_scatterAdd {s si su : Shape} {w : Nat} (d : ScatterDims s si su) (x : FVec Ideal s .f32) (idx : IVec si w)
    (upd : FVec Ideal su .f32) (hx : IsReal x) (hu : IsReal upd) : IsReal (Host.scatterAdd (F := Ideal) d x idx upd) := fun i => by
  show ∃ r : ℝ, Ideal.hostScatterAdd d x idx upd i = r
  unfold Ideal.hostScatterAdd
  exact LibWeightedMix.exists_real_add (hx i) (LibWeightedMix.exists_real_sum _ _ fun j => hu j)

/-- A splat of the zero word, or of the word of 1.0, through any broadcast. -/
theorem real_bcast_zero {t : Shape} (h : (⟨0, ![]⟩ : Shape).BroadcastsInDim t (![] : Fin 0 → Fin t.rank)) :
    IsReal (broadcastInDim t ![] h (constant (F := Ideal) ⟨0, ![]⟩ .f32 0x00000000#32)) := fun _ => ⟨0, LibRealArrays.zero_word⟩
theorem real_bcast_one {t : Shape} (h : (⟨0, ![]⟩ : Shape).BroadcastsInDim t (![] : Fin 0 → Fin t.rank)) :
    IsReal (broadcastInDim t ![] h (constant (F := Ideal) ⟨0, ![]⟩ .f32 0x3F800000#32)) := fun _ => ⟨1, LibRealArrays.one_word⟩
theorem bcast_one_eq {t : Shape} (h : (⟨0, ![]⟩ : Shape).BroadcastsInDim t (![] : Fin 0 → Fin t.rank)) (i : t.Idx) :
    broadcastInDim t ![] h (constant (F := Ideal) ⟨0, ![]⟩ .f32 0x3F800000#32) i = ((1 : ℝ) : EReal) := LibRealArrays.one_word

end LibRealAnyDims

end
-- ==== Proof.Bridge.lean ====
/-
  One layer of the two programs is one function, on real inputs.

  The reference divides the neighbour sums by the clipped degree and normalises centred; the kernel multiplies by the
  reciprocal and normalises uncentred. The clipped degree is a real number at least 1, so the quotient is the product
  with the reciprocal on every extended real. The uncentred and the centred normalisation agree once the linear map
  has real entries, which it has when the features, weights and bias are real: the neighbour sums add finitely many
  entries of the features to 0, a transpose only moves entries.
-/
import proofs.«104689_j73624329388568_2_alg».proof.Proof.RefReadP
import proofs.«104689_j73624329388568_2_alg».proof.Proof.RefRead
import proofs.«104689_j73624329388568_2_alg».proof.Proof.RefLayer
import proofs.«104689_j73624329388568_2_alg».proof.Proof.Layers
import proofs.«104689_j73624329388568_2_alg».proof.Proof.NormLaws
import proofs.«104689_j73624329388568_2_alg».proof.Proof.LibRealArrays
import proofs.«104689_j73624329388568_2_alg».proof.Proof.LibRealAnyDims

noncomputable section

namespace Cert.Sage

open Cert.ReferenceIdeal Cert.ReferenceIdeal.Read Idealize.ShloMosaic Idealize.ShloMosaic.ValueIdx
open LibRealArrays (IsReal)
open LibRealAnyDims (real_gather real_scatterAdd real_bcast_zero real_bcast_one bcast_one_eq)
open scoped BigOperators

theorem real2_of {a b : Nat} (x : (⟨2, ![a, b]⟩ : Shape).Idx → EReal) (h : IsReal x) : Real2 (cur2 x) := fun _ _ => h _
theorem real1_of {a : Nat} (x : (⟨1, ![a]⟩ : Shape).Idx → EReal) (h : IsReal x) : Real1 (cur1 x) := fun _ => h _
theorem isReal_arr2 {a b : Nat} (f : Fin a → Fin b → EReal) (h : Real2 f) : IsReal (arr2 f) := fun _ => h _ _

/-- Neighbour sums of real features are real: 0 plus finitely many entries of the features. -/
theorem agg_real (x0 : S100000x128.Idx → EReal) (x1 : S2x800000.Idx → BitVec 32) (h : IsReal x0) :
    IsReal (val_main_v13 (F := Ideal) x0 x1) :=
  real_scatterAdd _ _ _ _ (real_bcast_zero _) (real_gather _ _ _ h)

/-- The in-degree is real: 0 plus finitely many ones. -/
theorem deg_real (x1 : S2x800000.Idx → BitVec 32) : IsReal (val_main_v17 (F := Ideal) x1) :=
  real_scatterAdd _ _ _ _ (real_bcast_zero _) (real_bcast_one _)

/-- The clipped degree is a real number at least 1. -/
theorem clipped_deg (x1 : S2x800000.Idx → BitVec 32) (p : Fin 100000) :
    ∃ r : ℝ, val_main_v19 (F := Ideal) x1 (ix1 p) = (r : EReal) ∧ 1 ≤ r :=
  LibRealArrays.max_one_real (val_main_v17 (F := Ideal) x1) (val_main_v18 (F := Ideal)) (deg_real x1) (bcast_one_eq _) (ix1 p)

theorem wnT_real (x2 : S128x128.Idx → EReal) (h : IsReal x2) : IsReal (val_main_v23 (F := Ideal) x2) := fun i => by
  rw [val_main_v23_apply]; exact h _
theorem wrT_real (x4 : S128x128.Idx → EReal) (h : IsReal x4) : IsReal (val_main_v28 (F := Ideal) x4) := fun i => by
  rw [val_main_v28_apply]; exact h _

/-- One layer: the kernel's form (reciprocal degree, uncentred normalisation) is the reference's stage, and the stage
    has real entries. -/
theorem layer_eq (x0 : S100000x128.Idx → EReal) (x1 : S2x800000.Idx → BitVec 32) (x2 : S128x128.Idx → EReal)
    (x3 : S128.Idx → EReal) (x4 : S128x128.Idx → EReal) (x5 x6 : S128.Idx → EReal)
    (h0 : IsReal x0) (h2 : IsReal x2) (h3 : IsReal x3) (h4 : IsReal x4) (h5 : IsReal x5) (h6 : IsReal x6) :
    arr2 (affineRelu (lin (cur2 x0) (cur2 (val_main_v13 (F := Ideal) x0 x1)) (fun p => Ideal.div 1 (val_main_v19 (F := Ideal) x1 (ix1 p)))
        (cur2 (val_main_v23 (F := Ideal) x2)) (cur2 (val_main_v28 (F := Ideal) x4)) (cur1 x3)) (cur1 x5) (cur1 x6) nWord epsWord)
      = val_main_v56 (F := Ideal) x0 x1 x2 x3 x4 x5 x6
    ∧ IsReal (val_main_v56 (F := Ideal) x0 x1 x2 x3 x4 x5 x6) := by
  obtain ⟨e, he, hee⟩ := epsWord_pos
  have hlin := linQuot_eq_lin (cur2 x0) (cur2 (val_main_v13 (F := Ideal) x0 x1)) (cur1 (val_main_v19 (F := Ideal) x1))
    (cur2 (val_main_v23 (F := Ideal) x2)) (cur2 (val_main_v28 (F := Ideal) x4)) (cur1 x3) (fun p => clipped_deg x1 p)
  have hzr : Real2 (lin (cur2 x0) (cur2 (val_main_v13 (F := Ideal) x0 x1)) (fun p => Ideal.div 1 (cur1 (val_main_v19 (F := Ideal) x1) p))
      (cur2 (val_main_v23 (F := Ideal) x2)) (cur2 (val_main_v28 (F := Ideal) x4)) (cur1 x3)) :=
    lin_real _ _ _ _ _ _ (real2_of x0 h0) (real2_of _ (agg_real x0 x1 h0)) (dinv_real _ (fun p => clipped_deg x1 p))
      (real2_of _ (wnT_real x2 h2)) (real2_of _ (wrT_real x4 h4)) (real1_of x3 h3)
  have hn : ((100000 : ℕ) : ℝ) = 100000 := by norm_num
  have hr := Ref.layer_read x0 x1 x2 x3 x4 x5 x6
  rw [hlin] at hr
  have key := affineRelu_eq_normRelu _ (cur1 x5) (cur1 x6) 100000 e hzr (real1_of x5 h5) (real1_of x6 h6) hn (by norm_num) he
  have hreal := normRelu_real _ (cur1 x5) (cur1 x6) 100000 e hzr (real1_of x5 h5) (real1_of x6 h6) hn (by norm_num) he
  rw [← nWord_eq, ← hee] at key hreal
  exact ⟨(congrArg arr2 key).trans hr.symm, hr ▸ isReal_arr2 _ hreal⟩

end Cert.Sage

end
-- ==== Proof.Final.lean ====
/-
  The kernel's result is the reference's result function of the arguments.

  Layer by layer: the kernel's linear map followed by its uncentred normalisation is the reference's layer stage
  whenever the layer's input and parameters are real, and the stage is then real again; three layers in, the fused
  read-out of the kernel is the reference's read-out of the third stage.
-/
import proofs.«104689_j73624329388568_2_alg».proof.Proof.KerChain
import proofs.«104689_j73624329388568_2_alg».proof.Proof.Bridge

set_option maxRecDepth 16384

noncomputable section

namespace Cert.Sage

open Idealize.ShloMosaic Idealize.ShloMosaic.ValueIdx Idealize.ShloMosaic.TcCoe Idealize.SL.Sem
open Cert.ReferenceIdeal.Read (val_main_v56 val_main_v109 val_main_v162 val_main_v173)
open LibRealArrays (IsReal)
open Cert.Sage.Ker (KZ KH KOut)

/-- On real arguments, the three kernel layers and the fused read-out compose to the reference's result stage. -/
theorem layers_eq (x0 : Cert.ReferenceIdeal.S100000x128.Idx → EReal) (x1 : Cert.ReferenceIdeal.S2x800000.Idx → BitVec 32)
    (x2 : Cert.ReferenceIdeal.S128x128.Idx → EReal) (x3 : Cert.ReferenceIdeal.S128.Idx → EReal) (x4 : Cert.ReferenceIdeal.S128x128.Idx → EReal)
    (x5 x6 : Cert.ReferenceIdeal.S128.Idx → EReal)
    (x7 : Cert.ReferenceIdeal.S128x128.Idx → EReal) (x8 : Cert.ReferenceIdeal.S128.Idx → EReal) (x9 : Cert.ReferenceIdeal.S128x128.Idx → EReal)
    (x10 x11 : Cert.ReferenceIdeal.S128.Idx → EReal)
    (x12 : Cert.ReferenceIdeal.S128x128.Idx → EReal) (x13 : Cert.ReferenceIdeal.S128.Idx → EReal) (x14 : Cert.ReferenceIdeal.S128x128.Idx → EReal)
    (x15 x16 : Cert.ReferenceIdeal.S128.Idx → EReal)
    (x17 : Cert.ReferenceIdeal.S64x128.Idx → EReal) (x18 : Cert.ReferenceIdeal.S64.Idx → EReal) (x19 : Cert.ReferenceIdeal.S2x64.Idx → EReal)
    (x20 : Cert.ReferenceIdeal.S2.Idx → EReal)
    (r0 : IsReal x0) (r2 : IsReal x2) (r3 : IsReal x3) (r4 : IsReal x4) (r5 : IsReal x5) (r6 : IsReal x6) (r7 : IsReal x7)
    (r8 : IsReal x8) (r9 : IsReal x9) (r10 : IsReal x10) (r11 : IsReal x11) (r12 : IsReal x12) (r13 : IsReal x13)
    (r14 : IsReal x14) (r15 : IsReal x15) (r16 : IsReal x16) :
    KOut (KZ (KH (KZ (KH (KZ x0 x1 x2 x3 x4) x5 x6) x1 x7 x8 x9) x10 x11) x1 x12 x13 x14) x15 x16 x17 x18 x19 x20
      = val_main_v173 (F := Ideal) x0 x1 x2 x3 x4 x5 x6 x7 x8 x9 x10 x11 x12 x13 x14 x15 x16 x17 x18 x19 x20 := by
  have l1 := layer_eq x0 x1 x2 x3 x4 x5 x6 r0 r2 r3 r4 r5 r6
  have e1 : KH (KZ x0 x1 x2 x3 x4) x5 x6 = val_main_v56 (F := Ideal) x0 x1 x2 x3 x4 x5 x6 := l1.1
  have l2 := layer_eq (val_main_v56 (F := Ideal) x0 x1 x2 x3 x4 x5 x6) x1 x7 x8 x9 x10 x11 l1.2 r7 r8 r9 r10 r11
  have e2 : KH (KZ (val_main_v56 (F := Ideal) x0 x1 x2 x3 x4 x5 x6) x1 x7 x8 x9) x10 x11
      = val_main_v56 (F := Ideal) (val_main_v56 (F := Ideal) x0 x1 x2 x3 x4 x5 x6) x1 x7 x8 x9 x10 x11 := l2.1
  have l3 := layer_eq (val_main_v56 (F := Ideal) (val_main_v56 (F := Ideal) x0 x1 x2 x3 x4 x5 x6) x1 x7 x8 x9 x10 x11) x1 x12 x13 x14 x15 x16
    l2.2 r12 r13 r14 r15 r16
  have e3 : KH (KZ (val_main_v56 (F := Ideal) (val_main_v56 (F := Ideal) x0 x1 x2 x3 x4 x5 x6) x1 x7 x8 x9 x10 x11) x1 x12 x13 x14) x15 x16
      = val_main_v56 (F := Ideal) (val_main_v56 (F := Ideal) (val_main_v56 (F := Ideal) x0 x1 x2 x3 x4 x5 x6) x1 x7 x8 x9 x10 x11) x1 x12 x13 x14 x15 x16 := l3.1
  rw [e1, e2, Ref.readout_read, Ref.layer2_eq, Ref.layer1_eq, ← e3]
  rfl

end Cert.Sage

end
-- ==== Proof.Finite.lean ====
/-
  Real entries from the finiteness precondition.

  The precondition tests, for each of the twenty float arguments, that every entry has absolute value below
  +infinity, and joins the twenty tests by "and". On the extended reals an entry that passes the test is a real
  number, so under the precondition every float argument is an array of real numbers. The test is printed in five
  consecutive windows; they are opened one after the other, the conjunction is split, and each conjunct is the
  all-entries test of one argument.
-/
import proofs.«104689_j73624329388568_2_alg».proof.Pre_finite_inputs
import proofs.«104689_j73624329388568_2_alg».proof.Proof.LibRealArrays

noncomputable section

namespace Cert.Sage

open Idealize.ShloMosaic Idealize.ShloMosaic.ValueIdx Cert.Pre_finite_inputs

variable [Cert.Pre_finite_inputs.Facts]

/-- Under the finiteness precondition every float argument has real entries. -/
theorem real_of_pre (x0 : FVec Ideal S100000x128 .f32) (x1 : IVec S2x800000 32) (x2 : FVec Ideal S128x128 .f32) (x3 : FVec Ideal S128 .f32) (x4 : FVec Ideal S128x128 .f32) (x5 : FVec Ideal S128 .f32) (x6 : FVec Ideal S128 .f32)
    (x7 : FVec Ideal S128x128 .f32) (x8 : FVec Ideal S128 .f32) (x9 : FVec Ideal S128x128 .f32) (x10 : FVec Ideal S128 .f32) (x11 : FVec Ideal S128 .f32) (x12 : FVec Ideal S128x128 .f32) (x13 : FVec Ideal S128 .f32)
    (x14 : FVec Ideal S128x128 .f32) (x15 : FVec Ideal S128 .f32) (x16 : FVec Ideal S128 .f32) (x17 : FVec Ideal S64x128 .f32) (x18 : FVec Ideal S64 .f32) (x19 : FVec Ideal S2x64 .f32) (x20 : FVec Ideal S2 .f32)
    (h : Cert.Pre_finite_inputs.fn (F := Ideal) x0 x1 x2 x3 x4 x5 x6 x7 x8 x9 x10 x11 x12 x13 x14 x15 x16 x17 x18 x19 x20 = (fun _ => 1#1)) :
    LibRealArrays.IsReal x0 ∧ LibRealArrays.IsReal x2 ∧ LibRealArrays.IsReal x3 ∧ LibRealArrays.IsReal x4 ∧ LibRealArrays.IsReal x5 ∧ LibRealArrays.IsReal x6 ∧ LibRealArrays.IsReal x7 ∧ LibRealArrays.IsReal x8 ∧ LibRealArrays.IsReal x9 ∧ LibRealArrays.IsReal x10 ∧ LibRealArrays.IsReal x11 ∧ LibRealArrays.IsReal x12 ∧ LibRealArrays.IsReal x13 ∧ LibRealArrays.IsReal x14 ∧ LibRealArrays.IsReal x15 ∧ LibRealArrays.IsReal x16 ∧ LibRealArrays.IsReal x17 ∧ LibRealArrays.IsReal x18 ∧ LibRealArrays.IsReal x19 ∧ LibRealArrays.IsReal x20 := by
  have h0 := congrFun h ix0
  unfold Cert.Pre_finite_inputs.fn at h0
  dsimp only at h0
  unfold Cert.Pre_finite_inputs.fn_part1 at h0
  dsimp only at h0
  unfold Cert.Pre_finite_inputs.fn_part2 at h0
  dsimp only at h0
  unfold Cert.Pre_finite_inputs.fn_part3 at h0
  dsimp only at h0
  unfold Cert.Pre_finite_inputs.fn_part4 at h0
  dsimp only at h0
  unfold Cert.Pre_finite_inputs.fn_part5 at h0
  dsimp only at h0
  simp only [Idealize.ShloMosaic.andi, IntOp.andi_eq_one, and_assoc] at h0
  obtain ⟨t0, t2, t3, t4, t5, t6, t7, t8, t9, t10, t11, t12, t13, t14, t15, t16, t17, t18, t19, t20⟩ := h0
  exact ⟨LibRealArrays.isReal_of_all x0 _ _ _ t0,
    LibRealArrays.isReal_of_all x2 _ _ _ t2,
    LibRealArrays.isReal_of_all x3 _ _ _ t3,
    LibRealArrays.isReal_of_all x4 _ _ _ t4,
    LibRealArrays.isReal_of_all x5 _ _ _ t5,
    LibRealArrays.isReal_of_all x6 _ _ _ t6,
    LibRealArrays.isReal_of_all x7 _ _ _ t7,
    LibRealArrays.isReal_of_all x8 _ _ _ t8,
    LibRealArrays.isReal_of_all x9 _ _ _ t9,
    LibRealArrays.isReal_of_all x10 _ _ _ t10,
    LibRealArrays.isReal_of_all x11 _ _ _ t11,
    LibRealArrays.isReal_of_all x12 _ _ _ t12,
    LibRealArrays.isReal_of_all x13 _ _ _ t13,
    LibRealArrays.isReal_of_all x14 _ _ _ t14,
    LibRealArrays.isReal_of_all x15 _ _ _ t15,
    LibRealArrays.isReal_of_all x16 _ _ _ t16,
    LibRealArrays.isReal_of_all x17 _ _ _ t17,
    LibRealArrays.isReal_of_all x18 _ _ _ t18,
    LibRealArrays.isReal_of_all x19 _ _ _ t19,
    LibRealArrays.isReal_of_all x20 _ _ _ t20⟩

end Cert.Sage

end
-- ==== Proof.lean ====
/-
  A three-layer mean-aggregation graph network with batch normalisation and a two-layer read-out: the tiled kernel
  against the plain reference.

  Both programs gather the rows of the features named by the edges' sources and add them into the rows named by the
  edges' targets; an index outside the array is clamped by the gather and dropped by the sum, alike in both, so real
  features give real neighbour sums whatever the indices. The reference divides the sums by the in-degree clipped at 1,
  applies two dense maps and a bias, normalises every column over the 100000 rows about its mean, and clips at 0. The
  kernel multiplies by the reciprocal of the clipped degree, applies the same dense maps tile by tile, collects per
  tile the column sums of the result and of its square, forms from them one scale and one shift per column (mean of
  squares minus squared mean), and applies them with one multiply-add before clipping. The clipped degree is a real
  number at least 1, so quotient and product with the reciprocal agree; twenty tiles of 5000 rows exhaust the 100000
  rows, so the tile sums add up to the column sums; and for real entries the uncentred variance is the centred one,
  and the multiply-add with the folded scale and shift is the centred normalisation. Real inputs keep every layer
  real, so this repeats three times; the read-out is the same operations in both programs. Narrowing to a shorter
  float format is the identity on the extended reals.

  The idealization ledger is empty, so that conjunct is trivial; the two kernel frames are the generated ones and the
  reference's frame is its run with the result dropped.
-/
import proofs.«104689_j73624329388568_2_alg».proof.Defs
import proofs.«104689_j73624329388568_2_alg».proof.Proof.Gen.Kernel
import proofs.«104689_j73624329388568_2_alg».proof.Proof.Gen.Kernel.Skeleton
import proofs.«104689_j73624329388568_2_alg».proof.Proof.Gen.Kernel.Launch
import proofs.«104689_j73624329388568_2_alg».proof.Proof.Gen.Kernel.Points
import proofs.«104689_j73624329388568_2_alg».proof.Proof.Gen.Kernel.Frame
import proofs.«104689_j73624329388568_2_alg».proof.Proof.Gen.KernelIdeal
import proofs.«104689_j73624329388568_2_alg».proof.Proof.Gen.KernelIdeal.Skeleton
import proofs.«104689_j73624329388568_2_alg».proof.Proof.Gen.KernelIdeal.Launch
import proofs.«104689_j73624329388568_2_alg».proof.Proof.Gen.KernelIdeal.Points
import proofs.«104689_j73624329388568_2_alg».proof.Proof.Gen.KernelIdeal.Frame
import proofs.«104689_j73624329388568_2_alg».proof.Proof.Gen.ReferenceIdeal
import proofs.«104689_j73624329388568_2_alg».proof.Proof.Gen.Pre_finite_inputs
import proofs.«104689_j73624329388568_2_alg».proof.Proof.RefRunP
import proofs.«104689_j73624329388568_2_alg».proof.Proof.KerRun
import proofs.«104689_j73624329388568_2_alg».proof.Proof.Final
import proofs.«104689_j73624329388568_2_alg».proof.Proof.Finite
import Idealize.ShloMosaic.Adequacy
import Idealize.ShloMosaic.Init

set_option maxRecDepth 16384

noncomputable section

namespace Cert.Proof

open Idealize.ShloMosaic Idealize.SL.Sem Idealize.ShloMosaic.TcCoe

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments, the kernel's run and the reference's run end at one result: the
    reference's result stage of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ⟨(h c).1.trans ?_, (h c).2⟩) (Cert.Sage.Ker.run_result (F := Ideal) m ρ)
    letI : Cert.Pre_finite_inputs.Facts := Cert.Pre_finite_inputs.Gen.facts
    obtain ⟨r0, r2, r3, r4, r5, r6, r7, r8, r9, r10, r11, r12, r13, r14, r15, r16, r17, r18, r19, r20⟩ := Cert.Sage.real_of_pre _ _ _ _ _ _ _ _ _ _ _ _ _ _ _ _ _ _ _ _ _ (hpre c)
    exact (Cert.Sage.Ker.result_eq m ρ c).trans
      (Cert.Sage.layers_eq _ _ _ _ _ _ _ _ _ _ _ _ _ _ _ _ _ _ _ _ _ r0 r2 r3 r4 r5 r6 r7 r8 r9 r10 r11 r12 r13 r14 r15 r16)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20⟩ := hagree c
    show Cert.ReferenceIdeal.Read.val_main_v173 (F := Ideal) _ _ _ _ _ _ _ _ _ _ _ _ _ _ _ _ _ _ _ _ _ = _
    rw [a0, a1, a2, a3, a4, a5, a6, a7, a8, a9, a10, a11, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
